-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x64x64x259 : Shape := ⟨5, ![2, 8, 64, 64, 259]⟩
abbrev S2x8x64x64 : Shape := ⟨4, ![2, 8, 64, 64]⟩
abbrev S2x8x4x4 : Shape := ⟨4, ![2, 8, 4, 4]⟩
abbrev S256x256 : Shape := ⟨2, ![256, 256]⟩
abbrev S256 : Shape := ⟨1, ![256]⟩
abbrev S1 : Shape := ⟨1, ![1]⟩
abbrev S_ : Shape := ⟨0, ![]⟩

class Facts : Prop where
  bcast_S_S2x8x64x64x259 : S_.BroadcastsInDim S2x8x64x64x259 (![] : Fin 0 → Fin S2x8x64x64x259.rank)
  reducesTo_S2x8x64x64x259_S_d0_1_2_3_4 : S2x8x64x64x259.ReducesTo [0, 1, 2, 3, 4] S_
  h_S_ : 0 < S_.numel
  bcast_S_S2x8x4x4 : S_.BroadcastsInDim S2x8x4x4 (![] : Fin 0 → Fin S2x8x4x4.rank)
  reducesTo_S2x8x4x4_S_d0_1_2_3 : S2x8x4x4.ReducesTo [0, 1, 2, 3] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S256 .f32) (main_arg16 : FVec F S1 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg12 : FVec F S256x256 .f32) (main_arg13 : FVec F S256 .f32) (main_arg14 : FVec F S256x256 .f32) (main_arg15 : FVec F S256 .f32) (main_arg16 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg14
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg15 main_arg16 main_v63 main_v67

def fn_part2 {F : FTy → Type} [FloatOps F] (main_arg8 : FVec F S256 .f32) (main_arg9 : FVec F S1 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_arg16 main_v48 main_v49 main_v50

def fn_part1 {F : FTy → Type} [FloatOps F] (main_arg5 : FVec F S256x256 .f32) (main_arg6 : FVec F S256 .f32) (main_arg7 : FVec F S256x256 .f32) (main_arg8 : FVec F S256 .f32) (main_arg9 : FVec F S1 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S2x8x64x64x259 .f32) (main_arg1 : IVec S2x8x64x64 1) (main_arg2 : FVec F S2x8x4x4 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S1 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S1 .f32) : IVec S_ 1 :=
  let main_v0 : FVec F S2x8x64x64x259 .f32 := Host.absf main_arg0
  let main_cst : FVec F S_ .f32 := constant S_ .f32 0x7F800000#32
  let main_v1 : FVec F S2x8x64x64x259 .f32 := broadcastInDim S2x8x64x64x259 ![] bcast_S_S2x8x64x64x259 main_cst
  let main_v2 : IVec S2x8x64x64x259 1 := cmpf .olt main_v0 main_v1
  let main_c : IVec S_ 1 := constantI S_ 1 1#1
  let main_v3 : IVec S_ 1 := (fun x v => Host.reduce IntOp.andi x v reducesTo_S2x8x64x64x259_S_d0_1_2_3_4 h_S_) main_v2 main_c
  let main_v4 : FVec F S2x8x4x4 .f32 := Host.absf main_arg2
  let main_cst_0 : FVec F S_ .f32 := constant S_ .f32 0x7F800000#32
  let main_v5 : FVec F S2x8x4x4 .f32 := broadcastInDim S2x8x4x4 ![] bcast_S_S2x8x4x4 main_cst_0
  let main_v6 : IVec S2x8x4x4 1 := cmpf .olt main_v4 main_v5
  let main_c_1 : IVec S_ 1 := constantI S_ 1 1#1
  let main_v7 : IVec S_ 1 := (fun x v => Host.reduce IntOp.andi x v reducesTo_S2x8x4x4_S_d0_1_2_3 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S2x8x64x64x259 : Shape := ⟨5, ![2, 8, 64, 64, 259]⟩
abbrev S2x8x64x64 : Shape := ⟨4, ![2, 8, 64, 64]⟩
abbrev S2x8x4x4 : Shape := ⟨4, ![2, 8, 4, 4]⟩
abbrev S256x256 : Shape := ⟨2, ![256, 256]⟩
abbrev S256 : Shape := ⟨1, ![256]⟩
abbrev S1 : Shape := ⟨1, ![1]⟩
abbrev S16x4096x259 : Shape := ⟨3, ![16, 4096, 259]⟩
abbrev S65536x259 : Shape := ⟨2, ![65536, 259]⟩
abbrev S1x256 : Shape := ⟨2, ![1, 256]⟩
abbrev S1x1 : Shape := ⟨2, ![1, 1]⟩
abbrev S16x4096x256 : Shape := ⟨3, ![16, 4096, 256]⟩
abbrev S1x4096x256 : Shape := ⟨3, ![1, 4096, 256]⟩
abbrev S4096x256 : Shape := ⟨2, ![4096, 256]⟩
abbrev S256x1 : Shape := ⟨2, ![256, 1]⟩
abbrev S256x512 : Shape := ⟨2, ![256, 512]⟩
abbrev S512 : Shape := ⟨1, ![512]⟩
abbrev S1x512 : Shape := ⟨2, ![1, 512]⟩
abbrev S65536x512 : Shape := ⟨2, ![65536, 512]⟩
abbrev S2048x256 : Shape := ⟨2, ![2048, 256]⟩
abbrev S2048x512 : Shape := ⟨2, ![2048, 512]⟩
abbrev S2x8x64x64x512 : Shape := ⟨5, ![2, 8, 64, 64, 512]⟩
abbrev S2x8x64x64x256 : Shape := ⟨5, ![2, 8, 64, 64, 256]⟩
abbrev S2x256x8x64x64 : Shape := ⟨5, ![2, 256, 8, 64, 64]⟩
abbrev S16x256x4096 : Shape := ⟨3, ![16, 256, 4096]⟩

abbrev nBuf : Space → Nat
  | .hbm => 51
  | .vmem => 28
  | .smem => 0
  | _ => 0

abbrev bufTy : (tb : Table) → Fin (tcTables nBuf tb) → BufTy
  | .hbm, ⟨0, _⟩ => ⟨S2x8x64x64x259, .f32⟩
  | .hbm, ⟨1, _⟩ => ⟨S2x8x64x64, .i1⟩
  | .hbm, ⟨2, _⟩ => ⟨S2x8x4x4, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S1, .f32⟩
  | .hbm, ⟨17, _⟩ => ⟨S16x4096x259, .f32⟩
  | .hbm, ⟨18, _⟩ => ⟨S65536x259, .f32⟩
  | .hbm, ⟨19, _⟩ => ⟨S256x256, .f32⟩
  | .hbm, ⟨20, _⟩ => ⟨S256x256, .bf16⟩
  | .hbm, ⟨21, _⟩ => ⟨S256x256, .f32⟩
  | .hbm, ⟨22, _⟩ => ⟨S256x256, .bf16⟩
  | .hbm, ⟨23, _⟩ => ⟨S256x256, .f32⟩
  | .hbm, ⟨24, _⟩ => ⟨S256x256, .bf16⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S1x1, .f32⟩
  | .hbm, ⟨29, _⟩ => ⟨S16x4096x256, .f32⟩
  | .hbm, ⟨30, _⟩ => ⟨S256x256, .f32⟩
  | .hbm, ⟨31, _⟩ => ⟨S256x256, .f32⟩
  | .hbm, ⟨32, _⟩ => ⟨S256x512, .f32⟩
  | .hbm, ⟨33, _⟩ => ⟨S256x512, .bf16⟩
  | .hbm, ⟨34, _⟩ => ⟨S512, .f32⟩
  | .hbm, ⟨35, _⟩ => ⟨S1x512, .f32⟩
  | .hbm, ⟨36, _⟩ => ⟨S65536x512, .bf16⟩
  | .hbm, ⟨37, _⟩ => ⟨S2x8x64x64x512, .bf16⟩
  | .hbm, ⟨38, _⟩ => ⟨S2x8x64x64x256, .bf16⟩
  | .hbm, ⟨39, _⟩ => ⟨S2x8x64x64x256, .bf16⟩
  | .hbm, ⟨40, _⟩ => ⟨S2x8x64x64x256, .bf16⟩
  | .hbm, ⟨41, _⟩ => ⟨S16x4096x256, .bf16⟩
  | .hbm, ⟨42, _⟩ => ⟨S2x256x8x64x64, .bf16⟩
  | .hbm, ⟨43, _⟩ => ⟨S16x256x4096, .bf16⟩
  | .hbm, ⟨44, _⟩ => ⟨S16x4096x256, .bf16⟩
  | .hbm, ⟨45, _⟩ => ⟨S256x256, .f32⟩
  | .hbm, ⟨46, _⟩ => ⟨S256x256, .bf16⟩
  | .hbm, ⟨47, _⟩ => ⟨S1x256, .f32⟩
  | .hbm, ⟨48, _⟩ => ⟨S1x1, .f32⟩
  | .hbm, ⟨49, _⟩ => ⟨S16x4096x256, .f32⟩
  | .hbm, ⟨50, _⟩ => ⟨S2x8x64x64x256, .f32⟩
  | .local _ .vmem, ⟨0, _⟩ => ⟨S1x4096x256, .f32⟩
  | .local _ .vmem, ⟨1, _⟩ => ⟨S1x4096x256, .f32⟩
  | .local _ .vmem, ⟨2, _⟩ => ⟨S256x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S1x1, .f32⟩
  | .local _ .vmem, ⟨9, _⟩ => ⟨S1x4096x256, .f32⟩
  | .local _ .vmem, ⟨10, _⟩ => ⟨S1x4096x256, .f32⟩
  | .local _ .vmem, ⟨11, _⟩ => ⟨S2048x256, .f32⟩
  | .local _ .vmem, ⟨12, _⟩ => ⟨S2048x256, .f32⟩
  | .local _ .vmem, ⟨13, _⟩ => ⟨S256x512, .bf16⟩
  | .local _ .vmem, ⟨14, _⟩ => ⟨S1x512, .f32⟩
  | .local _ .vmem, ⟨15, _⟩ => ⟨S2048x512, .bf16⟩
  | .local _ .vmem, ⟨16, _⟩ => ⟨S2048x512, .bf16⟩
  | .local _ .vmem, ⟨17, _⟩ => ⟨S1x4096x256, .f32⟩
  | .local _ .vmem, ⟨18, _⟩ => ⟨S1x4096x256, .f32⟩
  | .local _ .vmem, ⟨19, _⟩ => ⟨S256x256, .bf16⟩
  | .local _ .vmem, ⟨20, _⟩ => ⟨S1x256, .f32⟩
  | .local _ .vmem, ⟨21, _⟩ => ⟨S1x4096x256, .bf16⟩
  | .local _ .vmem, ⟨22, _⟩ => ⟨S1x4096x256, .bf16⟩
  | .local _ .vmem, ⟨23, _⟩ => ⟨S1x4096x256, .bf16⟩
  | .local _ .vmem, ⟨24, _⟩ => ⟨S1x4096x256, .bf16⟩
  | .local _ .vmem, ⟨25, _⟩ => ⟨S1x1, .f32⟩
  | .local _ .vmem, ⟨26, _⟩ => ⟨S1x4096x256, .f32⟩
  | .local _ .vmem, ⟨27, _⟩ => ⟨S1x4096x256, .f32⟩
  | _, _ => ⟨S2x8x64x64x259, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22
abbrev cc2_sem4_0 : DmaSem sig := 23
abbrev cc2_sem4_1 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x4096x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x4096x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x4096x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1x4096x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S2x8x64x64x259_S16x4096x259 : S2x8x64x64x259.ShapeCasts S16x4096x259
  shapeCasts_S2x8x64x64x259_S65536x259 : S2x8x64x64x259.ShapeCasts S65536x259
  transposes_S256x256_S256x256_1_0 : S256x256.Transposes [1, 0] S256x256
  bitsLt_bf16_f32 : FTy.bits .bf16 < FTy.bits .f32
  shapeCasts_S256_S1x256 : S256.ShapeCasts S1x256
  shapeCasts_S1_S1x1 : S1.ShapeCasts S1x1
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  reduces_S256x256_S256 : S256x256.Reduces [1] S256
  shapeCasts_S256_S256x1 : S256.ShapeCasts S256x1
  broadcasts_S256x1_S256x256 : S256x1.Broadcasts S256x256
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S4096x256_S1x4096x256 : S4096x256.ShapeCasts S1x4096x256
  concatenates_S256x256_S256x256_S256x512_d1 : Shape.Concatenates [S256x256, S256x256] S256x512 1
  concatenates_S256_S256_S512_d0 : Shape.Concatenates [S256, S256] S512 0
  shapeCasts_S512_S1x512 : S512.ShapeCasts S1x512
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  packedbf16_S2048x512_S2048x512_0_0 : (Rect.unit (s := S2048x512) ![0, 0] S2048x512.size inb_S2048x512_S2048x512_0_0).PackedRows (EltTy.packing .bf16)
  shapeCasts_S65536x512_S2x8x64x64x512 : S65536x512.ShapeCasts S2x8x64x64x512
  slices_S2x8x64x64x512_S2x8x64x64x256_0_0_0_0_0 : S2x8x64x64x512.Slices ![0, 0, 0, 0, 0] S2x8x64x64x256
  slices_S2x8x64x64x512_S2x8x64x64x256_0_0_0_0_256 : S2x8x64x64x512.Slices ![0, 0, 0, 0, 256] S2x8x64x64x256
  transposes_S2x8x64x64x256_S2x8x64x64x256_0_1_3_2_4 : S2x8x64x64x256.Transposes [0, 1, 3, 2, 4] S2x8x64x64x256
  shapeCasts_S2x8x64x64x256_S16x4096x256 : S2x8x64x64x256.ShapeCasts S16x4096x256
  transposes_S2x8x64x64x256_S2x256x8x64x64_0_4_1_2_3 : S2x8x64x64x256.Transposes [0, 4, 1, 2, 3] S2x256x8x64x64
  shapeCasts_S2x256x8x64x64_S16x256x4096 : S2x256x8x64x64.ShapeCasts S16x256x4096
  transposes_S16x256x4096_S16x4096x256_0_2_1 : S16x256x4096.Transposes [0, 2, 1] S16x4096x256
  shapeCasts_S16x4096x256_S2x8x64x64x256 : S16x4096x256.ShapeCasts S2x8x64x64x256
  dot_S4096x256_S256x256_S4096x256_1_0_0_1_n_n_wf : DotDims.WF S4096x256 S256x256 S4096x256 [1] [0] [0] [1] [] []
  dot_S4096x256_S4096x256_S256x256_0_0_1_1_n_n_wf : DotDims.WF S4096x256 S4096x256 S256x256 [0] [0] [1] [1] [] []
  dot_S4096x256_S256x256_S4096x256_1_1_0_0_n_n_wf : DotDims.WF S4096x256 S256x256 S4096x256 [1] [1] [0] [0] [] []
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x4096x256.size a < S16x4096x259.size a
  hwx0_0 : ∀ i : grid0.Coords, EltTy.bits .f32 = 32 ∨ (Rect.unit (s := S16x4096x259) (fun a => cc0_transform_0 i a * S1x4096x256.size a) (fun a => (Pipeline.Clip.of (cc0_transform_0 i a) (S1x4096x256.size a) (S16x4096x259.size a)).extent (S1x4096x256.size a)) fun a => Pipeline.Clip.inb (Pipeline.Clip.ok_of (hstart0_0 i a))).WholeWords (EltTy.packing .f32)
  hwxs0_0 : ∀ i : grid0.Coords, EltTy.bits .f32 = 32 ∨ (Rect.unit (s := S1x4096x256) (fun _ => 0) (fun a => (Pipeline.Clip.of (cc0_transform_0 i a) (S1x4096x256.size a) (S16x4096x259.size a)).extent (S1x4096x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x4096x256.size a ≤ S16x4096x256.size a
  hwx0_8 : ∀ i : grid0.Coords, EltTy.bits .f32 = 32 ∨ (Rect.block (s := S16x4096x256) S1x4096x256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S2048x256.size a < S65536x259.size a
  hwx1_0 : ∀ i : grid1.Coords, EltTy.bits .f32 = 32 ∨ (Rect.unit (s := S65536x259) (fun a => cc1_transform_0 i a * S2048x256.size a) (fun a => (Pipeline.Clip.of (cc1_transform_0 i a) (S2048x256.size a) (S65536x259.size a)).extent (S2048x256.size a)) fun a => Pipeline.Clip.inb (Pipeline.Clip.ok_of (hstart1_0 i a))).WholeWords (EltTy.packing .f32)
  hwxs1_0 : ∀ i : grid1.Coords, EltTy.bits .f32 = 32 ∨ (Rect.unit (s := S2048x256) (fun _ => 0) (fun a => (Pipeline.Clip.of (cc1_transform_0 i a) (S2048x256.size a) (S65536x259.size a)).extent (S2048x256.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S256x512.size a
  hwx1_1 : ∀ i : grid1.Coords, EltTy.bits .bf16 = 32 ∨ (Rect.block (s := S256x512) S256x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x512.size a ≤ S65536x512.size a
  hwx1_3 : ∀ i : grid1.Coords, EltTy.bits .bf16 = 32 ∨ (Rect.block (s := S65536x512) S2048x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x4096x256.size a ≤ S16x4096x256.size a
  hwx2_0 : ∀ i : grid2.Coords, EltTy.bits .f32 = 32 ∨ (Rect.block (s := S16x4096x256) S1x4096x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x4096x256.size a ≤ S16x4096x256.size a
  hwx2_3 : ∀ i : grid2.Coords, EltTy.bits .bf16 = 32 ∨ (Rect.block (s := S16x4096x256) S1x4096x256.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x4096x256.size a ≤ S16x4096x256.size a
  hwx2_4 : ∀ i : grid2.Coords, EltTy.bits .bf16 = 32 ∨ (Rect.block (s := S16x4096x256) S1x4096x256.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x4096x256.size a ≤ S16x4096x256.size a
  hwx2_6 : ∀ i : grid2.Coords, EltTy.bits .f32 = 32 ∨ (Rect.block (s := S16x4096x256) S1x4096x256.size (cc2_transform_6 i) (hinb2_6 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S4096x256_S256x256_0_0_1_1_n_n : DotDims S4096x256 S4096x256 S256x256 where
  lhsContracting := [0]
  rhsContracting := [0]
  lhsNonContracting := [1]
  rhsNonContracting := [1]
  lhsBatch := []
  rhsBatch := []
  wf := dot_S4096x256_S4096x256_S256x256_0_0_1_1_n_n_wf
def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpecClip (Memref.whole main_v0) S1x4096x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x4096x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpecClip (Memref.whole main_v1) S2048x256.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v16) S256x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S2048x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v12) S1x4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S1x4096x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v27) S1x4096x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v31) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v32) S1x4096x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S2x8x64x64x259 : Shape := ⟨5, ![2, 8, 64, 64, 259]⟩
abbrev S2x8x64x64 : Shape := ⟨4, ![2, 8, 64, 64]⟩
abbrev S2x8x4x4 : Shape := ⟨4, ![2, 8, 4, 4]⟩
abbrev S256x256 : Shape := ⟨2, ![256, 256]⟩
abbrev S256 : Shape := ⟨1, ![256]⟩
abbrev S1 : Shape := ⟨1, ![1]⟩
abbrev S2x8x64x64x256 : Shape := ⟨5, ![2, 8, 64, 64, 256]⟩
abbrev S1x1x1x1x256 : Shape := ⟨5, ![1, 1, 1, 1, 256]⟩
abbrev S2x8x256x64x64 : Shape := ⟨5, ![2, 8, 256, 64, 64]⟩
abbrev S16x256x4096 : Shape := ⟨3, ![16, 256, 4096]⟩
abbrev S16x256x256 : Shape := ⟨3, ![16, 256, 256]⟩
abbrev S_ : Shape := ⟨0, ![]⟩
abbrev S16x256 : Shape := ⟨2, ![16, 256]⟩
abbrev S16x256x1 : Shape := ⟨3, ![16, 256, 1]⟩
abbrev S16x4096x256 : Shape := ⟨3, ![16, 4096, 256]⟩
abbrev S1x1x1x1x1 : Shape := ⟨5, ![1, 1, 1, 1, 1]⟩
abbrev S2x256x8x64x64 : Shape := ⟨5, ![2, 256, 8, 64, 64]⟩

abbrev nBuf : Space → Nat
  | .hbm => 96
  | .vmem => 0
  | .smem => 0
  | _ => 0

abbrev bufTy : (tb : Table) → Fin (tcTables nBuf tb) → BufTy
  | .hbm, ⟨0, _⟩ => ⟨S2x8x64x64x259, .f32⟩
  | .hbm, ⟨1, _⟩ => ⟨S2x8x64x64, .i1⟩
  | .hbm, ⟨2, _⟩ => ⟨S2x8x4x4, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S1, .f32⟩
  | .hbm, ⟨17, _⟩ => ⟨S2x8x64x64x256, .f32⟩
  | .hbm, ⟨18, _⟩ => ⟨S2x8x64x64x256, .f32⟩
  | .hbm, ⟨19, _⟩ => ⟨S1x1x1x1x256, .f32⟩
  | .hbm, ⟨20, _⟩ => ⟨S2x8x64x64x256, .f32⟩
  | .hbm, ⟨21, _⟩ => ⟨S2x8x64x64x256, .f32⟩
  | .hbm, ⟨22, _⟩ => ⟨S2x8x256x64x64, .f32⟩
  | .hbm, ⟨23, _⟩ => ⟨S16x256x4096, .f32⟩
  | .hbm, ⟨24, _⟩ => ⟨S2x8x64x64x256, .f32⟩
  | .hbm, ⟨25, _⟩ => ⟨S1x1x1x1x256, .f32⟩
  | .hbm, ⟨26, _⟩ => ⟨S2x8x64x64x256, .f32⟩
  | .hbm, ⟨27, _⟩ => ⟨S2x8x64x64x256, .f32⟩
  | .hbm, ⟨28, _⟩ => ⟨S2x8x256x64x64, .f32⟩
  | .hbm, ⟨29, _⟩ => ⟨S16x256x4096, .f32⟩
  | .hbm, ⟨30, _⟩ => ⟨S16x256x256, .f32⟩
  | .hbm, ⟨31, _⟩ => ⟨S_, .f32⟩
  | .hbm, ⟨32, _⟩ => ⟨S16x256, .f32⟩
  | .hbm, ⟨33, _⟩ => ⟨S_, .f32⟩
  | .hbm, ⟨34, _⟩ => ⟨S16x256, .f32⟩
  | .hbm, ⟨35, _⟩ => ⟨S16x256, .f32⟩
  | .hbm, ⟨36, _⟩ => ⟨S16x256x1, .f32⟩
  | .hbm, ⟨37, _⟩ => ⟨S16x256x256, .f32⟩
  | .hbm, ⟨38, _⟩ => ⟨S16x256x256, .f32⟩
  | .hbm, ⟨39, _⟩ => ⟨S16x256x256, .f32⟩
  | .hbm, ⟨40, _⟩ => ⟨S_, .f32⟩
  | .hbm, ⟨41, _⟩ => ⟨S16x256, .f32⟩
  | .hbm, ⟨42, _⟩ => ⟨S16x256x1, .f32⟩
  | .hbm, ⟨43, _⟩ => ⟨S16x256x256, .f32⟩
  | .hbm, ⟨44, _⟩ => ⟨S16x256x256, .f32⟩
  | .hbm, ⟨45, _⟩ => ⟨S2x8x64x64x256, .f32⟩
  | .hbm, ⟨46, _⟩ => ⟨S1x1x1x1x256, .f32⟩
  | .hbm, ⟨47, _⟩ => ⟨S2x8x64x64x256, .f32⟩
  | .hbm, ⟨48, _⟩ => ⟨S2x8x64x64x256, .f32⟩
  | .hbm, ⟨49, _⟩ => ⟨S2x8x256x64x64, .f32⟩
  | .hbm, ⟨50, _⟩ => ⟨S16x256x4096, .f32⟩
  | .hbm, ⟨51, _⟩ => ⟨S16x4096x256, .f32⟩
  | .hbm, ⟨52, _⟩ => ⟨S2x8x64x64x256, .f32⟩
  | .hbm, ⟨53, _⟩ => ⟨S1x1x1x1x1, .f32⟩
  | .hbm, ⟨54, _⟩ => ⟨S2x8x64x64x256, .f32⟩
  | .hbm, ⟨55, _⟩ => ⟨S2x8x64x64x256, .f32⟩
  | .hbm, ⟨56, _⟩ => ⟨S2x8x64x64x256, .f32⟩
  | .hbm, ⟨57, _⟩ => ⟨S2x8x64x64x256, .f32⟩
  | .hbm, ⟨58, _⟩ => ⟨S1x1x1x1x256, .f32⟩
  | .hbm, ⟨59, _⟩ => ⟨S2x8x64x64x256, .f32⟩
  | .hbm, ⟨60, _⟩ => ⟨S2x8x64x64x256, .f32⟩
  | .hbm, ⟨61, _⟩ => ⟨S2x8x256x64x64, .f32⟩
  | .hbm, ⟨62, _⟩ => ⟨S16x256x4096, .f32⟩
  | .hbm, ⟨63, _⟩ => ⟨S2x8x64x64x256, .f32⟩
  | .hbm, ⟨64, _⟩ => ⟨S1x1x1x1x256, .f32⟩
  | .hbm, ⟨65, _⟩ => ⟨S2x8x64x64x256, .f32⟩
  | .hbm, ⟨66, _⟩ => ⟨S2x8x64x64x256, .f32⟩
  | .hbm, ⟨67, _⟩ => ⟨S2x8x256x64x64, .f32⟩
  | .hbm, ⟨68, _⟩ => ⟨S16x256x4096, .f32⟩
  | .hbm, ⟨69, _⟩ => ⟨S16x256x256, .f32⟩
  | .hbm, ⟨70, _⟩ => ⟨S_, .f32⟩
  | .hbm, ⟨71, _⟩ => ⟨S16x256, .f32⟩
  | .hbm, ⟨72, _⟩ => ⟨S_, .f32⟩
  | .hbm, ⟨73, _⟩ => ⟨S16x256, .f32⟩
  | .hbm, ⟨74, _⟩ => ⟨S16x256, .f32⟩
  | .hbm, ⟨75, _⟩ => ⟨S16x256x1, .f32⟩
  | .hbm, ⟨76, _⟩ => ⟨S16x256x256, .f32⟩
  | .hbm, ⟨77, _⟩ => ⟨S16x256x256, .f32⟩
  | .hbm, ⟨78, _⟩ => ⟨S16x256x256, .f32⟩
  | .hbm, ⟨79, _⟩ => ⟨S_, .f32⟩
  | .hbm, ⟨80, _⟩ => ⟨S16x256, .f32⟩
  | .hbm, ⟨81, _⟩ => ⟨S16x256x1, .f32⟩
  | .hbm, ⟨82, _⟩ => ⟨S16x256x256, .f32⟩
  | .hbm, ⟨83, _⟩ => ⟨S16x256x256, .f32⟩
  | .hbm, ⟨84, _⟩ => ⟨S2x8x64x64x256, .f32⟩
  | .hbm, ⟨85, _⟩ => ⟨S1x1x1x1x256, .f32⟩
  | .hbm, ⟨86, _⟩ => ⟨S2x8x64x64x256, .f32⟩
  | .hbm, ⟨87, _⟩ => ⟨S2x8x64x64x256, .f32⟩
  | .hbm, ⟨88, _⟩ => ⟨S2x256x8x64x64, .f32⟩
  | .hbm, ⟨89, _⟩ => ⟨S16x256x4096, .f32⟩
  | .hbm, ⟨90, _⟩ => ⟨S16x4096x256, .f32⟩
  | .hbm, ⟨91, _⟩ => ⟨S2x8x64x64x256, .f32⟩
  | .hbm, ⟨92, _⟩ => ⟨S1x1x1x1x1, .f32⟩
  | .hbm, ⟨93, _⟩ => ⟨S2x8x64x64x256, .f32⟩
  | .hbm, ⟨94, _⟩ => ⟨S2x8x64x64x256, .f32⟩
  | .hbm, ⟨95, _⟩ => ⟨S2x8x64x64x256, .f32⟩
  | _, _ => ⟨S2x8x64x64x259, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_2 : Ref sig .tc := ⟨.hbm, 70, rfl⟩
abbrev main_v50 : Ref sig .tc := ⟨.hbm, 71, rfl⟩
abbrev main_cst_3 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_4 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩

abbrev nD : Nat := 1
abbrev τ : Topo := Topo.v7x

variable {F : FTy → Type} [FloatOps F]

class Facts₀ : Prop where
  slices_S2x8x64x64x259_S2x8x64x64x256_0_0_0_0_0 : S2x8x64x64x259.Slices ![0, 0, 0, 0, 0] S2x8x64x64x256
  bcast_S256_S1x1x1x1x256_4 : S256.BroadcastsInDim S1x1x1x1x256 (![4] : Fin 1 → Fin S1x1x1x1x256.rank)
  bcast_S1x1x1x1x256_S2x8x64x64x256_0_1_2_3_4 : S1x1x1x1x256.BroadcastsInDim S2x8x64x64x256 (![0, 1, 2, 3, 4] : Fin 5 → Fin S2x8x64x64x256.rank)
  transposes_S2x8x64x64x256_S2x8x256x64x64_0_1_4_2_3 : S2x8x64x64x256.Transposes [0, 1, 4, 2, 3] S2x8x256x64x64
  shapeCasts_S2x8x256x64x64_S16x256x4096 : S2x8x256x64x64.ShapeCasts S16x256x4096
  reducesTo_S16x256x256_S16x256_d2 : S16x256x256.ReducesTo [2] S16x256
  h_S_ : 0 < S_.numel
  bcast_S_S16x256 : S_.BroadcastsInDim S16x256 (![] : Fin 0 → Fin S16x256.rank)
  bcast_S16x256_S16x256x1_0_1 : S16x256.BroadcastsInDim S16x256x1 (![0, 1] : Fin 2 → Fin S16x256x1.rank)
  bcast_S16x256x1_S16x256x256_0_1_2 : S16x256x1.BroadcastsInDim S16x256x256 (![0, 1, 2] : Fin 3 → Fin S16x256x256.rank)
  shapeCasts_S16x4096x256_S2x8x64x64x256 : S16x4096x256.ShapeCasts S2x8x64x64x256
  bcast_S1_S1x1x1x1x1_4 : S1.BroadcastsInDim S1x1x1x1x1 (![4] : Fin 1 → Fin S1x1x1x1x1.rank)
  bcast_S1x1x1x1x1_S2x8x64x64x256_0_1_2_3_4 : S1x1x1x1x1.BroadcastsInDim S2x8x64x64x256 (![0, 1, 2, 3, 4] : Fin 5 → Fin S2x8x64x64x256.rank)
  transposes_S2x8x64x64x256_S2x8x256x64x64_0_1_4_3_2 : S2x8x64x64x256.Transposes [0, 1, 4, 3, 2] S2x8x256x64x64
  transposes_S2x8x64x64x256_S2x256x8x64x64_0_4_1_2_3 : S2x8x64x64x256.Transposes [0, 4, 1, 2, 3] S2x256x8x64x64
  shapeCasts_S2x256x8x64x64_S16x256x4096 : S2x256x8x64x64.ShapeCasts S16x256x4096
  dot_S2x8x64x64x256_S256x256_S2x8x64x64x256_4_1_0123_0_n_n_wf : DotDims.WF S2x8x64x64x256 S256x256 S2x8x64x64x256 [4] [1] [0, 1, 2, 3] [0] [] []
  dot_S16x256x4096_S16x256x4096_S16x256x256_2_2_1_1_0_0_wf : DotDims.WF S16x256x4096 S16x256x4096 S16x256x256 [2] [2] [1] [1] [0] [0]
  dot_S16x256x4096_S16x256x256_S16x4096x256_1_2_2_1_0_0_wf : DotDims.WF S16x256x4096 S16x256x256 S16x4096x256 [1] [2] [2] [1] [0] [0]

variable [Facts₀]

def dot_S2x8x64x64x256_S256x256_S2x8x64x64x256_4_1_0123_0_n_n : DotDims S2x8x64x64x256 S256x256 S2x8x64x64x256 where
  lhsContracting := [4]
  rhsContracting := [1]
  lhsNonContracting := [0, 1, 2, 3]
  rhsNonContracting := [0]
  lhsBatch := []
  rhsBatch := []
  wf := dot_S2x8x64x64x256_S256x256_S2x8x64x64x256_4_1_0123_0_n_n_wf
def dot_S16x256x4096_S16x256x4096_S16x256x256_2_2_1_1_0_0 : DotDims S16x256x4096 S16x256x4096 S16x256x256 where
  lhsContracting := [2]
  rhsContracting := [2]
  lhsNonContracting := [1]
  rhsNonContracting := [1]
  lhsBatch := [0]
  rhsBatch := [0]
  wf := dot_S16x256x4096_S16x256x4096_S16x256x256_2_2_1_1_0_0_wf
def dot_S16x256x4096_S16x256x256_S16x4096x256_1_2_2_1_0_0 : DotDims S16x256x4096 S16x256x256 S16x4096x256 where
  lhsContracting := [1]
  rhsContracting := [2]
  lhsNonContracting := [2]
  rhsNonContracting := [1]
  lhsBatch := [0]
  rhsBatch := [0]
  wf := dot_S16x256x4096_S16x256x256_S16x4096x256_1_2_2_1_0_0_wf

class Facts : Prop extends Facts₀ where

variable [Facts]
-- ==== Proof.LibUncutFill.lean ====
/-
  A pipelined window whose transfer at given grid coordinates is cut on no axis moves every coordinate of its block:
  filling a staging buffer with a fetched block then overwrites the whole buffer, whatever it held before, and the
  result is the fetched block read at the same coordinates.
-/
import Idealize.ShloMosaic.Lib.Pipeline

namespace Idealize.ShloMosaic.Pipeline.Window

variable {sig : RefSig} {G : Grid} (w : Window sig G)

/-- When no axis is cut at `i` the moved part has the block's own extents. -/
theorem xsize_eq_of_clip_none (i : G.Coords) (h : ∀ a, w.clip i a = none) (a : Fin w.shape.rank) :
    w.xsize i a = w.size a := by
  show (w.clip i a).extent (w.size a) = w.size a
  rw [h a]

/-- With the moved part as large as the block, every coordinate of the block is moved. -/
theorem moved_of_xsize_eq (i : G.Coords) (hx : ∀ a, w.xsize i a = w.size a) (j : w.block.Idx) : w.moved i j = true :=
  (w.moved_iff i j).mpr fun a => by rw [hx a]; exact (j a).isLt

/-- A block index as an index of the (equally large) moved part. -/
def uncutIdx (i : G.Coords) (hx : ∀ a, w.xsize i a = w.size a) (j : w.block.Idx) : (w.xblock i).Idx :=
  fun a => ⟨(j a).val, by show (j a).val < w.xsize i a; rw [hx a]; exact (j a).isLt⟩

/-- Filling an uncut block replaces all of it: the buffer's earlier contents `d` are gone. -/
theorem fill_eq_of_uncut {α : Type} (i : G.Coords) (hx : ∀ a, w.xsize i a = w.size a) (d : w.block.Idx → α)
    (g : (w.xblock i).Idx → α) : w.fill i d g = fun j => g (w.uncutIdx i hx j) := by
  funext j
  unfold fill
  rw [dif_pos (w.moved_of_xsize_eq i hx j)]
  rfl

/-- Cutting back what an uncut fill wrote returns the fetched block. -/
theorem cut_uncut {α : Type} (i : G.Coords) (hx : ∀ a, w.xsize i a = w.size a) (g : (w.xblock i).Idx → α) :
    w.cut i (fun j => g (w.uncutIdx i hx j)) = g := by
  funext j
  show g (w.uncutIdx i hx (w.xinj i j)) = g j
  congr 1

end Idealize.ShloMosaic.Pipeline.Window
-- ==== Proof.KbSpatial.lean ====
/-
  The spatial attention call, one grid point per (batch, frame) slice: the slice's [4096,256] block (lanes 0..255 of
  a 259-lane array) is projected three ways, the channel-by-channel logits are soft-maxed along their last axis, the
  values are mixed by them, and gamma times that plus the block is written back. What one grid point does to its
  staging buffers, stated at any buffer contents `V` found when the call is entered.

  Window 0's block never reaches past its array at any of the 16 points (lane block 0 only), so its fetch fills the
  whole staging buffer. Windows 1 to 7 (three weight matrices, three bias rows, gamma) are fetched once and stay;
  window 8 is written back at every point.
-/
import proofs.«150414_j59957743452648_2_alg».proof.Proof.Gen.Kernel.Launch
import proofs.«150414_j59957743452648_2_alg».proof.Proof.Gen.Kernel.Skeleton
import proofs.«150414_j59957743452648_2_alg».proof.Proof.Gen.Kernel.Points
import proofs.«150414_j59957743452648_2_alg».proof.Proof.LibUncutFill
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Spatial

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- No axis of window 0's block is cut at any point: on the 259-lane axis the block index is always 0. -/
theorem clip_none : ∀ (t : Fin cfg0.N) (a : Fin (cfg0.win 0).shape.rank), (cfg0.win 0).clip (cfg0.grid.coords t) a = none :=
  (by decide +kernel : ∀ (t : Fin grid0.N) (a : Fin win0_0.shape.rank), win0_0.clip (grid0.coords t) a = none)

theorem xsize_eq (t : Fin cfg0.N) (a : Fin (cfg0.win 0).shape.rank) :
    (cfg0.win 0).xsize (cfg0.grid.coords t) a = (cfg0.win 0).size a :=
  (cfg0.win 0).xsize_eq_of_clip_none _ (clip_none t) a

/-- What the fetch at point `t` puts in window 0's staging buffer: the whole block, lanes 0..255 of the array's rows. -/
def rows (c : Dev nD) (t : Fin cfg0.N) : Vec F S1x4096x256 .f32 :=
  fun j => iblk V c 0 t ((cfg0.win 0).uncutIdx (cfg0.grid.coords t) (xsize_eq t) j)

/-! ## Each input window's staging buffer holds its block when the body runs, fetched at that point or kept -/

/-- Window 0's staging buffer holds `rows` when the body runs, whatever it held before the fetch. -/
theorem before_0_of {c : Dev nD} (dat : Dat τ (Elt F) Unit ℕ (UR sig nD τ) ℕ cfg0 c) (hA : dat.A 0 = V c (Pipeline.arrRef spec0 0))
    (hafter : ∀ t, dat.after 0 t = rows V c t) (t : Fin cfg0.N) (d) : dat.before 0 t d = rows V c t := by
  rw [dat.before_in_eq_fetched 0 rfl (fun _ => rfl)
    (fun t t' _ => funext fun a => (clip_none t a).trans (clip_none t' a).symm)
    (fun t => by
      rw [hafter]; unfold rows
      rw [(cfg0.win 0).cut_uncut (cfg0.grid.coords t) (xsize_eq t)]
      unfold Dat.blockOf iblk; rw [hA]; try rfl) t d]
  unfold Dat.fetched
  rw [(cfg0.win 0).fill_eq_of_uncut (cfg0.grid.coords t) (xsize_eq t)]
  unfold rows Dat.blockOf iblk; rw [hA]
  try rfl

theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store take a whole buffer -/

abbrev rS1x4096x256 : Rect S1x4096x256 := Rect.unit (s := S1x4096x256) ![0, 0, 0] S1x4096x256.size inb_S1x4096x256_S1x4096x256_0_0_0
abbrev rS256x256 : Rect S256x256 := Rect.unit (s := S256x256) ![0, 0] S256x256.size inb_S256x256_S256x256_0_0
abbrev rS1x256 : Rect S1x256 := Rect.unit (s := S1x256) ![0, 0] S1x256.size inb_S1x256_S1x256_0_0
abbrev rS1x1 : Rect S1x1 := Rect.unit (s := S1x1) ![0, 0] S1x1.size inb_S1x1_S1x1_0_0

/-- What the body leaves in the output window's staging buffer, as one store of the payload of what it loaded. -/
def out (x0 : Vec F S1x4096x256 .f32) (x1 : Vec F S256x256 .bf16) (x2 : Vec F S1x256 .f32) (x3 : Vec F S256x256 .bf16) (x4 : Vec F S1x256 .f32) (x5 : Vec F S256x256 .bf16) (x6 : Vec F S1x256 .f32) (x7 : Vec F S1x1 .f32) : Vec F S1x4096x256 .f32 :=
  View.canon [⟨rS1x4096x256, k0_pay1 (k0_pay2 (View.ld x0 rS1x4096x256)) (k0_pay4 (View.ld x0 rS1x4096x256) (View.ld x1 rS256x256) (View.ld x2 rS1x256) (View.ld x3 rS256x256) (View.ld x4 rS1x256)) (k0_pay5 (View.ld x0 rS1x4096x256) (View.ld x5 rS256x256) (View.ld x6 rS1x256)) (View.ld x7 rS1x1)⟩]

theorem cover_out (p0 : Vec F S1x4096x256 .f32) (y : S1x4096x256.Idx) :
    ∃ pc ∈ ([⟨rS1x4096x256, p0⟩] : List (View.Piece (Elt F) S1x4096x256 .f32)), y ∈ pc.1.set :=
  View.cover_of_tiled [⟨rS1x4096x256, p0⟩] S1x4096x256.size (by rfl) y

/-! ## The body's triple -/

set_option maxHeartbeats 1000000 in
/-- On whole staging buffers, the inputs at known contents and the output at anything, the body ends with the
    inputs untouched and the output at `out` of them. -/
theorem sound_kernel (c : Dev nD) (E : Set ℕ) (i : grid0.Coords)
    (arg1 : Memref sig .tc .vmem S1x4096x256 .f32) (harg1 : arg1.IsWhole) (arg2 : Memref sig .tc .vmem S256x256 .bf16) (harg2 : arg2.IsWhole) (arg3 : Memref sig .tc .vmem S1x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x1 .f32) (harg8 : arg8.IsWhole) (arg9 : Memref sig .tc .vmem S1x4096x256 .f32) (harg9 : arg9.IsWhole)
    (x0 : Vec F S1x4096x256 .f32) (x1 : Vec F S256x256 .bf16) (x2 : Vec F S1x256 .f32) (x3 : Vec F S256x256 .bf16) (x4 : Vec F S1x256 .f32) (x5 : Vec F S256x256 .bf16) (x6 : Vec F S1x256 .f32) (x7 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out x0 x1 x2 x3 x4 x5 x6 x7)) -∗ K ⟨⟩))
      ⊢ wp frame (wpE (defs₀ (F := F)) Variants.none c none) E (cc0__spatial_attn_kernel i arg1 harg1 arg2 harg2 arg3 harg3 arg4 harg4 arg5 harg5 arg6 harg6 arg7 harg7 arg8 harg8 arg9 harg9) K := by
  simp only [cc0__spatial_attn_kernel_eq_skeleton]; unfold cc0__spatial_attn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dO, %fO, -, HO⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact HO
  ipureintro
  try dsimp only
  exact View.read_writes_eq_canon _ _ _ (cover_out _)

/-! ## The proof data -/

/-- After the body at point `t`: each input buffer still at its block, the output buffer at `out` of them. -/
def dat (c : Dev nD) : Dat τ (Elt F) Unit ℕ (UR sig nD τ) ℕ cfg0 c where
  A w := V c (Pipeline.arrRef spec0 w)
  after w t := match w with
    | ⟨0, _⟩ => rows V c t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => out (rows V c t) (iblk V c 1 t) (iblk V c 2 t) (iblk V c 3 t) (iblk V c 4 t) (iblk V c 5 t) (iblk V c 6 t) (iblk V c 7 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = rows V c t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = out (rows V c t) (iblk V c 1 t) (iblk V c 2 t) (iblk V c 3 t) (iblk V c 4 t) (iblk V c 5 t) (iblk V c 6 t) (iblk V c 7 t) := by dsimp only [dat]

theorem before_0 (c : Dev nD) (t : Fin cfg0.N) (d) : (dat V c).before 0 t d = rows V c t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d
theorem before_6 (c : Dev nD) (t : Fin cfg0.N) (d) : (dat V c).before 6 t d = iblk V c 6 t :=
  before_6_of V (dat V c) (A_eq V c 6) (after_6 V c) t d
theorem before_7 (c : Dev nD) (t : Fin cfg0.N) (d) : (dat V c).before 7 t d = iblk V c 7 t :=
  before_7_of V (dat V c) (A_eq V c 7) (after_7 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7]
  rw [show (dat V c).Φ t.succ = (dat V c).Φ t.castSucc from rfl,
    show (dat V c).owesAt () t.succ = (dat V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (rows V c t) (iblk V c 1 t) (iblk V c 2 t) (iblk V c 3 t) (iblk V c 4 t) (iblk V c 5 t) (iblk V c 6 t) (iblk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dat (F := F) V c) (defs₀ (F := F)) Variants.none () Set.univ := fun t => by
  rw [bigSep_W0, bigSep_W0]
  exact sound_body V c t

end Cert.Kernel.Spatial

end
-- ==== Proof.KbConv.lean ====
/-
  The projection call: a [65536,259] array of rows, read 2048 rows and its first 256 lanes at a time, times a
  [256,512] weight matrix plus a bias row, written as [65536,512]. What one grid point does to its staging buffers,
  stated at any buffer contents `V` found when the call is entered.

  Window 0 reads lanes 0..255 of a 259-lane array; its block never reaches past the array at any of the 32 points,
  so the fetch fills the whole staging buffer and the buffer's earlier contents do not matter. Windows 1 and 2
  (weights, bias) are fetched once and stay; window 3 is written back at every point.
-/
import proofs.«150414_j59957743452648_2_alg».proof.Proof.Gen.Kernel.Launch
import proofs.«150414_j59957743452648_2_alg».proof.Proof.Gen.Kernel.Skeleton
import proofs.«150414_j59957743452648_2_alg».proof.Proof.Gen.Kernel.Points
import proofs.«150414_j59957743452648_2_alg».proof.Proof.LibUncutFill
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- No axis of window 0's block is cut at any point: on the 259-lane axis the block index is always 0. -/
theorem clip_none : ∀ (t : Fin cfg1.N) (a : Fin (cfg1.win 0).shape.rank), (cfg1.win 0).clip (cfg1.grid.coords t) a = none :=
  (by decide +kernel : ∀ (t : Fin grid1.N) (a : Fin win1_0.shape.rank), win1_0.clip (grid1.coords t) a = none)

theorem xsize_eq (t : Fin cfg1.N) (a : Fin (cfg1.win 0).shape.rank) :
    (cfg1.win 0).xsize (cfg1.grid.coords t) a = (cfg1.win 0).size a :=
  (cfg1.win 0).xsize_eq_of_clip_none _ (clip_none t) a

/-- What the fetch at point `t` puts in window 0's staging buffer: the whole block, lanes 0..255 of the array's rows. -/
def rows (c : Dev nD) (t : Fin cfg1.N) : Vec F S2048x256 .f32 :=
  fun j => iblk V c 0 t ((cfg1.win 0).uncutIdx (cfg1.grid.coords t) (xsize_eq t) j)

/-! ## Each input window's staging buffer holds its block when the body runs, fetched at that point or kept -/

/-- Window 0's staging buffer holds `rows` when the body runs, whatever it held before the fetch. -/
theorem before_0_of {c : Dev nD} (dat : Dat τ (Elt F) Unit ℕ (UR sig nD τ) ℕ cfg1 c) (hA : dat.A 0 = V c (Pipeline.arrRef spec1 0))
    (hafter : ∀ t, dat.after 0 t = rows V c t) (t : Fin cfg1.N) (d) : dat.before 0 t d = rows V c t := by
  rw [dat.before_in_eq_fetched 0 rfl (fun _ => rfl)
    (fun t t' _ => funext fun a => (clip_none t a).trans (clip_none t' a).symm)
    (fun t => by
      rw [hafter]; unfold rows
      rw [(cfg1.win 0).cut_uncut (cfg1.grid.coords t) (xsize_eq t)]
      unfold Dat.blockOf iblk; rw [hA]; try rfl) t d]
  unfold Dat.fetched
  rw [(cfg1.win 0).fill_eq_of_uncut (cfg1.grid.coords t) (xsize_eq t)]
  unfold rows Dat.blockOf iblk; rw [hA]
  try rfl

theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store take a whole buffer -/

abbrev rS2048x256 : Rect S2048x256 := Rect.unit (s := S2048x256) ![0, 0] S2048x256.size inb_S2048x256_S2048x256_0_0
abbrev rS256x512 : Rect S256x512 := Rect.unit (s := S256x512) ![0, 0] S256x512.size inb_S256x512_S256x512_0_0
abbrev rS1x512 : Rect S1x512 := Rect.unit (s := S1x512) ![0, 0] S1x512.size inb_S1x512_S1x512_0_0
abbrev rS2048x512 : Rect S2048x512 := Rect.unit (s := S2048x512) ![0, 0] S2048x512.size inb_S2048x512_S2048x512_0_0

/-- What the body leaves in the output window's staging buffer, as one store of the payload of what it loaded. -/
def out (x0 : Vec F S2048x256 .f32) (x1 : Vec F S256x512 .bf16) (x2 : Vec F S1x512 .f32) : Vec F S2048x512 .bf16 :=
  View.canon [⟨rS2048x512, k1_pay1 (View.ld x0 rS2048x256) (View.ld x1 rS256x512) (View.ld x2 rS1x512)⟩]

theorem cover_out (p0 : Vec F S2048x512 .bf16) (y : S2048x512.Idx) :
    ∃ pc ∈ ([⟨rS2048x512, p0⟩] : List (View.Piece (Elt F) S2048x512 .bf16)), y ∈ pc.1.set :=
  View.cover_of_tiled [⟨rS2048x512, p0⟩] S2048x512.size (by rfl) y

/-! ## The body's triple -/

set_option maxHeartbeats 1000000 in
/-- On whole staging buffers, the inputs at known contents and the output at anything, the body ends with the
    inputs untouched and the output at `out` of them. -/
theorem sound_kernel (c : Dev nD) (E : Set ℕ) (i : grid1.Coords)
    (arg1 : Memref sig .tc .vmem S2048x256 .f32) (harg1 : arg1.IsWhole) (arg2 : Memref sig .tc .vmem S256x512 .bf16) (harg2 : arg2.IsWhole) (arg3 : Memref sig .tc .vmem S1x512 .f32) (harg3 : arg3.IsWhole) (arg4 : Memref sig .tc .vmem S2048x512 .bf16) (harg4 : arg4.IsWhole)
    (x0 : Vec F S2048x256 .f32) (x1 : Vec F S256x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out x0 x1 x2)) -∗ K ⟨⟩))
      ⊢ wp frame (wpE (defs₀ (F := F)) Variants.none c none) E (cc1__conv1x1_kernel i arg1 harg1 arg2 harg2 arg3 harg3 arg4 harg4) K := by
  simp only [cc1__conv1x1_kernel_eq_skeleton]; unfold cc1__conv1x1_kernel_skel

  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  try dsimp only
  exact View.read_writes_eq_canon _ _ _ (cover_out _)

/-! ## The proof data -/

/-- After the body at point `t`: each input buffer still at its block, the output buffer at `out` of them. -/
def dat (c : Dev nD) : Dat τ (Elt F) Unit ℕ (UR sig nD τ) ℕ cfg1 c where
  A w := V c (Pipeline.arrRef spec1 w)
  after w t := match w with
    | ⟨0, _⟩ => rows V c t
    | ⟨1, _⟩ => iblk V c 1 t
    | ⟨2, _⟩ => iblk V c 2 t
    | ⟨3, _⟩ => out (rows V c t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = rows V c t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = out (rows V c t) (iblk V c 1 t) (iblk V c 2 t) := by dsimp only [dat]

theorem before_0 (c : Dev nD) (t : Fin cfg1.N) (d) : (dat V c).before 0 t d = rows V c t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (rows V c t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W1, bigSep_W1]
  exact sound_body V c t

end Cert.Kernel.Conv

end
-- ==== Proof.KbTemporal.lean ====
/-
  The temporal attention call, one grid point per (batch, frame) slice: the slice's [4096,256] block of the spatial
  stage's result is projected to queries, the logits against the precomputed keys are soft-maxed along their last
  axis, the precomputed values are mixed by them, and gamma times that plus the block is written back. What one grid
  point does to its staging buffers, stated at any buffer contents `V` found when the call is entered.

  Every window's blocks tile its array. Windows 1, 2 and 5 (weights, bias, gamma) are fetched once and stay; windows
  0, 3 and 4 are fetched at every point; window 6 is written back at every point.
-/
import proofs.«150414_j59957743452648_2_alg».proof.Proof.Gen.Kernel.Launch
import proofs.«150414_j59957743452648_2_alg».proof.Proof.Gen.Kernel.Skeleton
import proofs.«150414_j59957743452648_2_alg».proof.Proof.Gen.Kernel.Points
import proofs.«150414_j59957743452648_2_alg».proof.Proof.LibUncutFill
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Temporal

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## Each input window's staging buffer holds its block when the body runs, fetched at that point or kept -/

theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store take a whole buffer -/

abbrev rS1x4096x256 : Rect S1x4096x256 := Rect.unit (s := S1x4096x256) ![0, 0, 0] S1x4096x256.size inb_S1x4096x256_S1x4096x256_0_0_0
abbrev rS256x256 : Rect S256x256 := Rect.unit (s := S256x256) ![0, 0] S256x256.size inb_S256x256_S256x256_0_0
abbrev rS1x256 : Rect S1x256 := Rect.unit (s := S1x256) ![0, 0] S1x256.size inb_S1x256_S1x256_0_0
abbrev rS1x1 : Rect S1x1 := Rect.unit (s := S1x1) ![0, 0] S1x1.size inb_S1x1_S1x1_0_0

/-- What the body leaves in the output window's staging buffer, as one store of the payload of what it loaded. -/
def out (x0 : Vec F S1x4096x256 .f32) (x1 : Vec F S256x256 .bf16) (x2 : Vec F S1x256 .f32) (x3 : Vec F S1x4096x256 .bf16) (x4 : Vec F S1x4096x256 .bf16) (x5 : Vec F S1x1 .f32) : Vec F S1x4096x256 .f32 :=
  View.canon [⟨rS1x4096x256, k2_pay1 (View.ld x0 rS1x4096x256) (View.ld x1 rS256x256) (View.ld x2 rS1x256) (View.ld x3 rS1x4096x256) (View.ld x4 rS1x4096x256) (View.ld x5 rS1x1)⟩]

theorem cover_out (p0 : Vec F S1x4096x256 .f32) (y : S1x4096x256.Idx) :
    ∃ pc ∈ ([⟨rS1x4096x256, p0⟩] : List (View.Piece (Elt F) S1x4096x256 .f32)), y ∈ pc.1.set :=
  View.cover_of_tiled [⟨rS1x4096x256, p0⟩] S1x4096x256.size (by rfl) y

/-! ## The body's triple -/

set_option maxHeartbeats 1000000 in
/-- On whole staging buffers, the inputs at known contents and the output at anything, the body ends with the
    inputs untouched and the output at `out` of them. -/
theorem sound_kernel (c : Dev nD) (E : Set ℕ) (i : grid2.Coords)
    (arg1 : Memref sig .tc .vmem S1x4096x256 .f32) (harg1 : arg1.IsWhole) (arg2 : Memref sig .tc .vmem S256x256 .bf16) (harg2 : arg2.IsWhole) (arg3 : Memref sig .tc .vmem S1x256 .f32) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x1 .f32) (harg6 : arg6.IsWhole) (arg7 : Memref sig .tc .vmem S1x4096x256 .f32) (harg7 : arg7.IsWhole)
    (x0 : Vec F S1x4096x256 .f32) (x1 : Vec F S256x256 .bf16) (x2 : Vec F S1x256 .f32) (x3 : Vec F S1x4096x256 .bf16) (x4 : Vec F S1x4096x256 .bf16) (x5 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out x0 x1 x2 x3 x4 x5)) -∗ K ⟨⟩))
      ⊢ wp frame (wpE (defs₀ (F := F)) Variants.none c none) E (cc2__temporal_attn_kernel i arg1 harg1 arg2 harg2 arg3 harg3 arg4 harg4 arg5 harg5 arg6 harg6 arg7 harg7) K := by
  simp only [cc2__temporal_attn_kernel_eq_skeleton]; unfold cc2__temporal_attn_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  try dsimp only
  exact View.read_writes_eq_canon _ _ _ (cover_out _)

/-! ## The proof data -/

/-- After the body at point `t`: each input buffer still at its block, the output buffer at `out` of them. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out (iblk V c 0 t) (iblk V c 1 t) (iblk V c 2 t) (iblk V c 3 t) (iblk V c 4 t) (iblk V c 5 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = out (iblk V c 0 t) (iblk V c 1 t) (iblk V c 2 t) (iblk V c 3 t) (iblk V c 4 t) (iblk V c 5 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d
theorem before_5 (c : Dev nD) (t : Fin cfg2.N) (d) : (dat V c).before 5 t d = iblk V c 5 t :=
  before_5_of V (dat V c) (A_eq V c 5) (after_5 V c) t d

/-! ## The body obligation, at a generic point -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V c) (defs₀ (F := F)) Variants.none () Set.univ := fun t => by
  rw [bigSep_W2, bigSep_W2]
  exact sound_body V c t

end Cert.Kernel.Temporal

end
-- ==== Proof.KbRun.lean ====
/-
  The whole program as a chain of seven segments — host operations, the spatial call, host operations, the projection
  call, host operations, the temporal call, host operations — run from any launch memory with zero counters. Between
  two segments a core holds every unscoped buffer at named contents `W0 … W7`: a fold from the launch memory in which
  a host stretch applies its operations and a call replaces its output array by what its write-backs leave. Every
  weakly fair execution terminates without a fault, and at the end every unscoped buffer holds `W7`.
-/
import proofs.«150414_j59957743452648_2_alg».proof.Proof.KbSpatial
import proofs.«150414_j59957743452648_2_alg».proof.Proof.KbConv
import proofs.«150414_j59957743452648_2_alg».proof.Proof.KbTemporal
import proofs.«150414_j59957743452648_2_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between segments -/

/-- Core `c`'s buffers at launch. -/
abbrev W0 : Dev nD → Valuation τ sig (Elt F) := fun c b => m (c, b)
/-- After the first host stretch (reshapes of the input, transposed weights, bias rows, gamma). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- When call 0 returns: its windows' arrays at what the pipeline leaves (inputs as entered, the output's
    write-backs folded in), every other buffer as entered. -/
def W2 (c : Dev nD) : Valuation τ sig (Elt F) :=
  Pipeline.withArrays spec0 c (W1 m c) fun w => (Spatial.dat (V1 m) c).arrAt w cfg0.N
theorem W2_arr (c : Dev nD) (w : Fin cfg0.W) :
    W2 m c (Proc.devRef .tc (Pipeline.arrRef spec0 w)) = (Spatial.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Spatial.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host operations that follow call 0. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- When call 1 returns: its windows' arrays at what the pipeline leaves (inputs as entered, the output's
    write-backs folded in), every other buffer as entered. -/
def W4 (c : Dev nD) : Valuation τ sig (Elt F) :=
  Pipeline.withArrays spec1 c (W3 m c) fun w => (Conv.dat (V3 m) c).arrAt w cfg1.N
theorem W4_arr (c : Dev nD) (w : Fin cfg1.W) :
    W4 m c (Proc.devRef .tc (Pipeline.arrRef spec1 w)) = (Conv.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Conv.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host operations that follow call 1. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- When call 2 returns: its windows' arrays at what the pipeline leaves (inputs as entered, the output's
    write-backs folded in), every other buffer as entered. -/
def W6 (c : Dev nD) : Valuation τ sig (Elt F) :=
  Pipeline.withArrays spec2 c (W5 m c) fun w => (Temporal.dat (V5 m) c).arrAt w cfg2.N
theorem W6_arr (c : Dev nD) (w : Fin cfg2.W) :
    W6 m c (Proc.devRef .tc (Pipeline.arrRef spec2 w)) = (Temporal.dat (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (Temporal.dat (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the host operations that follow call 2. -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b

/-! ## The proof data family and the thread state -/

abbrev adm : (p : Fin 3) → (pcfgs (F := F) p).Adm := fun p => (cfgs p).toPCfg_adm
/-- Each call's proof data at the contents it is entered with. -/
def pdats : (p : Fin 3) → (c : Dev nD) → Dat τ (Elt F) Unit ℕ (UR sig nD τ) ℕ (Pipeline.pin (pcfgs (F := F)) adm p) c
  | ⟨0, _⟩ => fun c => Spatial.dat (V1 m) c
  | ⟨1, _⟩ => fun c => Conv.dat (V3 m) c
  | ⟨2, _⟩ => fun c => Temporal.dat (V5 m) c
abbrev 𝒱₀ : Variants := Variants.none
/-- No core waits on another. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m c) ∗ ∃ r, prngReg c r)

/-! ## The calls as segments -/

set_option backward.isDefEq.respectTransparency.types false in
/-- Call 0 over the thread state: entered with every unscoped buffer at `W1`, left with them at `W2`. Its
    windows' arrays are split out of the unscoped buffers on entry and put back at what the write-backs left on exit;
    the generator register goes into the kernel's invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Spatial.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered with every unscoped buffer at `W3`, left with them at `W4`. Its
    windows' arrays are split out of the unscoped buffers on entry and put back at what the write-backs left on exit;
    the generator register goes into the kernel's invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Conv.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered with every unscoped buffer at `W5`, left with them at `W6`. Its
    windows' arrays are split out of the unscoped buffers on entry and put back at what the write-backs left on exit;
    the generator register goes into the kernel's invariant and comes back; nothing is owed; the kernel has no
    semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Temporal.body_obligation (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds each unscoped buffer of each core at `W7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := fun c => StableHlo.held (c : Thread nD τ) (Pipeline.ucRefs τ sig) (W7 m c))
    (hch := ⟨fun _ => .rfl, fun _ => .rfl, fun _ => .rfl, fun _ => .rfl, fun _ => .rfl, fun _ => .rfl, fun _ => .rfl, fun c => sep_mono .rfl (show R c ⊢ _ from by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      unfold StableHlo.held
      iintro ⟨Hh, HSI⟩
      imodintro
      iapply (pointsTo_read_all (Pipeline.ucRefs τ sig) (fun b => (((c : Thread nD τ)).1, b)) (W7 m c) s')
      isplitl [Hh] <;> iassumption)
    (hQ := fun s h => h)

/-! ## A buffer nothing writes ends as launched -/

/-- A buffer that no host stretch writes and that is no window's array of any call walks back through the fold to
    the launch memory. Every argument array is such a buffer. -/
theorem W7_unwritten (c : Dev nD) (b : Ref sig .tc) (h0 : b ∉ hostOps0_W) (h1 : b ∉ hostOps1_W) (h2 : b ∉ hostOps2_W) (h3 : b ∉ hostOps3_W)
    (a0 : ∀ w, Pipeline.arrRef spec0 w ≠ b) (a1 : ∀ w, Pipeline.arrRef spec1 w ≠ b) (a2 : ∀ w, Pipeline.arrRef spec2 w ≠ b) :
    W7 m c (Proc.devRef .tc b) = m ((c : Thread nD τ).loc b) :=
  calc W7 m c (Proc.devRef .tc b)
    _ = W6 m c (Proc.devRef .tc b) := StableHlo.after_of_writes_sub hostOps3 _ hostOps3_writes h3
    _ = W5 m c (Proc.devRef .tc b) := W6_of_ne m c b a2
    _ = W4 m c (Proc.devRef .tc b) := StableHlo.after_of_writes_sub hostOps2 _ hostOps2_writes h2
    _ = W3 m c (Proc.devRef .tc b) := W4_of_ne m c b a1
    _ = W2 m c (Proc.devRef .tc b) := StableHlo.after_of_writes_sub hostOps1 _ hostOps1_writes h1
    _ = W1 m c (Proc.devRef .tc b) := W2_of_ne m c b a0
    _ = W0 m c (Proc.devRef .tc b) := StableHlo.after_of_writes_sub hostOps0 _ hostOps0_writes h0
    _ = m ((c : Thread nD τ).loc b) := rfl

/-- An argument array at the end of a run. -/
theorem arg_kept {s : MemSt nD τ sig (Elt F)} {c : Dev nD} (h : ∀ b ∈ Pipeline.ucRefs τ sig, s.mem (((c : Thread nD τ)).1, b) = W7 m c b)
    (b : Ref sig .tc) (hu : ¬ (Proc.devRef .tc b : DevRef τ sig).isScoped)
    (h0 : b ∉ hostOps0_W) (h1 : b ∉ hostOps1_W) (h2 : b ∉ hostOps2_W) (h3 : b ∉ hostOps3_W)
    (a0 : ∀ w, Pipeline.arrRef spec0 w ≠ b) (a1 : ∀ w, Pipeline.arrRef spec1 w ≠ b) (a2 : ∀ w, Pipeline.arrRef spec2 w ≠ b) :
    s.mem ((c.tc : Thread nD τ).loc b) = m ((c.tc : Thread nD τ).loc b) :=
  (h _ (mem_uc b hu)).trans (W7_unwritten m c b h0 h1 h2 h3 a0 a1 a2)

/-- The frame: the program terminates without a fault and its seventeen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨arg_kept m (h c) main_arg0 (by decide) (by decide) (by decide) (by decide) (by decide) (by decide) (by decide) (by decide),
    arg_kept m (h c) main_arg1 (by decide) (by decide) (by decide) (by decide) (by decide) (by decide) (by decide) (by decide),
    arg_kept m (h c) main_arg2 (by decide) (by decide) (by decide) (by decide) (by decide) (by decide) (by decide) (by decide),
    arg_kept m (h c) main_arg3 (by decide) (by decide) (by decide) (by decide) (by decide) (by decide) (by decide) (by decide),
    arg_kept m (h c) main_arg4 (by decide) (by decide) (by decide) (by decide) (by decide) (by decide) (by decide) (by decide),
    arg_kept m (h c) main_arg5 (by decide) (by decide) (by decide) (by decide) (by decide) (by decide) (by decide) (by decide),
    arg_kept m (h c) main_arg6 (by decide) (by decide) (by decide) (by decide) (by decide) (by decide) (by decide) (by decide),
    arg_kept m (h c) main_arg7 (by decide) (by decide) (by decide) (by decide) (by decide) (by decide) (by decide) (by decide),
    arg_kept m (h c) main_arg8 (by decide) (by decide) (by decide) (by decide) (by decide) (by decide) (by decide) (by decide),
    arg_kept m (h c) main_arg9 (by decide) (by decide) (by decide) (by decide) (by decide) (by decide) (by decide) (by decide),
    arg_kept m (h c) main_arg10 (by decide) (by decide) (by decide) (by decide) (by decide) (by decide) (by decide) (by decide),
    arg_kept m (h c) main_arg11 (by decide) (by decide) (by decide) (by decide) (by decide) (by decide) (by decide) (by decide),
    arg_kept m (h c) main_arg12 (by decide) (by decide) (by decide) (by decide) (by decide) (by decide) (by decide) (by decide),
    arg_kept m (h c) main_arg13 (by decide) (by decide) (by decide) (by decide) (by decide) (by decide) (by decide) (by decide),
    arg_kept m (h c) main_arg14 (by decide) (by decide) (by decide) (by decide) (by decide) (by decide) (by decide) (by decide),
    arg_kept m (h c) main_arg15 (by decide) (by decide) (by decide) (by decide) (by decide) (by decide) (by decide) (by decide),
    arg_kept m (h c) main_arg16 (by decide) (by decide) (by decide) (by decide) (by decide) (by decide) (by decide) (by decide)⟩) (run m ρ)

end Cert.Kernel.Run

end
-- ==== Proof.KiSpatial.lean ====
/-
  The spatial attention call, one grid point per (batch, frame) slice: the slice's [4096,256] block (lanes 0..255 of
  a 259-lane array) is projected three ways, the channel-by-channel logits are soft-maxed along their last axis, the
  values are mixed by them, and gamma times that plus the block is written back. What one grid point does to its
  staging buffers, stated at any buffer contents `V` found when the call is entered.

  Window 0's block never reaches past its array at any of the 16 points (lane block 0 only), so its fetch fills the
  whole staging buffer. Windows 1 to 7 (three weight matrices, three bias rows, gamma) are fetched once and stay;
  window 8 is written back at every point.
-/
import proofs.«150414_j59957743452648_2_alg».proof.Proof.Gen.KernelIdeal.Launch
import proofs.«150414_j59957743452648_2_alg».proof.Proof.Gen.KernelIdeal.Skeleton
import proofs.«150414_j59957743452648_2_alg».proof.Proof.Gen.KernelIdeal.Points
import proofs.«150414_j59957743452648_2_alg».proof.Proof.LibUncutFill
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Spatial

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- No axis of window 0's block is cut at any point: on the 259-lane axis the block index is always 0. -/
theorem clip_none : ∀ (t : Fin cfg0.N) (a : Fin (cfg0.win 0).shape.rank), (cfg0.win 0).clip (cfg0.grid.coords t) a = none :=
  (by decide +kernel : ∀ (t : Fin grid0.N) (a : Fin win0_0.shape.rank), win0_0.clip (grid0.coords t) a = none)

theorem xsize_eq (t : Fin cfg0.N) (a : Fin (cfg0.win 0).shape.rank) :
    (cfg0.win 0).xsize (cfg0.grid.coords t) a = (cfg0.win 0).size a :=
  (cfg0.win 0).xsize_eq_of_clip_none _ (clip_none t) a

/-- What the fetch at point `t` puts in window 0's staging buffer: the whole block, lanes 0..255 of the array's rows. -/
def rows (c : Dev nD) (t : Fin cfg0.N) : Vec F S1x4096x256 .f32 :=
  fun j => iblk V c 0 t ((cfg0.win 0).uncutIdx (cfg0.grid.coords t) (xsize_eq t) j)

/-! ## Each input window's staging buffer holds its block when the body runs, fetched at that point or kept -/

/-- Window 0's staging buffer holds `rows` when the body runs, whatever it held before the fetch. -/
theorem before_0_of {c : Dev nD} (dat : Dat τ (Elt F) Unit ℕ (UR sig nD τ) ℕ cfg0 c) (hA : dat.A 0 = V c (Pipeline.arrRef spec0 0))
    (hafter : ∀ t, dat.after 0 t = rows V c t) (t : Fin cfg0.N) (d) : dat.before 0 t d = rows V c t := by
  rw [dat.before_in_eq_fetched 0 rfl (fun _ => rfl)
    (fun t t' _ => funext fun a => (clip_none t a).trans (clip_none t' a).symm)
    (fun t => by
      rw [hafter]; unfold rows
      rw [(cfg0.win 0).cut_uncut (cfg0.grid.coords t) (xsize_eq t)]
      unfold Dat.blockOf iblk; rw [hA]; try rfl) t d]
  unfold Dat.fetched
  rw [(cfg0.win 0).fill_eq_of_uncut (cfg0.grid.coords t) (xsize_eq t)]
  unfold rows Dat.blockOf iblk; rw [hA]
  try rfl

theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store take a whole buffer -/

abbrev rS1x4096x256 : Rect S1x4096x256 := Rect.unit (s := S1x4096x256) ![0, 0, 0] S1x4096x256.size inb_S1x4096x256_S1x4096x256_0_0_0
abbrev rS256x256 : Rect S256x256 := Rect.unit (s := S256x256) ![0, 0] S256x256.size inb_S256x256_S256x256_0_0
abbrev rS1x256 : Rect S1x256 := Rect.unit (s := S1x256) ![0, 0] S1x256.size inb_S1x256_S1x256_0_0
abbrev rS1x1 : Rect S1x1 := Rect.unit (s := S1x1) ![0, 0] S1x1.size inb_S1x1_S1x1_0_0

/-- What the body leaves in the output window's staging buffer, as one store of the payload of what it loaded. -/
def out (x0 : Vec F S1x4096x256 .f32) (x1 : Vec F S256x256 .bf16) (x2 : Vec F S1x256 .f32) (x3 : Vec F S256x256 .bf16) (x4 : Vec F S1x256 .f32) (x5 : Vec F S256x256 .bf16) (x6 : Vec F S1x256 .f32) (x7 : Vec F S1x1 .f32) : Vec F S1x4096x256 .f32 :=
  View.canon [⟨rS1x4096x256, k0_pay1 (k0_pay2 (View.ld x0 rS1x4096x256)) (k0_pay4 (View.ld x0 rS1x4096x256) (View.ld x1 rS256x256) (View.ld x2 rS1x256) (View.ld x3 rS256x256) (View.ld x4 rS1x256)) (k0_pay5 (View.ld x0 rS1x4096x256) (View.ld x5 rS256x256) (View.ld x6 rS1x256)) (View.ld x7 rS1x1)⟩]

theorem cover_out (p0 : Vec F S1x4096x256 .f32) (y : S1x4096x256.Idx) :
    ∃ pc ∈ ([⟨rS1x4096x256, p0⟩] : List (View.Piece (Elt F) S1x4096x256 .f32)), y ∈ pc.1.set :=
  View.cover_of_tiled [⟨rS1x4096x256, p0⟩] S1x4096x256.size (by rfl) y

/-! ## The body's triple -/

set_option maxHeartbeats 1000000 in
/-- On whole staging buffers, the inputs at known contents and the output at anything, the body ends with the
    inputs untouched and the output at `out` of them. -/
theorem sound_kernel (c : Dev nD) (E : Set ℕ) (i : grid0.Coords)
    (arg1 : Memref sig .tc .vmem S1x4096x256 .f32) (harg1 : arg1.IsWhole) (arg2 : Memref sig .tc .vmem S256x256 .bf16) (harg2 : arg2.IsWhole) (arg3 : Memref sig .tc .vmem S1x256 .f32) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x1 .f32) (harg8 : arg8.IsWhole) (arg9 : Memref sig .tc .vmem S1x4096x256 .f32) (harg9 : arg9.IsWhole)
    (x0 : Vec F S1x4096x256 .f32) (x1 : Vec F S256x256 .bf16) (x2 : Vec F S1x256 .f32) (x3 : Vec F S256x256 .bf16) (x4 : Vec F S1x256 .f32) (x5 : Vec F S256x256 .bf16) (x6 : Vec F S1x256 .f32) (x7 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out x0 x1 x2 x3 x4 x5 x6 x7)) -∗ K ⟨⟩))
      ⊢ wp frame (wpE (defs₀ (F := F)) Variants.none c none) E (cc0__spatial_attn_kernel i arg1 harg1 arg2 harg2 arg3 harg3 arg4 harg4 arg5 harg5 arg6 harg6 arg7 harg7 arg8 harg8 arg9 harg9) K := by
  simp only [cc0__spatial_attn_kernel_eq_skeleton]; unfold cc0__spatial_attn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dO, %fO, -, HO⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact HO
  ipureintro
  try dsimp only
  exact View.read_writes_eq_canon _ _ _ (cover_out _)

/-! ## The proof data -/

/-- After the body at point `t`: each input buffer still at its block, the output buffer at `out` of them. -/
def dat (c : Dev nD) : Dat τ (Elt F) Unit ℕ (UR sig nD τ) ℕ cfg0 c where
  A w := V c (Pipeline.arrRef spec0 w)
  after w t := match w with
    | ⟨0, _⟩ => rows V c t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => out (rows V c t) (iblk V c 1 t) (iblk V c 2 t) (iblk V c 3 t) (iblk V c 4 t) (iblk V c 5 t) (iblk V c 6 t) (iblk V c 7 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = rows V c t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = out (rows V c t) (iblk V c 1 t) (iblk V c 2 t) (iblk V c 3 t) (iblk V c 4 t) (iblk V c 5 t) (iblk V c 6 t) (iblk V c 7 t) := by dsimp only [dat]

theorem before_0 (c : Dev nD) (t : Fin cfg0.N) (d) : (dat V c).before 0 t d = rows V c t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d
theorem before_6 (c : Dev nD) (t : Fin cfg0.N) (d) : (dat V c).before 6 t d = iblk V c 6 t :=
  before_6_of V (dat V c) (A_eq V c 6) (after_6 V c) t d
theorem before_7 (c : Dev nD) (t : Fin cfg0.N) (d) : (dat V c).before 7 t d = iblk V c 7 t :=
  before_7_of V (dat V c) (A_eq V c 7) (after_7 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7]
  rw [show (dat V c).Φ t.succ = (dat V c).Φ t.castSucc from rfl,
    show (dat V c).owesAt () t.succ = (dat V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (rows V c t) (iblk V c 1 t) (iblk V c 2 t) (iblk V c 3 t) (iblk V c 4 t) (iblk V c 5 t) (iblk V c 6 t) (iblk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dat (F := F) V c) (defs₀ (F := F)) Variants.none () Set.univ := fun t => by
  rw [bigSep_W0, bigSep_W0]
  exact sound_body V c t

end Cert.KernelIdeal.Spatial

end
-- ==== Proof.KiConv.lean ====
/-
  The projection call: a [65536,259] array of rows, read 2048 rows and its first 256 lanes at a time, times a
  [256,512] weight matrix plus a bias row, written as [65536,512]. What one grid point does to its staging buffers,
  stated at any buffer contents `V` found when the call is entered.

  Window 0 reads lanes 0..255 of a 259-lane array; its block never reaches past the array at any of the 32 points,
  so the fetch fills the whole staging buffer and the buffer's earlier contents do not matter. Windows 1 and 2
  (weights, bias) are fetched once and stay; window 3 is written back at every point.
-/
import proofs.«150414_j59957743452648_2_alg».proof.Proof.Gen.KernelIdeal.Launch
import proofs.«150414_j59957743452648_2_alg».proof.Proof.Gen.KernelIdeal.Skeleton
import proofs.«150414_j59957743452648_2_alg».proof.Proof.Gen.KernelIdeal.Points
import proofs.«150414_j59957743452648_2_alg».proof.Proof.LibUncutFill
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- No axis of window 0's block is cut at any point: on the 259-lane axis the block index is always 0. -/
theorem clip_none : ∀ (t : Fin cfg1.N) (a : Fin (cfg1.win 0).shape.rank), (cfg1.win 0).clip (cfg1.grid.coords t) a = none :=
  (by decide +kernel : ∀ (t : Fin grid1.N) (a : Fin win1_0.shape.rank), win1_0.clip (grid1.coords t) a = none)

theorem xsize_eq (t : Fin cfg1.N) (a : Fin (cfg1.win 0).shape.rank) :
    (cfg1.win 0).xsize (cfg1.grid.coords t) a = (cfg1.win 0).size a :=
  (cfg1.win 0).xsize_eq_of_clip_none _ (clip_none t) a

/-- What the fetch at point `t` puts in window 0's staging buffer: the whole block, lanes 0..255 of the array's rows. -/
def rows (c : Dev nD) (t : Fin cfg1.N) : Vec F S2048x256 .f32 :=
  fun j => iblk V c 0 t ((cfg1.win 0).uncutIdx (cfg1.grid.coords t) (xsize_eq t) j)

/-! ## Each input window's staging buffer holds its block when the body runs, fetched at that point or kept -/

/-- Window 0's staging buffer holds `rows` when the body runs, whatever it held before the fetch. -/
theorem before_0_of {c : Dev nD} (dat : Dat τ (Elt F) Unit ℕ (UR sig nD τ) ℕ cfg1 c) (hA : dat.A 0 = V c (Pipeline.arrRef spec1 0))
    (hafter : ∀ t, dat.after 0 t = rows V c t) (t : Fin cfg1.N) (d) : dat.before 0 t d = rows V c t := by
  rw [dat.before_in_eq_fetched 0 rfl (fun _ => rfl)
    (fun t t' _ => funext fun a => (clip_none t a).trans (clip_none t' a).symm)
    (fun t => by
      rw [hafter]; unfold rows
      rw [(cfg1.win 0).cut_uncut (cfg1.grid.coords t) (xsize_eq t)]
      unfold Dat.blockOf iblk; rw [hA]; try rfl) t d]
  unfold Dat.fetched
  rw [(cfg1.win 0).fill_eq_of_uncut (cfg1.grid.coords t) (xsize_eq t)]
  unfold rows Dat.blockOf iblk; rw [hA]
  try rfl

theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store take a whole buffer -/

abbrev rS2048x256 : Rect S2048x256 := Rect.unit (s := S2048x256) ![0, 0] S2048x256.size inb_S2048x256_S2048x256_0_0
abbrev rS256x512 : Rect S256x512 := Rect.unit (s := S256x512) ![0, 0] S256x512.size inb_S256x512_S256x512_0_0
abbrev rS1x512 : Rect S1x512 := Rect.unit (s := S1x512) ![0, 0] S1x512.size inb_S1x512_S1x512_0_0
abbrev rS2048x512 : Rect S2048x512 := Rect.unit (s := S2048x512) ![0, 0] S2048x512.size inb_S2048x512_S2048x512_0_0

/-- What the body leaves in the output window's staging buffer, as one store of the payload of what it loaded. -/
def out (x0 : Vec F S2048x256 .f32) (x1 : Vec F S256x512 .bf16) (x2 : Vec F S1x512 .f32) : Vec F S2048x512 .bf16 :=
  View.canon [⟨rS2048x512, k1_pay1 (View.ld x0 rS2048x256) (View.ld x1 rS256x512) (View.ld x2 rS1x512)⟩]

theorem cover_out (p0 : Vec F S2048x512 .bf16) (y : S2048x512.Idx) :
    ∃ pc ∈ ([⟨rS2048x512, p0⟩] : List (View.Piece (Elt F) S2048x512 .bf16)), y ∈ pc.1.set :=
  View.cover_of_tiled [⟨rS2048x512, p0⟩] S2048x512.size (by rfl) y

/-! ## The body's triple -/

set_option maxHeartbeats 1000000 in
/-- On whole staging buffers, the inputs at known contents and the output at anything, the body ends with the
    inputs untouched and the output at `out` of them. -/
theorem sound_kernel (c : Dev nD) (E : Set ℕ) (i : grid1.Coords)
    (arg1 : Memref sig .tc .vmem S2048x256 .f32) (harg1 : arg1.IsWhole) (arg2 : Memref sig .tc .vmem S256x512 .bf16) (harg2 : arg2.IsWhole) (arg3 : Memref sig .tc .vmem S1x512 .f32) (harg3 : arg3.IsWhole) (arg4 : Memref sig .tc .vmem S2048x512 .bf16) (harg4 : arg4.IsWhole)
    (x0 : Vec F S2048x256 .f32) (x1 : Vec F S256x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out x0 x1 x2)) -∗ K ⟨⟩))
      ⊢ wp frame (wpE (defs₀ (F := F)) Variants.none c none) E (cc1__conv1x1_kernel i arg1 harg1 arg2 harg2 arg3 harg3 arg4 harg4) K := by
  simp only [cc1__conv1x1_kernel_eq_skeleton]; unfold cc1__conv1x1_kernel_skel

  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  try dsimp only
  exact View.read_writes_eq_canon _ _ _ (cover_out _)

/-! ## The proof data -/

/-- After the body at point `t`: each input buffer still at its block, the output buffer at `out` of them. -/
def dat (c : Dev nD) : Dat τ (Elt F) Unit ℕ (UR sig nD τ) ℕ cfg1 c where
  A w := V c (Pipeline.arrRef spec1 w)
  after w t := match w with
    | ⟨0, _⟩ => rows V c t
    | ⟨1, _⟩ => iblk V c 1 t
    | ⟨2, _⟩ => iblk V c 2 t
    | ⟨3, _⟩ => out (rows V c t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = rows V c t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = out (rows V c t) (iblk V c 1 t) (iblk V c 2 t) := by dsimp only [dat]

theorem before_0 (c : Dev nD) (t : Fin cfg1.N) (d) : (dat V c).before 0 t d = rows V c t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (rows V c t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W1, bigSep_W1]
  exact sound_body V c t

end Cert.KernelIdeal.Conv

end
-- ==== Proof.KiTemporal.lean ====
/-
  The temporal attention call, one grid point per (batch, frame) slice: the slice's [4096,256] block of the spatial
  stage's result is projected to queries, the logits against the precomputed keys are soft-maxed along their last
  axis, the precomputed values are mixed by them, and gamma times that plus the block is written back. What one grid
  point does to its staging buffers, stated at any buffer contents `V` found when the call is entered.

  Every window's blocks tile its array. Windows 1, 2 and 5 (weights, bias, gamma) are fetched once and stay; windows
  0, 3 and 4 are fetched at every point; window 6 is written back at every point.
-/
import proofs.«150414_j59957743452648_2_alg».proof.Proof.Gen.KernelIdeal.Launch
import proofs.«150414_j59957743452648_2_alg».proof.Proof.Gen.KernelIdeal.Skeleton
import proofs.«150414_j59957743452648_2_alg».proof.Proof.Gen.KernelIdeal.Points
import proofs.«150414_j59957743452648_2_alg».proof.Proof.LibUncutFill
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Temporal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## Each input window's staging buffer holds its block when the body runs, fetched at that point or kept -/

theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store take a whole buffer -/

abbrev rS1x4096x256 : Rect S1x4096x256 := Rect.unit (s := S1x4096x256) ![0, 0, 0] S1x4096x256.size inb_S1x4096x256_S1x4096x256_0_0_0
abbrev rS256x256 : Rect S256x256 := Rect.unit (s := S256x256) ![0, 0] S256x256.size inb_S256x256_S256x256_0_0
abbrev rS1x256 : Rect S1x256 := Rect.unit (s := S1x256) ![0, 0] S1x256.size inb_S1x256_S1x256_0_0
abbrev rS1x1 : Rect S1x1 := Rect.unit (s := S1x1) ![0, 0] S1x1.size inb_S1x1_S1x1_0_0

/-- What the body leaves in the output window's staging buffer, as one store of the payload of what it loaded. -/
def out (x0 : Vec F S1x4096x256 .f32) (x1 : Vec F S256x256 .bf16) (x2 : Vec F S1x256 .f32) (x3 : Vec F S1x4096x256 .bf16) (x4 : Vec F S1x4096x256 .bf16) (x5 : Vec F S1x1 .f32) : Vec F S1x4096x256 .f32 :=
  View.canon [⟨rS1x4096x256, k2_pay1 (View.ld x0 rS1x4096x256) (View.ld x1 rS256x256) (View.ld x2 rS1x256) (View.ld x3 rS1x4096x256) (View.ld x4 rS1x4096x256) (View.ld x5 rS1x1)⟩]

theorem cover_out (p0 : Vec F S1x4096x256 .f32) (y : S1x4096x256.Idx) :
    ∃ pc ∈ ([⟨rS1x4096x256, p0⟩] : List (View.Piece (Elt F) S1x4096x256 .f32)), y ∈ pc.1.set :=
  View.cover_of_tiled [⟨rS1x4096x256, p0⟩] S1x4096x256.size (by rfl) y

/-! ## The body's triple -/

set_option maxHeartbeats 1000000 in
/-- On whole staging buffers, the inputs at known contents and the output at anything, the body ends with the
    inputs untouched and the output at `out` of them. -/
theorem sound_kernel (c : Dev nD) (E : Set ℕ) (i : grid2.Coords)
    (arg1 : Memref sig .tc .vmem S1x4096x256 .f32) (harg1 : arg1.IsWhole) (arg2 : Memref sig .tc .vmem S256x256 .bf16) (harg2 : arg2.IsWhole) (arg3 : Memref sig .tc .vmem S1x256 .f32) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x1 .f32) (harg6 : arg6.IsWhole) (arg7 : Memref sig .tc .vmem S1x4096x256 .f32) (harg7 : arg7.IsWhole)
    (x0 : Vec F S1x4096x256 .f32) (x1 : Vec F S256x256 .bf16) (x2 : Vec F S1x256 .f32) (x3 : Vec F S1x4096x256 .bf16) (x4 : Vec F S1x4096x256 .bf16) (x5 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out x0 x1 x2 x3 x4 x5)) -∗ K ⟨⟩))
      ⊢ wp frame (wpE (defs₀ (F := F)) Variants.none c none) E (cc2__temporal_attn_kernel i arg1 harg1 arg2 harg2 arg3 harg3 arg4 harg4 arg5 harg5 arg6 harg6 arg7 harg7) K := by
  simp only [cc2__temporal_attn_kernel_eq_skeleton]; unfold cc2__temporal_attn_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  try dsimp only
  exact View.read_writes_eq_canon _ _ _ (cover_out _)

/-! ## The proof data -/

/-- After the body at point `t`: each input buffer still at its block, the output buffer at `out` of them. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out (iblk V c 0 t) (iblk V c 1 t) (iblk V c 2 t) (iblk V c 3 t) (iblk V c 4 t) (iblk V c 5 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = out (iblk V c 0 t) (iblk V c 1 t) (iblk V c 2 t) (iblk V c 3 t) (iblk V c 4 t) (iblk V c 5 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d
theorem before_5 (c : Dev nD) (t : Fin cfg2.N) (d) : (dat V c).before 5 t d = iblk V c 5 t :=
  before_5_of V (dat V c) (A_eq V c 5) (after_5 V c) t d

/-! ## The body obligation, at a generic point -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V c) (defs₀ (F := F)) Variants.none () Set.univ := fun t => by
  rw [bigSep_W2, bigSep_W2]
  exact sound_body V c t

end Cert.KernelIdeal.Temporal

end
-- ==== Proof.KiRun.lean ====
/-
  The whole program as a chain of seven segments — host operations, the spatial call, host operations, the projection
  call, host operations, the temporal call, host operations — run from any launch memory with zero counters. Between
  two segments a core holds every unscoped buffer at named contents `W0 … W7`: a fold from the launch memory in which
  a host stretch applies its operations and a call replaces its output array by what its write-backs leave. Every
  weakly fair execution terminates without a fault, and at the end every unscoped buffer holds `W7`.
-/
import proofs.«150414_j59957743452648_2_alg».proof.Proof.KiSpatial
import proofs.«150414_j59957743452648_2_alg».proof.Proof.KiConv
import proofs.«150414_j59957743452648_2_alg».proof.Proof.KiTemporal
import proofs.«150414_j59957743452648_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between segments -/

/-- Core `c`'s buffers at launch. -/
abbrev W0 : Dev nD → Valuation τ sig (Elt F) := fun c b => m (c, b)
/-- After the first host stretch (reshapes of the input, transposed weights, bias rows, gamma). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- When call 0 returns: its windows' arrays at what the pipeline leaves (inputs as entered, the output's
    write-backs folded in), every other buffer as entered. -/
def W2 (c : Dev nD) : Valuation τ sig (Elt F) :=
  Pipeline.withArrays spec0 c (W1 m c) fun w => (Spatial.dat (V1 m) c).arrAt w cfg0.N
theorem W2_arr (c : Dev nD) (w : Fin cfg0.W) :
    W2 m c (Proc.devRef .tc (Pipeline.arrRef spec0 w)) = (Spatial.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Spatial.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host operations that follow call 0. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- When call 1 returns: its windows' arrays at what the pipeline leaves (inputs as entered, the output's
    write-backs folded in), every other buffer as entered. -/
def W4 (c : Dev nD) : Valuation τ sig (Elt F) :=
  Pipeline.withArrays spec1 c (W3 m c) fun w => (Conv.dat (V3 m) c).arrAt w cfg1.N
theorem W4_arr (c : Dev nD) (w : Fin cfg1.W) :
    W4 m c (Proc.devRef .tc (Pipeline.arrRef spec1 w)) = (Conv.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Conv.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host operations that follow call 1. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- When call 2 returns: its windows' arrays at what the pipeline leaves (inputs as entered, the output's
    write-backs folded in), every other buffer as entered. -/
def W6 (c : Dev nD) : Valuation τ sig (Elt F) :=
  Pipeline.withArrays spec2 c (W5 m c) fun w => (Temporal.dat (V5 m) c).arrAt w cfg2.N
theorem W6_arr (c : Dev nD) (w : Fin cfg2.W) :
    W6 m c (Proc.devRef .tc (Pipeline.arrRef spec2 w)) = (Temporal.dat (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (Temporal.dat (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the host operations that follow call 2. -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b

/-! ## The proof data family and the thread state -/

abbrev adm : (p : Fin 3) → (pcfgs (F := F) p).Adm := fun p => (cfgs p).toPCfg_adm
/-- Each call's proof data at the contents it is entered with. -/
def pdats : (p : Fin 3) → (c : Dev nD) → Dat τ (Elt F) Unit ℕ (UR sig nD τ) ℕ (Pipeline.pin (pcfgs (F := F)) adm p) c
  | ⟨0, _⟩ => fun c => Spatial.dat (V1 m) c
  | ⟨1, _⟩ => fun c => Conv.dat (V3 m) c
  | ⟨2, _⟩ => fun c => Temporal.dat (V5 m) c
abbrev 𝒱₀ : Variants := Variants.none
/-- No core waits on another. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m c) ∗ ∃ r, prngReg c r)

/-! ## The calls as segments -/

set_option backward.isDefEq.respectTransparency.types false in
/-- Call 0 over the thread state: entered with every unscoped buffer at `W1`, left with them at `W2`. Its
    windows' arrays are split out of the unscoped buffers on entry and put back at what the write-backs left on exit;
    the generator register goes into the kernel's invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Spatial.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered with every unscoped buffer at `W3`, left with them at `W4`. Its
    windows' arrays are split out of the unscoped buffers on entry and put back at what the write-backs left on exit;
    the generator register goes into the kernel's invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Conv.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered with every unscoped buffer at `W5`, left with them at `W6`. Its
    windows' arrays are split out of the unscoped buffers on entry and put back at what the write-backs left on exit;
    the generator register goes into the kernel's invariant and comes back; nothing is owed; the kernel has no
    semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Temporal.body_obligation (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds each unscoped buffer of each core at `W7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := fun c => StableHlo.held (c : Thread nD τ) (Pipeline.ucRefs τ sig) (W7 m c))
    (hch := ⟨fun _ => .rfl, fun _ => .rfl, fun _ => .rfl, fun _ => .rfl, fun _ => .rfl, fun _ => .rfl, fun _ => .rfl, fun c => sep_mono .rfl (show R c ⊢ _ from by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      unfold StableHlo.held
      iintro ⟨Hh, HSI⟩
      imodintro
      iapply (pointsTo_read_all (Pipeline.ucRefs τ sig) (fun b => (((c : Thread nD τ)).1, b)) (W7 m c) s')
      isplitl [Hh] <;> iassumption)
    (hQ := fun s h => h)

/-! ## A buffer nothing writes ends as launched -/

/-- A buffer that no host stretch writes and that is no window's array of any call walks back through the fold to
    the launch memory. Every argument array is such a buffer. -/
theorem W7_unwritten (c : Dev nD) (b : Ref sig .tc) (h0 : b ∉ hostOps0_W) (h1 : b ∉ hostOps1_W) (h2 : b ∉ hostOps2_W) (h3 : b ∉ hostOps3_W)
    (a0 : ∀ w, Pipeline.arrRef spec0 w ≠ b) (a1 : ∀ w, Pipeline.arrRef spec1 w ≠ b) (a2 : ∀ w, Pipeline.arrRef spec2 w ≠ b) :
    W7 m c (Proc.devRef .tc b) = m ((c : Thread nD τ).loc b) :=
  calc W7 m c (Proc.devRef .tc b)
    _ = W6 m c (Proc.devRef .tc b) := StableHlo.after_of_writes_sub hostOps3 _ hostOps3_writes h3
    _ = W5 m c (Proc.devRef .tc b) := W6_of_ne m c b a2
    _ = W4 m c (Proc.devRef .tc b) := StableHlo.after_of_writes_sub hostOps2 _ hostOps2_writes h2
    _ = W3 m c (Proc.devRef .tc b) := W4_of_ne m c b a1
    _ = W2 m c (Proc.devRef .tc b) := StableHlo.after_of_writes_sub hostOps1 _ hostOps1_writes h1
    _ = W1 m c (Proc.devRef .tc b) := W2_of_ne m c b a0
    _ = W0 m c (Proc.devRef .tc b) := StableHlo.after_of_writes_sub hostOps0 _ hostOps0_writes h0
    _ = m ((c : Thread nD τ).loc b) := rfl

/-- An argument array at the end of a run. -/
theorem arg_kept {s : MemSt nD τ sig (Elt F)} {c : Dev nD} (h : ∀ b ∈ Pipeline.ucRefs τ sig, s.mem (((c : Thread nD τ)).1, b) = W7 m c b)
    (b : Ref sig .tc) (hu : ¬ (Proc.devRef .tc b : DevRef τ sig).isScoped)
    (h0 : b ∉ hostOps0_W) (h1 : b ∉ hostOps1_W) (h2 : b ∉ hostOps2_W) (h3 : b ∉ hostOps3_W)
    (a0 : ∀ w, Pipeline.arrRef spec0 w ≠ b) (a1 : ∀ w, Pipeline.arrRef spec1 w ≠ b) (a2 : ∀ w, Pipeline.arrRef spec2 w ≠ b) :
    s.mem ((c.tc : Thread nD τ).loc b) = m ((c.tc : Thread nD τ).loc b) :=
  (h _ (mem_uc b hu)).trans (W7_unwritten m c b h0 h1 h2 h3 a0 a1 a2)

/-- The frame: the program terminates without a fault and its seventeen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨arg_kept m (h c) main_arg0 (by decide) (by decide) (by decide) (by decide) (by decide) (by decide) (by decide) (by decide),
    arg_kept m (h c) main_arg1 (by decide) (by decide) (by decide) (by decide) (by decide) (by decide) (by decide) (by decide),
    arg_kept m (h c) main_arg2 (by decide) (by decide) (by decide) (by decide) (by decide) (by decide) (by decide) (by decide),
    arg_kept m (h c) main_arg3 (by decide) (by decide) (by decide) (by decide) (by decide) (by decide) (by decide) (by decide),
    arg_kept m (h c) main_arg4 (by decide) (by decide) (by decide) (by decide) (by decide) (by decide) (by decide) (by decide),
    arg_kept m (h c) main_arg5 (by decide) (by decide) (by decide) (by decide) (by decide) (by decide) (by decide) (by decide),
    arg_kept m (h c) main_arg6 (by decide) (by decide) (by decide) (by decide) (by decide) (by decide) (by decide) (by decide),
    arg_kept m (h c) main_arg7 (by decide) (by decide) (by decide) (by decide) (by decide) (by decide) (by decide) (by decide),
    arg_kept m (h c) main_arg8 (by decide) (by decide) (by decide) (by decide) (by decide) (by decide) (by decide) (by decide),
    arg_kept m (h c) main_arg9 (by decide) (by decide) (by decide) (by decide) (by decide) (by decide) (by decide) (by decide),
    arg_kept m (h c) main_arg10 (by decide) (by decide) (by decide) (by decide) (by decide) (by decide) (by decide) (by decide),
    arg_kept m (h c) main_arg11 (by decide) (by decide) (by decide) (by decide) (by decide) (by decide) (by decide) (by decide),
    arg_kept m (h c) main_arg12 (by decide) (by decide) (by decide) (by decide) (by decide) (by decide) (by decide) (by decide),
    arg_kept m (h c) main_arg13 (by decide) (by decide) (by decide) (by decide) (by decide) (by decide) (by decide) (by decide),
    arg_kept m (h c) main_arg14 (by decide) (by decide) (by decide) (by decide) (by decide) (by decide) (by decide) (by decide),
    arg_kept m (h c) main_arg15 (by decide) (by decide) (by decide) (by decide) (by decide) (by decide) (by decide) (by decide),
    arg_kept m (h c) main_arg16 (by decide) (by decide) (by decide) (by decide) (by decide) (by decide) (by decide) (by decide)⟩) (run m ρ)

end Cert.KernelIdeal.Run

end
-- ==== Proof.RefFrame.lean ====
/-
  The reference program is host operations only. Its run — every weakly fair execution ends, with each result at the
  operations' composed term of the argument arrays and every argument array as launched — is read off the program's
  text operation by operation; dropping the result from that run's post leaves the frame statement.
-/
import proofs.«150414_j59957743452648_2_alg».proof.Defs
import proofs.«150414_j59957743452648_2_alg».proof.Proof.Gen.ReferenceIdeal
import proofs.«150414_j59957743452648_2_alg».proof.Proof.Gen.Pre_finite_inputs
import proofs.«150414_j59957743452648_2_alg».proof.Proof.Gen.ReferenceIdeal.Run
import proofs.«150414_j59957743452648_2_alg».proof.Proof.Gen.ReferenceIdeal.Read

noncomputable section

namespace Cert.Proof.RefFrame

open Idealize.ShloMosaic Idealize.ShloMosaic.TcCoe Idealize.SL.Sem

/-- The reference terminates without a fault and leaves its seventeen argument arrays as it found them. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

end Cert.Proof.RefFrame

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibInDimLayout.lean ====
/-
  Broadcasts along unit and new axes, read at an index given by coordinates.

  A broadcast never moves a coordinate: the result at an index reads the operand at the same coordinates on the
  axes the operand really has, and at 0 on an operand axis of extent one.  So
    a one-element vector [1] spread over [a] reads its one element everywhere,
    a vector [a] given a trailing unit axis, [a, 1], reads entry i at (i, 0),
    a column [a, 1] spread over [a, b] reads row i at (i, j),
    a matrix [a, b] given a trailing unit axis, [a, b, 1], reads entry (i, j) at (i, j, 0),
    a stack of columns [a, b, 1] spread over [a, b, c] reads (i, j, 0) at (i, j, k),
  for the host's broadcast_in_dim with the identity placement of the operand's axes, and, for the vector
  broadcast, a one-by-one matrix [1, 1] spread down a column [a, 1] reads its one element everywhere.
-/
import Idealize.ShloMosaic.Lib.Pipeline.Value
import Idealize.ShloMosaic.Lib.ValueIdx

namespace Cert.LibInDimLayout

open Idealize.ShloMosaic Idealize.ShloMosaic.ValueIdx

variable {α : Type}

/-- [1] spread over [a] along axis 0: every entry is the operand's one element. -/
theorem inDim_1_a_apply {a : ℕ} (v : (⟨1, ![1]⟩ : Shape).Idx → α)
    (h : (⟨1, ![1]⟩ : Shape).BroadcastsInDim ⟨1, ![a]⟩ ![0]) (i : Fin a) :
    broadcastInDim ⟨1, ![a]⟩ ![0] h v (ix1 i) = v (ix1 (0 : Fin 1)) := by
  refine broadcastInDim_apply _ h v (ix1 i) (ix1 (0 : Fin 1)) fun ax => ?_
  match ax with
  | ⟨0, _⟩ =>
    show (0 : ℕ) = if (1 : ℕ) = 1 then 0 else _
    rw [if_pos rfl]

/-- [a] placed on axis 0 of [a, 1]: entry (i, u) is the operand at i. -/
theorem inDim_a_a1_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column [a, 1] spread over [a, b], axes kept in place: entry (i, j) is the column at (i, 0). -/
theorem inDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

/-- A matrix [a, b] placed on the first two axes of [a, b, 1]: entry (i, j, u) is the operand at (i, j). -/
theorem inDim_ab_ab1_apply {a b : ℕ} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply _ h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b, 1] spread over [a, b, c], axes kept in place: entry (i, j, k) is the operand at (i, j, 0). -/
theorem inDim_ab1_abc_apply {a b c : ℕ} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply _ h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else _
    rw [if_pos rfl]

/-- The vector broadcast of a one-by-one matrix down a column [a, 1]: every entry is the one element. -/
theorem broadcastTo_11_a1_apply {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ =>
    show (0 : ℕ) = if (1 : ℕ) = 1 then 0 else _
    rw [if_pos rfl]
  | ⟨1, _⟩ =>
    show (0 : ℕ) = if (1 : ℕ) = 1 then 0 else _
    rw [if_pos rfl]

end Cert.LibInDimLayout
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«150414_j59957743452648_2_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.LibDenseRows.lean ====
/-
  Dense layers and a row-wise softmax, read one row at a time on the extended reals.

  A dense layer sends a row x to x Wᵀ + b: entry f is the sum over d of x d · W f d, plus b f.  A graph layer adds a
  second product and a tanh: entry f is tanh ((∑ a d · Wl f d) + bl f + ∑ h d · Wr f d), the sum associated in that
  order.  A softmax sends a row l to exp (l q − m) / ∑ exp (l k − m) with m the maximum of the row (taken once more
  against −∞, which changes nothing).  On the extended reals a change of float format is the identity, a matrix product
  accumulated into zero is the plain sum of products, a reduction along the last axis is the sum or supremum over that
  axis, and the layout operations only move coordinates.  So each of these, written with a kernel's vector operations on
  an [M, ·] block or with the host's operations on an [M, ·] array, is at (p, f) the row function of row p: the lemmas
  below say so for any extents M, K, N.
-/
import Idealize.ShloMosaic.PureOps.Ideal.Laws
import Idealize.ShloMosaic.Lib.ValueIdx
import Idealize.ShloMosaic.Lib.ValueLayout
import Idealize.ShloMosaic.Lib.Pipeline.Value
import proofs.«150414_j59957743452648_2_alg».proof.Proof.LibInnerProducts
import proofs.«150414_j59957743452648_2_alg».proof.Proof.LibInDimRow
import proofs.«150414_j59957743452648_2_alg».proof.Proof.LibKeepdims
import proofs.«150414_j59957743452648_2_alg».proof.Proof.LibInDimLayout
import proofs.«150414_j59957743452648_2_alg».proof.Proof.LibExtremeReduce

noncomputable section

namespace Cert.DenseRows

open Idealize.ShloMosaic Idealize.ShloMosaic.ValueIdx
open scoped BigOperators

/-! ## The row functions -/

/-- A dense layer on one row: entry f of x Wᵀ + b. -/
def dense {K N : ℕ} (x : Fin K → EReal) (W : Fin N → Fin K → EReal) (b : Fin N → EReal) (f : Fin N) : EReal :=
  (∑ d : Fin K, x d * W f d) + b f

/-- A graph layer on one node: tanh of (a Wlᵀ + bl) + h Wrᵀ, at entry f. -/
def sage {K N : ℕ} (a h : Fin K → EReal) (Wl : Fin N → Fin K → EReal) (bl : Fin N → EReal) (Wr : Fin N → Fin K → EReal)
    (f : Fin N) : EReal :=
  Ideal.tanh (((∑ d : Fin K, a d * Wl f d) + bl f) + ∑ d : Fin K, h d * Wr f d)

/-- The softmax of one row, the row maximum taken once more against −∞. -/
def softmax {n : ℕ} (l : Fin n → EReal) (q : Fin n) : EReal :=
  Ideal.div (Ideal.exp (l q - max ⊥ (⨆ k : Fin n, l k))) (∑ k : Fin n, Ideal.exp (l k - max ⊥ (⨆ j : Fin n, l j)))

/-! ## A product against a transposed weight matrix -/

/-- An [M, K] block times the transpose of an [N, K] matrix, accumulated into zero: at (p, f) the sum over d of
    a (p, d) · w (f, d). -/
theorem matmulT_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![N, K]⟩ φ₂)
    (ht : (⟨2, ![N, K]⟩ : Shape).Transposes [1, 0] ⟨2, ![K, N]⟩) (p : Fin M) (f : Fin N) :
    matmul D prec a (transpose ⟨2, ![K, N]⟩ [1, 0] w ht) (constant (F := Ideal) ⟨2, ![M, N]⟩ .f32 0x00000000#32) (ix2 p f)
      = ∑ d : Fin K, a (ix2 p d) * w (ix2 f d) :=
  (InnerProducts.matmul_zero_apply D hD prec a (transpose ⟨2, ![K, N]⟩ [1, 0] w ht) p f).trans
    (Finset.sum_congr rfl fun d _ => congrArg (a (ix2 p d) * ·) (transpose_ix2_apply w ht d f))

/-- The host's product of an [M, K] array with the transpose of an [N, K] matrix: the same sum. -/
theorem dotGeneralT_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![N, K]⟩ φ₂)
    (ht : (⟨2, ![N, K]⟩ : Shape).Transposes [1, 0] ⟨2, ![K, N]⟩) (p : Fin M) (f : Fin N) :
    Host.dotGeneral D prec a (transpose ⟨2, ![K, N]⟩ [1, 0] w ht) (ix2 p f) = ∑ d : Fin K, a (ix2 p d) * w (ix2 f d) :=
  (InnerProducts.dotGeneral_apply D hD prec a (transpose ⟨2, ![K, N]⟩ [1, 0] w ht) p f).trans
    (Finset.sum_congr rfl fun d _ => congrArg (a (ix2 p d) * ·) (transpose_ix2_apply w ht d f))

/-! ## A bias row spread over the rows -/

/-- A vector [N] cast to a row [1, N] and broadcast over M rows reads entry f at (p, f). -/
theorem biasRow_apply {M N : ℕ} {α : Type} (b : (⟨1, ![N]⟩ : Shape).Idx → α) (hc : (⟨1, ![N]⟩ : Shape).ShapeCasts ⟨2, ![1, N]⟩)
    (hb : (⟨2, ![1, N]⟩ : Shape).Broadcasts ⟨2, ![M, N]⟩) (p : Fin M) (f : Fin N) :
    broadcastTo ⟨2, ![M, N]⟩ (shapeCast ⟨2, ![1, N]⟩ b hc) hb (ix2 p f) = b (ix1 f) :=
  (broadcastTo_1b_ab_apply _ hb p f).trans (shapeCast_a_1a_apply b hc 0 f)

/-- The host's two broadcasts of a bias vector [N] to [1, N] and on to [M, N] read entry f at (p, f). -/
theorem biasRowHost_apply {M N : ℕ} {α : Type} (b : (⟨1, ![N]⟩ : Shape).Idx → α)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    broadcastInDim ⟨2, ![M, N]⟩ ![0, 1] h2 (broadcastInDim ⟨2, ![1, N]⟩ ![1] h1 b) (ix2 p f) = b (ix1 f) :=
  (Cert.LibInDimRow.inDim_1b_ab_apply _ h2 p f).trans (Cert.LibInDimRow.inDim_b_1b_apply b h1 0 f)

/-! ## A dense layer -/

/-- A kernel's dense layer on a block X (of any float format): X times the transposed, format-changed weights into
    zero, plus the bias row. -/
theorem dense_kernel_apply {M K N : ℕ} {φ : FTy} (D : DotDims ⟨2, ![M, K]⟩ ⟨2, ![K, N]⟩ ⟨2, ![M, N]⟩)
    (hD : D = DotDims.plain M K N) (X : FVec Ideal ⟨2, ![M, K]⟩ φ) (w : FVec Ideal ⟨2, ![N, K]⟩ .f32)
    (b : FVec Ideal ⟨1, ![N]⟩ .f32) (hbits : FTy.bf16.bits < FTy.f32.bits)
    (ht : (⟨2, ![N, K]⟩ : Shape).Transposes [1, 0] ⟨2, ![K, N]⟩) (hc : (⟨1, ![N]⟩ : Shape).ShapeCasts ⟨2, ![1, N]⟩)
    (hb : (⟨2, ![1, N]⟩ : Shape).Broadcasts ⟨2, ![M, N]⟩) (p : Fin M) (f : Fin N) :
    addf (matmul D none X (transpose ⟨2, ![K, N]⟩ [1, 0] (truncf .bf16 w hbits) ht)
        (constant (F := Ideal) ⟨2, ![M, N]⟩ .f32 0x00000000#32))
      (broadcastTo ⟨2, ![M, N]⟩ (shapeCast ⟨2, ![1, N]⟩ b hc) hb) (ix2 p f)
      = dense (fun d => (X (ix2 p d) : EReal)) (fun f d => w (ix2 f d)) (fun f => b (ix1 f)) f := by
  show _ + _ = _
  rw [matmulT_apply D hD none X (truncf .bf16 w hbits) ht p f, biasRow_apply b hc hb p f]
  rfl

/-- The host's dense layer on an array X. -/
theorem dense_host_apply {M K N : ℕ} (D : DotDims ⟨2, ![M, K]⟩ ⟨2, ![K, N]⟩ ⟨2, ![M, N]⟩)
    (hD : D = DotDims.plain M K N) (X : FVec Ideal ⟨2, ![M, K]⟩ .f32) (w : FVec Ideal ⟨2, ![N, K]⟩ .f32)
    (b : FVec Ideal ⟨1, ![N]⟩ .f32) (ht : (⟨2, ![N, K]⟩ : Shape).Transposes [1, 0] ⟨2, ![K, N]⟩)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    addf (Host.dotGeneral D none X (transpose ⟨2, ![K, N]⟩ [1, 0] w ht))
      (broadcastInDim ⟨2, ![M, N]⟩ ![0, 1] h2 (broadcastInDim ⟨2, ![1, N]⟩ ![1] h1 b)) (ix2 p f)
      = dense (fun d => X (ix2 p d)) (fun f d => w (ix2 f d)) (fun f => b (ix1 f)) f := by
  show _ + _ = _
  rw [dotGeneralT_apply D hD none X w ht p f, biasRowHost_apply b h1 h2 p f]
  rfl

/-! ## A graph layer -/

/-- A kernel's graph layer on two [M, K] blocks. -/
theorem sage_kernel_apply {M K N : ℕ} (D : DotDims ⟨2, ![M, K]⟩ ⟨2, ![K, N]⟩ ⟨2, ![M, N]⟩)
    (hD : D = DotDims.plain M K N) (x y : FVec Ideal ⟨2, ![M, K]⟩ .f32) (wl wr : FVec Ideal ⟨2, ![N, K]⟩ .f32)
    (b : FVec Ideal ⟨1, ![N]⟩ .f32) (hs : (⟨2, ![M, K]⟩ : Shape).ShapeCasts ⟨2, ![M, K]⟩)
    (hbits : FTy.bf16.bits < FTy.f32.bits) (ht : (⟨2, ![N, K]⟩ : Shape).Transposes [1, 0] ⟨2, ![K, N]⟩)
    (hc : (⟨1, ![N]⟩ : Shape).ShapeCasts ⟨2, ![1, N]⟩) (hb : (⟨2, ![1, N]⟩ : Shape).Broadcasts ⟨2, ![M, N]⟩)
    (p : Fin M) (f : Fin N) :
    tanh (addf (addf (matmul D none (truncf .bf16 (shapeCast ⟨2, ![M, K]⟩ x hs) hbits)
            (transpose ⟨2, ![K, N]⟩ [1, 0] (truncf .bf16 wl hbits) ht) (constant (F := Ideal) ⟨2, ![M, N]⟩ .f32 0x00000000#32))
          (broadcastTo ⟨2, ![M, N]⟩ (shapeCast ⟨2, ![1, N]⟩ b hc) hb))
        (matmul D none (truncf .bf16 (shapeCast ⟨2, ![M, K]⟩ y hs) hbits)
          (transpose ⟨2, ![K, N]⟩ [1, 0] (truncf .bf16 wr hbits) ht) (constant (F := Ideal) ⟨2, ![M, N]⟩ .f32 0x00000000#32)))
      (ix2 p f)
      = sage (fun d => x (ix2 p d)) (fun d => y (ix2 p d)) (fun f d => wl (ix2 f d)) (fun f => b (ix1 f))
          (fun f d => wr (ix2 f d)) f := by
  show Ideal.tanh ((_ + _) + _) = _
  rw [matmulT_apply D hD none (truncf .bf16 (shapeCast ⟨2, ![M, K]⟩ x hs) hbits) (truncf .bf16 wl hbits) ht p f,
    matmulT_apply D hD none (truncf .bf16 (shapeCast ⟨2, ![M, K]⟩ y hs) hbits) (truncf .bf16 wr hbits) ht p f,
    biasRow_apply b hc hb p f, shapeCast_self x hs, shapeCast_self y hs]
  rfl

/-- The host's graph layer on two [M, K] arrays. -/
theorem sage_host_apply {M K N : ℕ} (D : DotDims ⟨2, ![M, K]⟩ ⟨2, ![K, N]⟩ ⟨2, ![M, N]⟩)
    (hD : D = DotDims.plain M K N) (x y : FVec Ideal ⟨2, ![M, K]⟩ .f32) (wl wr : FVec Ideal ⟨2, ![N, K]⟩ .f32)
    (b : FVec Ideal ⟨1, ![N]⟩ .f32) (ht : (⟨2, ![N, K]⟩ : Shape).Transposes [1, 0] ⟨2, ![K, N]⟩)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    Host.tanh (addf (addf (Host.dotGeneral D none x (transpose ⟨2, ![K, N]⟩ [1, 0] wl ht))
          (broadcastInDim ⟨2, ![M, N]⟩ ![0, 1] h2 (broadcastInDim ⟨2, ![1, N]⟩ ![1] h1 b)))
        (Host.dotGeneral D none y (transpose ⟨2, ![K, N]⟩ [1, 0] wr ht))) (ix2 p f)
      = sage (fun d => x (ix2 p d)) (fun d => y (ix2 p d)) (fun f d => wl (ix2 f d)) (fun f => b (ix1 f))
          (fun f d => wr (ix2 f d)) f := by
  show Ideal.tanh ((_ + _) + _) = _
  rw [dotGeneralT_apply D hD none x wl ht p f, dotGeneralT_apply D hD none y wr ht p f, biasRowHost_apply b h1 h2 p f]
  rfl

end Cert.DenseRows

end
-- ==== Proof.Spec.lean ====
/-
  One attention stage on one (batch, frame) slice, as a function on the extended reals.

  From queries q, keys k and values v, each given at a position s (4096 of them) and a channel (256), the logits of
  channel c against channel e are the sum over positions of q(s,c)·k(s,e); their softmax along e weights the values:
  position s, channel c receives gamma times the sum over d of v(s,d)·softmax(logits(c,·))(d), plus a residual.
-/
import proofs.«150414_j59957743452648_2_alg».proof.Proof.LibDenseRows

noncomputable section

namespace Cert.Spec

open Cert.DenseRows
open scoped BigOperators

/-- The channel-by-channel logits of one slice. -/
def logits (q k : Fin 4096 → Fin 256 → EReal) (c e : Fin 256) : EReal := ∑ s : Fin 4096, q s c * k s e

/-- One stage's result at position `s`, channel `c`. -/
def mix (q k v : Fin 4096 → Fin 256 → EReal) (g : EReal) (res : Fin 4096 → Fin 256 → EReal) (s : Fin 4096) (c : Fin 256) : EReal :=
  g * (∑ d : Fin 256, v s d * softmax (logits q k c) d) + res s c

end Cert.Spec

end
-- ==== Proof.LibLeadUnit.lean ====
/-
  A leading axis of extent one, dropped or added by a row-major reshape: [1,a,b] read as [a,b] and back, at an index.
  Any element type, any extents.
-/
import Idealize.ShloMosaic.Lib.Pipeline.Value
import Idealize.ShloMosaic.Lib.ValueIdx

namespace Cert.LibLeadUnit

open Idealize.ShloMosaic Idealize.ShloMosaic.ValueIdx

variable {α : Type} {a b : Nat}

/-- Entry (p, q) of a [1,a,b] array recast to [a,b] is its entry (0, p, q). -/
theorem drop_apply (x : (⟨3, ![1, a, b]⟩ : Shape).Idx → α) (h : (⟨3, ![1, a, b]⟩ : Shape).ShapeCasts ⟨2, ![a, b]⟩)
    (p : Fin a) (q : Fin b) : shapeCast ⟨2, ![a, b]⟩ x h (ix2 p q) = x (ix3 (0 : Fin 1) p q) :=
  shapeCast_apply x h _ _ (by
    rw [Shape.rowMajor_val_three, Shape.rowMajor_val_two]
    show ((0 : Nat) * a + p.val) * b + q.val = p.val * b + q.val
    rw [Nat.zero_mul, Nat.zero_add])

/-- Entry (u, p, q) of an [a,b] array recast to [1,a,b] is its entry (p, q). -/
theorem add_apply (x : (⟨2, ![a, b]⟩ : Shape).Idx → α) (h : (⟨2, ![a, b]⟩ : Shape).ShapeCasts ⟨3, ![1, a, b]⟩)
    (u : Fin 1) (p : Fin a) (q : Fin b) : shapeCast ⟨3, ![1, a, b]⟩ x h (ix3 u p q) = x (ix2 p q) :=
  shapeCast_apply x h _ _ (by
    rw [Shape.rowMajor_val_three, Shape.rowMajor_val_two]
    have hu : u.val = 0 := by omega
    show p.val * b + q.val = (u.val * a + p.val) * b + q.val
    rw [hu, Nat.zero_mul, Nat.zero_add])

end Cert.LibLeadUnit
-- ==== Proof.LibRowDots.lean ====
/-
  Products of rows against rows, read at an index, on the extended reals.

  A contraction whose two operands are both contracted on their LAST axis — [M,K] against [N,K] (a `tpu.matmul`
  into the zero accumulator, or the host's `dot_general`), [B,M,K] against a shared [N,K], and the batched
  [B,M,K] against [B,N,K] — is, at the output index (p, f) or (g, p, f), the sum over d of the left row's entry d
  times the right row's entry d. Each statement holds for any dimension record equal to the literal one.
-/
import Idealize.ShloMosaic.PureOps.Ideal.Laws
import Idealize.ShloMosaic.Lib.ValueIdx

noncomputable section

namespace Cert.LibRowDots

open Idealize.ShloMosaic Idealize.ShloMosaic.ValueIdx

/-! ## [M,K] against [N,K] -/

section Rows

variable {M K N : Nat}
variable (wf : DotDims.WF ⟨2, ![M, K]⟩ ⟨2, ![N, K]⟩ ⟨2, ![M, N]⟩ [1] [1] [0] [0] [] [])

/-- The literal record: both operands contracted on axis 1, no batch axis. -/
abbrev rows : DotDims ⟨2, ![M, K]⟩ ⟨2, ![N, K]⟩ ⟨2, ![M, N]⟩ := ⟨[1], [1], [0], [0], [], [], wf⟩

theorem rows_lhs0 (i : (⟨2, ![M, N]⟩ : Shape).Idx) (q : (rows wf).contr.Idx) : ((rows wf).lhsIdx i q 0).val = (i 0).val := by
  unfold DotDims.lhsIdx
  rw [dif_neg (show ¬(0 : Fin 2) ∈ (rows wf).lhsBatch from (by decide : ¬(0 : Fin 2) ∈ ([] : List (Fin 2)))), dif_pos (show (0 : Fin 2) ∈ (rows wf).lhsNonContracting from (by decide : (0 : Fin 2) ∈ ([0] : List (Fin 2))))]
  rfl

theorem rows_lhs1 (i : (⟨2, ![M, N]⟩ : Shape).Idx) (q : (rows wf).contr.Idx) : ((rows wf).lhsIdx i q 1).val = (q ⟨0, Nat.one_pos⟩).val :=
  (rows wf).lhsIdx_val_of_single rfl i q

theorem rows_rhs0 (i : (⟨2, ![M, N]⟩ : Shape).Idx) (q : (rows wf).contr.Idx) : ((rows wf).rhsIdx i q 0).val = (i 1).val := by
  unfold DotDims.rhsIdx
  rw [dif_neg (show ¬(0 : Fin 2) ∈ (rows wf).rhsBatch from (by decide : ¬(0 : Fin 2) ∈ ([] : List (Fin 2)))), dif_pos (show (0 : Fin 2) ∈ (rows wf).rhsNonContracting from (by decide : (0 : Fin 2) ∈ ([0] : List (Fin 2))))]
  rfl

theorem rows_rhs1 (i : (⟨2, ![M, N]⟩ : Shape).Idx) (q : (rows wf).contr.Idx) : ((rows wf).rhsIdx i q 1).val = (q ⟨0, Nat.one_pos⟩).val :=
  (rows wf).rhsIdx_val_of_single rfl i q

/-- The sum over the contraction index is the sum over d of row p of the left times row f of the right. -/
theorem rows_sum {φ₁ φ₂ : FTy} (a : FVec Ideal ⟨2, ![M, K]⟩ φ₁) (w : FVec Ideal ⟨2, ![N, K]⟩ φ₂) (p : Fin M) (f : Fin N) :
    ∑ k : (rows wf).contr.Idx, a ((rows wf).lhsIdx (ix2 p f) k) * w ((rows wf).rhsIdx (ix2 p f) k)
      = ∑ d : Fin K, a (ix2 p d) * w (ix2 f d) := by
  rw [← Equiv.sum_comp (contrEquiv1 (rows wf) K rfl rfl).symm]
  refine Finset.sum_congr rfl fun k _ => ?_
  have hk := contrEquiv1_symm_val (rows wf) K rfl rfl k
  have el : (rows wf).lhsIdx (ix2 p f) ((contrEquiv1 (rows wf) K rfl rfl).symm k) = ix2 p k := funext fun x => Fin.ext (by
    match x with
    | ⟨0, _⟩ => exact rows_lhs0 wf _ _
    | ⟨1, _⟩ => exact (rows_lhs1 wf _ _).trans hk)
  have er : (rows wf).rhsIdx (ix2 p f) ((contrEquiv1 (rows wf) K rfl rfl).symm k) = ix2 f k := funext fun x => Fin.ext (by
    match x with
    | ⟨0, _⟩ => exact rows_rhs0 wf _ _
    | ⟨1, _⟩ => exact (rows_rhs1 wf _ _).trans hk)
  rw [el, er]

/-- A `tpu.matmul` of rows against rows into the zero accumulator, at (p, f). -/
theorem matmul_rows {φ₁ φ₂ : FTy} (D : DotDims ⟨2, ![M, K]⟩ ⟨2, ![N, K]⟩ ⟨2, ![M, N]⟩) (hD : D = rows wf)
    (prec : Option ContractPrecision) (a : FVec Ideal ⟨2, ![M, K]⟩ φ₁) (w : FVec Ideal ⟨2, ![N, K]⟩ φ₂) (p : Fin M) (f : Fin N) :
    matmul D prec a w (constant (F := Ideal) ⟨2, ![M, N]⟩ .f32 0x00000000#32) (ix2 p f) = ∑ d : Fin K, a (ix2 p d) * w (ix2 f d) := by
  subst hD
  exact (Ideal.matmul_constant_zero_apply _ prec a w (ix2 p f)).trans (rows_sum wf a w p f)

end Rows

/-! ## [B,M,K] against a shared [N,K] -/

section Shared

variable {B M K N : Nat}
variable (wf : DotDims.WF ⟨3, ![B, M, K]⟩ ⟨2, ![N, K]⟩ ⟨3, ![B, M, N]⟩ [2] [1] [0, 1] [0] [] [])

/-- The literal record: the left contracted on axis 2, the right on axis 1, no batch axis. -/
abbrev shared : DotDims ⟨3, ![B, M, K]⟩ ⟨2, ![N, K]⟩ ⟨3, ![B, M, N]⟩ := ⟨[2], [1], [0, 1], [0], [], [], wf⟩

theorem shared_lhs0 (i : (⟨3, ![B, M, N]⟩ : Shape).Idx) (q : (shared wf).contr.Idx) : ((shared wf).lhsIdx i q 0).val = (i 0).val := by
  unfold DotDims.lhsIdx
  rw [dif_neg (show ¬(0 : Fin 3) ∈ (shared wf).lhsBatch from (by decide : ¬(0 : Fin 3) ∈ ([] : List (Fin 3)))), dif_pos (show (0 : Fin 3) ∈ (shared wf).lhsNonContracting from (by decide : (0 : Fin 3) ∈ ([0, 1] : List (Fin 3))))]
  rfl

theorem shared_lhs1 (i : (⟨3, ![B, M, N]⟩ : Shape).Idx) (q : (shared wf).contr.Idx) : ((shared wf).lhsIdx i q 1).val = (i 1).val := by
  unfold DotDims.lhsIdx
  rw [dif_neg (show ¬(1 : Fin 3) ∈ (shared wf).lhsBatch from (by decide : ¬(1 : Fin 3) ∈ ([] : List (Fin 3)))), dif_pos (show (1 : Fin 3) ∈ (shared wf).lhsNonContracting from (by decide : (1 : Fin 3) ∈ ([0, 1] : List (Fin 3))))]
  rfl

theorem shared_lhs2 (i : (⟨3, ![B, M, N]⟩ : Shape).Idx) (q : (shared wf).contr.Idx) : ((shared wf).lhsIdx i q 2).val = (q ⟨0, Nat.one_pos⟩).val :=
  (shared wf).lhsIdx_val_of_single rfl i q

theorem shared_rhs0 (i : (⟨3, ![B, M, N]⟩ : Shape).Idx) (q : (shared wf).contr.Idx) : ((shared wf).rhsIdx i q 0).val = (i 2).val := by
  unfold DotDims.rhsIdx
  rw [dif_neg (show ¬(0 : Fin 2) ∈ (shared wf).rhsBatch from (by decide : ¬(0 : Fin 2) ∈ ([] : List (Fin 2)))), dif_pos (show (0 : Fin 2) ∈ (shared wf).rhsNonContracting from (by decide : (0 : Fin 2) ∈ ([0] : List (Fin 2))))]
  rfl

theorem shared_rhs1 (i : (⟨3, ![B, M, N]⟩ : Shape).Idx) (q : (shared wf).contr.Idx) : ((shared wf).rhsIdx i q 1).val = (q ⟨0, Nat.one_pos⟩).val :=
  (shared wf).rhsIdx_val_of_single rfl i q

/-- The host's `dot_general` of every chunk's rows against one shared table's rows, at (g, p, f). -/
theorem dot_shared {φ₁ φ₂ : FTy} (D : DotDims ⟨3, ![B, M, K]⟩ ⟨2, ![N, K]⟩ ⟨3, ![B, M, N]⟩) (hD : D = shared wf)
    (prec : Option ContractPrecision) (a : FVec Ideal ⟨3, ![B, M, K]⟩ φ₁) (w : FVec Ideal ⟨2, ![N, K]⟩ φ₂) (g : Fin B) (p : Fin M) (f : Fin N) :
    Host.dotGeneral D prec a w (ix3 g p f) = ∑ d : Fin K, a (ix3 g p d) * w (ix2 f d) := by
  subst hD
  refine (Ideal.dotGeneral_apply _ prec .single a w (ix3 g p f)).trans ?_
  rw [← Equiv.sum_comp (contrEquiv1 (shared wf) K rfl rfl).symm]
  refine Finset.sum_congr rfl fun k _ => ?_
  have hk := contrEquiv1_symm_val (shared wf) K rfl rfl k
  have el : (shared wf).lhsIdx (ix3 g p f) ((contrEquiv1 (shared wf) K rfl rfl).symm k) = ix3 g p k := funext fun x => Fin.ext (by
    match x with
    | ⟨0, _⟩ => exact shared_lhs0 wf _ _
    | ⟨1, _⟩ => exact shared_lhs1 wf _ _
    | ⟨2, _⟩ => exact (shared_lhs2 wf _ _).trans hk)
  have er : (shared wf).rhsIdx (ix3 g p f) ((contrEquiv1 (shared wf) K rfl rfl).symm k) = ix2 f k := funext fun x => Fin.ext (by
    match x with
    | ⟨0, _⟩ => exact shared_rhs0 wf _ _
    | ⟨1, _⟩ => exact (shared_rhs1 wf _ _).trans hk)
  rw [el, er]

end Shared

/-! ## [B,M,K] against [B,N,K], chunk by chunk -/

section Batched

variable {B M K N : Nat}
variable (wf : DotDims.WF ⟨3, ![B, M, K]⟩ ⟨3, ![B, N, K]⟩ ⟨3, ![B, M, N]⟩ [2] [2] [1] [1] [0] [0])

/-- The literal record: axis 0 the batch axis of both, both contracted on axis 2. -/
abbrev batched : DotDims ⟨3, ![B, M, K]⟩ ⟨3, ![B, N, K]⟩ ⟨3, ![B, M, N]⟩ := ⟨[2], [2], [1], [1], [0], [0], wf⟩

theorem batched_lhs0 (i : (⟨3, ![B, M, N]⟩ : Shape).Idx) (q : (batched wf).contr.Idx) : ((batched wf).lhsIdx i q 0).val = (i 0).val := by
  unfold DotDims.lhsIdx
  rw [dif_pos (show (0 : Fin 3) ∈ (batched wf).lhsBatch from (by decide : (0 : Fin 3) ∈ ([0] : List (Fin 3))))]
  rfl

theorem batched_lhs1 (i : (⟨3, ![B, M, N]⟩ : Shape).Idx) (q : (batched wf).contr.Idx) : ((batched wf).lhsIdx i q 1).val = (i 1).val := by
  unfold DotDims.lhsIdx
  rw [dif_neg (show ¬(1 : Fin 3) ∈ (batched wf).lhsBatch from (by decide : ¬(1 : Fin 3) ∈ ([0] : List (Fin 3)))), dif_pos (show (1 : Fin 3) ∈ (batched wf).lhsNonContracting from (by decide : (1 : Fin 3) ∈ ([1] : List (Fin 3))))]
  rfl

theorem batched_lhs2 (i : (⟨3, ![B, M, N]⟩ : Shape).Idx) (q : (batched wf).contr.Idx) : ((batched wf).lhsIdx i q 2).val = (q ⟨0, Nat.one_pos⟩).val :=
  (batched wf).lhsIdx_val_of_single rfl i q

theorem batched_rhs0 (i : (⟨3, ![B, M, N]⟩ : Shape).Idx) (q : (batched wf).contr.Idx) : ((batched wf).rhsIdx i q 0).val = (i 0).val := by
  unfold DotDims.rhsIdx
  rw [dif_pos (show (0 : Fin 3) ∈ (batched wf).rhsBatch from (by decide : (0 : Fin 3) ∈ ([0] : List (Fin 3))))]
  rfl

theorem batched_rhs1 (i : (⟨3, ![B, M, N]⟩ : Shape).Idx) (q : (batched wf).contr.Idx) : ((batched wf).rhsIdx i q 1).val = (i 2).val := by
  unfold DotDims.rhsIdx
  rw [dif_neg (show ¬(1 : Fin 3) ∈ (batched wf).rhsBatch from (by decide : ¬(1 : Fin 3) ∈ ([0] : List (Fin 3)))), dif_pos (show (1 : Fin 3) ∈ (batched wf).rhsNonContracting from (by decide : (1 : Fin 3) ∈ ([1] : List (Fin 3))))]
  rfl

theorem batched_rhs2 (i : (⟨3, ![B, M, N]⟩ : Shape).Idx) (q : (batched wf).contr.Idx) : ((batched wf).rhsIdx i q 2).val = (q ⟨0, Nat.one_pos⟩).val :=
  (batched wf).rhsIdx_val_of_single rfl i q

/-- The host's batched `dot_general`: chunk g's rows against chunk g's table's rows, at (g, p, f). -/
theorem dot_batched {φ₁ φ₂ : FTy} (D : DotDims ⟨3, ![B, M, K]⟩ ⟨3, ![B, N, K]⟩ ⟨3, ![B, M, N]⟩) (hD : D = batched wf)
    (prec : Option ContractPrecision) (a : FVec Ideal ⟨3, ![B, M, K]⟩ φ₁) (w : FVec Ideal ⟨3, ![B, N, K]⟩ φ₂) (g : Fin B) (p : Fin M) (f : Fin N) :
    Host.dotGeneral D prec a w (ix3 g p f) = ∑ d : Fin K, a (ix3 g p d) * w (ix3 g f d) := by
  subst hD
  refine (Ideal.dotGeneral_apply _ prec .single a w (ix3 g p f)).trans ?_
  rw [← Equiv.sum_comp (contrEquiv1 (batched wf) K rfl rfl).symm]
  refine Finset.sum_congr rfl fun k _ => ?_
  have hk := contrEquiv1_symm_val (batched wf) K rfl rfl k
  have el : (batched wf).lhsIdx (ix3 g p f) ((contrEquiv1 (batched wf) K rfl rfl).symm k) = ix3 g p k := funext fun x => Fin.ext (by
    match x with
    | ⟨0, _⟩ => exact batched_lhs0 wf _ _
    | ⟨1, _⟩ => exact batched_lhs1 wf _ _
    | ⟨2, _⟩ => exact (batched_lhs2 wf _ _).trans hk)
  have er : (batched wf).rhsIdx (ix3 g p f) ((contrEquiv1 (batched wf) K rfl rfl).symm k) = ix3 g f k := funext fun x => Fin.ext (by
    match x with
    | ⟨0, _⟩ => exact batched_rhs0 wf _ _
    | ⟨1, _⟩ => exact batched_rhs1 wf _ _
    | ⟨2, _⟩ => exact (batched_rhs2 wf _ _).trans hk)
  rw [el, er]

end Batched

end Cert.LibRowDots

end
-- ==== Proof.LibColumnDots.lean ====
/-
  Products of columns against columns, read at an index, on the extended reals.

  A contraction whose two operands are both contracted on their FIRST axis — [K,M] against [K,N], as a
  `tpu.matmul` into the zero accumulator — is, at the output index (p, f), the sum over d of entry (d, p) of
  the left operand times entry (d, f) of the right one: column p against column f. The statement holds for any
  dimension record equal to the literal one.
-/
import Idealize.ShloMosaic.PureOps.Ideal.Laws
import Idealize.ShloMosaic.Lib.ValueIdx

noncomputable section

namespace Cert.LibColumnDots

open Idealize.ShloMosaic Idealize.ShloMosaic.ValueIdx

variable {M K N : Nat}
variable (wf : DotDims.WF ⟨2, ![K, M]⟩ ⟨2, ![K, N]⟩ ⟨2, ![M, N]⟩ [0] [0] [1] [1] [] [])

/-- The literal record: both operands contracted on axis 0, no batch axis. -/
abbrev cols : DotDims ⟨2, ![K, M]⟩ ⟨2, ![K, N]⟩ ⟨2, ![M, N]⟩ := ⟨[0], [0], [1], [1], [], [], wf⟩

/-- The left operand's contracted coordinate is the contraction index. -/
theorem cols_lhs0 (i : (⟨2, ![M, N]⟩ : Shape).Idx) (q : (cols wf).contr.Idx) : ((cols wf).lhsIdx i q 0).val = (q ⟨0, Nat.one_pos⟩).val :=
  (cols wf).lhsIdx_val_of_single rfl i q

/-- The left operand's free coordinate is the output's row. -/
theorem cols_lhs1 (i : (⟨2, ![M, N]⟩ : Shape).Idx) (q : (cols wf).contr.Idx) : ((cols wf).lhsIdx i q 1).val = (i 0).val := by
  unfold DotDims.lhsIdx
  rw [dif_neg (show ¬(1 : Fin 2) ∈ (cols wf).lhsBatch from (by decide : ¬(1 : Fin 2) ∈ ([] : List (Fin 2)))), dif_pos (show (1 : Fin 2) ∈ (cols wf).lhsNonContracting from (by decide : (1 : Fin 2) ∈ ([1] : List (Fin 2))))]
  rfl

/-- The right operand's contracted coordinate is the contraction index. -/
theorem cols_rhs0 (i : (⟨2, ![M, N]⟩ : Shape).Idx) (q : (cols wf).contr.Idx) : ((cols wf).rhsIdx i q 0).val = (q ⟨0, Nat.one_pos⟩).val :=
  (cols wf).rhsIdx_val_of_single rfl i q

/-- The right operand's free coordinate is the output's column. -/
theorem cols_rhs1 (i : (⟨2, ![M, N]⟩ : Shape).Idx) (q : (cols wf).contr.Idx) : ((cols wf).rhsIdx i q 1).val = (i 1).val := by
  unfold DotDims.rhsIdx
  rw [dif_neg (show ¬(1 : Fin 2) ∈ (cols wf).rhsBatch from (by decide : ¬(1 : Fin 2) ∈ ([] : List (Fin 2)))), dif_pos (show (1 : Fin 2) ∈ (cols wf).rhsNonContracting from (by decide : (1 : Fin 2) ∈ ([1] : List (Fin 2))))]
  rfl

/-- The sum over the contraction index is the sum over d of column p of the left times column f of the right. -/
theorem cols_sum {φ₁ φ₂ : FTy} (a : FVec Ideal ⟨2, ![K, M]⟩ φ₁) (w : FVec Ideal ⟨2, ![K, N]⟩ φ₂) (p : Fin M) (f : Fin N) :
    ∑ k : (cols wf).contr.Idx, a ((cols wf).lhsIdx (ix2 p f) k) * w ((cols wf).rhsIdx (ix2 p f) k)
      = ∑ d : Fin K, a (ix2 d p) * w (ix2 d f) := by
  rw [← Equiv.sum_comp (contrEquiv1 (cols wf) K rfl rfl).symm]
  refine Finset.sum_congr rfl fun k _ => ?_
  have hk := contrEquiv1_symm_val (cols wf) K rfl rfl k
  have el : (cols wf).lhsIdx (ix2 p f) ((contrEquiv1 (cols wf) K rfl rfl).symm k) = ix2 k p := funext fun x => Fin.ext (by
    match x with
    | ⟨0, _⟩ => exact (cols_lhs0 wf _ _).trans hk
    | ⟨1, _⟩ => exact cols_lhs1 wf _ _)
  have er : (cols wf).rhsIdx (ix2 p f) ((contrEquiv1 (cols wf) K rfl rfl).symm k) = ix2 k f := funext fun x => Fin.ext (by
    match x with
    | ⟨0, _⟩ => exact (cols_rhs0 wf _ _).trans hk
    | ⟨1, _⟩ => exact cols_rhs1 wf _ _)
  rw [el, er]

/-- A `tpu.matmul` of columns against columns into the zero accumulator, at (p, f). -/
theorem matmul_cols {φ₁ φ₂ : FTy} (D : DotDims ⟨2, ![K, M]⟩ ⟨2, ![K, N]⟩ ⟨2, ![M, N]⟩) (hD : D = cols wf)
    (prec : Option ContractPrecision) (a : FVec Ideal ⟨2, ![K, M]⟩ φ₁) (w : FVec Ideal ⟨2, ![K, N]⟩ φ₂) (p : Fin M) (f : Fin N) :
    matmul D prec a w (constant (F := Ideal) ⟨2, ![M, N]⟩ .f32 0x00000000#32) (ix2 p f) = ∑ d : Fin K, a (ix2 d p) * w (ix2 d f) := by
  subst hD
  exact (Ideal.matmul_constant_zero_apply _ prec a w (ix2 p f)).trans (cols_sum wf a w p f)

end Cert.LibColumnDots

end
-- ==== Proof.LibBiasRow.lean ====
/-
  A bias vector added to every row of a matrix, as a kernel spells it: the [n] vector is recast as a [1,n] row and the
  row is broadcast to [m,n].  Read at (p, f) the result is entry f of the vector, whatever the row p.
-/
import Idealize.ShloMosaic.Lib.Pipeline.Value
import Idealize.ShloMosaic.Lib.ValueIdx

namespace Cert.LibBiasRow

open Idealize.ShloMosaic Idealize.ShloMosaic.ValueIdx

variable {α : Type} {m n : Nat}

/-- The [n] vector recast as a [1,n] row, read at (u, f), is entry f. -/
theorem row_cast_apply (b : (⟨1, ![n]⟩ : Shape).Idx → α) (h : (⟨1, ![n]⟩ : Shape).ShapeCasts ⟨2, ![1, n]⟩) (u : Fin 1) (f : Fin n) :
    shapeCast ⟨2, ![1, n]⟩ b h (ix2 u f) = b (ix1 f) :=
  shapeCast_apply b h _ _ (by
    rw [Shape.rowMajor_val_one, Shape.rowMajor_val_two]
    have hu : u.val = 0 := by omega
    show f.val = u.val * n + f.val
    rw [hu, Nat.zero_mul, Nat.zero_add])

/-- The [1,n] row broadcast over m rows, read at (p, f), is the row at (0, f). -/
theorem row_spread_apply (r : (⟨2, ![1, n]⟩ : Shape).Idx → α) (h : (⟨2, ![1, n]⟩ : Shape).Broadcasts ⟨2, ![m, n]⟩) (p : Fin m) (f : Fin n) :
    broadcastTo ⟨2, ![m, n]⟩ r h (ix2 p f) = r (ix2 (0 : Fin 1) f) :=
  broadcastTo_apply r h _ _ (fun a => by
    match a with
    | ⟨0, _⟩ => show (0 : Nat) = if (1 : Nat) = 1 then 0 else _; rw [if_pos rfl]
    | ⟨1, _⟩ =>
      show f.val = if n = 1 then 0 else f.val
      split
      · have := f.isLt; omega
      · rfl)

/-- The two together: the bias row at (p, f) is entry f of the vector. -/
theorem bias_row_apply (b : (⟨1, ![n]⟩ : Shape).Idx → α) (h1 : (⟨1, ![n]⟩ : Shape).ShapeCasts ⟨2, ![1, n]⟩)
    (h2 : (⟨2, ![1, n]⟩ : Shape).Broadcasts ⟨2, ![m, n]⟩) (p : Fin m) (f : Fin n) :
    broadcastTo ⟨2, ![m, n]⟩ (shapeCast ⟨2, ![1, n]⟩ b h1) h2 (ix2 p f) = b (ix1 f) :=
  (row_spread_apply _ h2 p f).trans (row_cast_apply b h1 0 f)

end Cert.LibBiasRow
-- ==== Proof.LibRowSoftmax.lean ====
/-
  A row-wise softmax, read one row at a time on the extended reals.

  The maximum of row p is the supremum of its entries; taking it once more against −∞ changes nothing and is kept as
  written.  The shifted row is exponentiated, summed along the row, and each exponential divided by that sum.  A kernel
  writes this on an [M, n] block with lane reductions, a cast of the [M] results to a column [M, 1] and a broadcast back
  to [M, n]; the host writes it on an [M, n] array with reduce, two broadcasts and divide.  At (p, q) both are the
  softmax of row p at q.
-/
import Idealize.ShloMosaic.PureOps.Ideal.Laws
import Idealize.ShloMosaic.Lib.ValueIdx
import Idealize.ShloMosaic.Lib.Pipeline.Value
import proofs.«150414_j59957743452648_2_alg».proof.Proof.LibKeepdims
import proofs.«150414_j59957743452648_2_alg».proof.Proof.LibInDimLayout
import proofs.«150414_j59957743452648_2_alg».proof.Proof.LibExtremeReduce
import proofs.«150414_j59957743452648_2_alg».proof.Proof.LibDenseRows

noncomputable section

namespace Cert.DenseRows

open Idealize.ShloMosaic Idealize.ShloMosaic.ValueIdx
open scoped BigOperators

/-- Putting coordinate k back on the last axis of the row index p gives (p, k). -/
theorem lift_ix1 {M n : ℕ} (h : (⟨2, ![M, n]⟩ : Shape).Reduces [1] ⟨1, ![M]⟩) (p : Fin M) (k : Fin n) :
    h.lift (ix1 p) k = ix2 p k := by
  funext c
  apply Fin.ext
  match c with
  | ⟨0, _⟩ => rfl
  | ⟨1, _⟩ => rfl

/-- A scalar spread over a vector reads the scalar everywhere. -/
theorem inDim_scalar_apply {M : ℕ} {α : Type} (v : (⟨0, ![]⟩ : Shape).Idx → α)
    (h : (⟨0, ![]⟩ : Shape).BroadcastsInDim ⟨1, ![M]⟩ ![]) (j : (⟨1, ![M]⟩ : Shape).Idx) :
    broadcastInDim ⟨1, ![M]⟩ ![] h v j = v ix0 :=
  broadcastInDim_apply _ h v j ix0 fun a => a.elim0

/-- The kernel's softmax of an [M, n] block at (p, q). -/
theorem softmax_kernel_apply {M n : ℕ} (src : FVec Ideal ⟨2, ![M, n]⟩ .f32)
    (h : (⟨2, ![M, n]⟩ : Shape).Reduces [1] ⟨1, ![M]⟩) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, n]⟩)
    (p : Fin M) (q : Fin n) :
    divf (exp (subf src (broadcastTo ⟨2, ![M, n]⟩ (shapeCast ⟨2, ![M, 1]⟩
            (maximumf (broadcast ⟨1, ![M]⟩ (Scalar.ofBits (F := Ideal) .f32 0xFF800000#32))
              (multiReduction .maximumf [1] ⟨1, ![M]⟩ src 0xFF800000#32 h hφ hmax)) hc) hb)))
        (broadcastTo ⟨2, ![M, n]⟩ (shapeCast ⟨2, ![M, 1]⟩
          (multiReduction .add [1] ⟨1, ![M]⟩
            (exp (subf src (broadcastTo ⟨2, ![M, n]⟩ (shapeCast ⟨2, ![M, 1]⟩
              (maximumf (broadcast ⟨1, ![M]⟩ (Scalar.ofBits (F := Ideal) .f32 0xFF800000#32))
                (multiReduction .maximumf [1] ⟨1, ![M]⟩ src 0xFF800000#32 h hφ hmax)) hc) hb)))
            0x00000000#32 h hφ hadd) hc) hb) (ix2 p q)
      = softmax (fun k => src (ix2 p k)) q := by
  -- the row maximum, spread back over the row, read at any entry of row p
  have hm : ∀ k : Fin n, broadcastTo ⟨2, ![M, n]⟩ (shapeCast ⟨2, ![M, 1]⟩
        (maximumf (broadcast ⟨1, ![M]⟩ (Scalar.ofBits (F := Ideal) .f32 0xFF800000#32))
          (multiReduction .maximumf [1] ⟨1, ![M]⟩ src 0xFF800000#32 h hφ hmax)) hc) hb (ix2 p k)
        = max ⊥ (⨆ j : Fin n, src (ix2 p j)) := by
    intro k
    rw [Cert.LibKeepdims.broadcastTo_a1_ab_apply _ hb p k, Cert.LibKeepdims.shapeCast_a_a1_apply _ hc p 0]
    show max (Ideal.ofBits .f32 0xFF800000#32) (multiReduction .maximumf [1] ⟨1, ![M]⟩ src 0xFF800000#32 h hφ hmax (ix1 p)) = _
    rw [ExtremeReduce.ofBits_negInf, ExtremeReduce.multiReduction_max_single src h hφ hmax (ix1 p)]
    show max ⊥ (⨆ j : Fin n, src (h.lift (ix1 p) j)) = _
    simp only [lift_ix1]
  -- the exponential of the shifted row, at any entry of row p
  have he : ∀ k : Fin n, exp (subf src (broadcastTo ⟨2, ![M, n]⟩ (shapeCast ⟨2, ![M, 1]⟩
        (maximumf (broadcast ⟨1, ![M]⟩ (Scalar.ofBits (F := Ideal) .f32 0xFF800000#32))
          (multiReduction .maximumf [1] ⟨1, ![M]⟩ src 0xFF800000#32 h hφ hmax)) hc) hb)) (ix2 p k)
        = Ideal.exp (src (ix2 p k) - max ⊥ (⨆ j : Fin n, src (ix2 p j))) := by
    intro k
    show Ideal.exp (src (ix2 p k) - _) = _
    rw [hm k]
  show Ideal.div _ _ = _
  rw [he q, Cert.LibKeepdims.broadcastTo_a1_ab_apply _ hb p q, Cert.LibKeepdims.shapeCast_a_a1_apply _ hc p 0,
    Ideal.multiReduction_add_single _ _ h hφ hadd (ix1 p)]
  unfold softmax
  refine congrArg (Ideal.div _) ?_
  show ∑ k : Fin n, _ = _
  refine Finset.sum_congr rfl fun k _ => ?_
  rw [lift_ix1 h p k, he k]

/-- The host's softmax of an [M, n] array at (p, q). -/
theorem softmax_host_apply {M n : ℕ} (src : FVec Ideal ⟨2, ![M, n]⟩ .f32)
    (h' : (⟨2, ![M, n]⟩ : Shape).ReducesTo [1] ⟨1, ![M]⟩) (h : (⟨2, ![M, n]⟩ : Shape).Reduces [1] ⟨1, ![M]⟩)
    (hu : 0 < (⟨0, ![]⟩ : Shape).numel) (hs : (⟨0, ![]⟩ : Shape).BroadcastsInDim ⟨1, ![M]⟩ ![])
    (h1 : (⟨1, ![M]⟩ : Shape).BroadcastsInDim ⟨2, ![M, 1]⟩ ![0]) (h2 : (⟨2, ![M, 1]⟩ : Shape).BroadcastsInDim ⟨2, ![M, n]⟩ ![0, 1])
    (p : Fin M) (q : Fin n) :
    Host.divf (Host.exp (subf src (broadcastInDim ⟨2, ![M, n]⟩ ![0, 1] h2 (broadcastInDim ⟨2, ![M, 1]⟩ ![0] h1
            (maximumf (broadcastInDim ⟨1, ![M]⟩ ![] hs (constant (F := Ideal) ⟨0, ![]⟩ .f32 0xFF800000#32))
              (Host.reduce FloatOps.maximumf src (constant (F := Ideal) ⟨0, ![]⟩ .f32 0xFF800000#32) h' hu))))))
        (broadcastInDim ⟨2, ![M, n]⟩ ![0, 1] h2 (broadcastInDim ⟨2, ![M, 1]⟩ ![0] h1
          (Host.reduceAdd
            (Host.exp (subf src (broadcastInDim ⟨2, ![M, n]⟩ ![0, 1] h2 (broadcastInDim ⟨2, ![M, 1]⟩ ![0] h1
              (maximumf (broadcastInDim ⟨1, ![M]⟩ ![] hs (constant (F := Ideal) ⟨0, ![]⟩ .f32 0xFF800000#32))
                (Host.reduce FloatOps.maximumf src (constant (F := Ideal) ⟨0, ![]⟩ .f32 0xFF800000#32) h' hu))))))
            (constant (F := Ideal) ⟨0, ![]⟩ .f32 0x00000000#32) h' hu))) (ix2 p q)
      = softmax (fun k => src (ix2 p k)) q := by
  have hm : ∀ k : Fin n, broadcastInDim ⟨2, ![M, n]⟩ ![0, 1] h2 (broadcastInDim ⟨2, ![M, 1]⟩ ![0] h1
        (maximumf (broadcastInDim ⟨1, ![M]⟩ ![] hs (constant (F := Ideal) ⟨0, ![]⟩ .f32 0xFF800000#32))
          (Host.reduce FloatOps.maximumf src (constant (F := Ideal) ⟨0, ![]⟩ .f32 0xFF800000#32) h' hu))) (ix2 p k)
        = max ⊥ (⨆ j : Fin n, src (ix2 p j)) := by
    intro k
    rw [Cert.LibInDimLayout.inDim_a1_ab_apply _ h2 p k, Cert.LibInDimLayout.inDim_a_a1_apply _ h1 p 0]
    show max (broadcastInDim ⟨1, ![M]⟩ ![] hs (constant (F := Ideal) ⟨0, ![]⟩ .f32 0xFF800000#32) (ix1 p))
      (Host.reduce FloatOps.maximumf src (constant (F := Ideal) ⟨0, ![]⟩ .f32 0xFF800000#32) h' hu (ix1 p)) = _
    rw [inDim_scalar_apply _ hs (ix1 p), ExtremeReduce.hostReduce_max_single src h' h hu (ix1 p)]
    show max (Ideal.ofBits .f32 0xFF800000#32) (⨆ j : Fin n, src (h.lift (ix1 p) j)) = _
    rw [ExtremeReduce.ofBits_negInf]
    simp only [lift_ix1]
  have he : ∀ k : Fin n, Host.exp (subf src (broadcastInDim ⟨2, ![M, n]⟩ ![0, 1] h2 (broadcastInDim ⟨2, ![M, 1]⟩ ![0] h1
        (maximumf (broadcastInDim ⟨1, ![M]⟩ ![] hs (constant (F := Ideal) ⟨0, ![]⟩ .f32 0xFF800000#32))
          (Host.reduce FloatOps.maximumf src (constant (F := Ideal) ⟨0, ![]⟩ .f32 0xFF800000#32) h' hu))))) (ix2 p k)
        = Ideal.exp (src (ix2 p k) - max ⊥ (⨆ j : Fin n, src (ix2 p j))) := by
    intro k
    show Ideal.exp (src (ix2 p k) - _) = _
    rw [hm k]
  show Ideal.div _ _ = _
  rw [he q, Cert.LibInDimLayout.inDim_a1_ab_apply _ h2 p q, Cert.LibInDimLayout.inDim_a_a1_apply _ h1 p 0]
  unfold softmax
  refine congrArg (Ideal.div _) ?_
  show Ideal.hostReduceAdd h' _ (Ideal.ofBits .f32 0x00000000#32) (ix1 p) = _
  rw [Ideal.hostReduceAdd_single h' h _ _ (ix1 p), Ideal.ofBits_zero_f32, zero_add]
  show ∑ k : Fin n, _ = _
  refine Finset.sum_congr rfl fun k _ => ?_
  rw [lift_ix1 h p k, he k]

end Cert.DenseRows

end
-- ==== Proof.LibBlockRows.lean ====
/-
  Rows of the three dense stages, read at an index on the extended reals.

  A kernel works on a block of rows and the plain program on the whole matrix; when row p of the block is row r of
  the matrix, what the kernel's operations leave at (p, f) is what the host's operations leave at (r, f):
    * a matrix product into zero: the sum over d of x (r, d) · w (d, f);
    * the rectified, biased product: the sum over d of max (h (r, d) + b d, 0) · w (d, f);
    * the row softmax of the biased row: exp (l k − M) / ∑ exp (l j − M), with l k = h (r, k) + b k and M the row
      maximum (which the host takes once more against −∞; the maximum with −∞ is the identity).
  A change of float format is the identity on the extended reals, so the formats of the factors play no part.
-/
import Idealize.ShloMosaic.PureOps.Ideal.Laws
import Idealize.ShloMosaic.Lib.ValueIdx
import Idealize.ShloMosaic.Lib.ValueLayout
import Idealize.ShloMosaic.Lib.Pipeline.Value
import proofs.«150414_j59957743452648_2_alg».proof.Proof.LibInnerProducts
import proofs.«150414_j59957743452648_2_alg».proof.Proof.LibKeepdims
import proofs.«150414_j59957743452648_2_alg».proof.Proof.LibExtremeReduce
import proofs.«150414_j59957743452648_2_alg».proof.Proof.LibDenseRows
import proofs.«150414_j59957743452648_2_alg».proof.Proof.LibRowSoftmax

noncomputable section

namespace Cert.Gcn.Rows

open Idealize.ShloMosaic Idealize.ShloMosaic.ValueIdx
open scoped BigOperators

/-- The block's product at (p, f) is the matrix's product at (r, f) when row p of the block is row r of the matrix. -/
theorem product_row {M B K N : ℕ} {φ : FTy}
    (Db : DotDims ⟨2, ![B, K]⟩ ⟨2, ![K, N]⟩ ⟨2, ![B, N]⟩) (hDb : Db = DotDims.plain B K N)
    (D : DotDims ⟨2, ![M, K]⟩ ⟨2, ![K, N]⟩ ⟨2, ![M, N]⟩) (hD : D = DotDims.plain M K N)
    (x : FVec Ideal ⟨2, ![M, K]⟩ .f32) (xb : FVec Ideal ⟨2, ![B, K]⟩ .f32) (w : FVec Ideal ⟨2, ![K, N]⟩ φ)
    (hbits : FTy.bf16.bits < FTy.f32.bits) (hs : (⟨2, ![K, N]⟩ : Shape).ShapeCasts ⟨2, ![K, N]⟩)
    (r : Fin M) (p : Fin B) (hx : ∀ d : Fin K, xb (ix2 p d) = x (ix2 r d)) (f : Fin N) :
    matmul Db none (truncf .bf16 xb hbits) (shapeCast ⟨2, ![K, N]⟩ w hs) (constant (F := Ideal) ⟨2, ![B, N]⟩ .f32 0x00000000#32) (ix2 p f)
      = Host.dotGeneral D none x w (ix2 r f) := by
  rw [InnerProducts.matmul_zero_apply Db hDb none _ _ p f, InnerProducts.dotGeneral_apply D hD none x w r f, shapeCast_self w hs]
  exact Finset.sum_congr rfl fun d _ => congrArg (· * w (ix2 d f)) (hx d)

/-- A scalar spread over a matrix reads the scalar everywhere. -/
theorem inDim_scalar_matrix_apply {a b : ℕ} {α : Type} (v : (⟨0, ![]⟩ : Shape).Idx → α)
    (h : (⟨0, ![]⟩ : Shape).BroadcastsInDim ⟨2, ![a, b]⟩ ![]) (j : (⟨2, ![a, b]⟩ : Shape).Idx) :
    broadcastInDim ⟨2, ![a, b]⟩ ![] h v j = v ix0 :=
  broadcastInDim_apply _ h v j ix0 fun ax => ax.elim0

/-- The rectified biased entry, in the kernel's form on a block and in the host's form on the matrix. -/
theorem rectified_entry {M B K : ℕ}
    (h : FVec Ideal ⟨2, ![M, K]⟩ .f32) (hb : FVec Ideal ⟨2, ![B, K]⟩ .f32) (b : FVec Ideal ⟨1, ![K]⟩ .f32)
    (hss : (⟨2, ![B, K]⟩ : Shape).ShapeCasts ⟨2, ![B, K]⟩) (hc : (⟨1, ![K]⟩ : Shape).ShapeCasts ⟨2, ![1, K]⟩)
    (hbr : (⟨2, ![1, K]⟩ : Shape).Broadcasts ⟨2, ![B, K]⟩)
    (h1 : (⟨1, ![K]⟩ : Shape).BroadcastsInDim ⟨2, ![1, K]⟩ ![1]) (h2 : (⟨2, ![1, K]⟩ : Shape).BroadcastsInDim ⟨2, ![M, K]⟩ ![0, 1])
    (h0 : (⟨0, ![]⟩ : Shape).BroadcastsInDim ⟨2, ![M, K]⟩ ![])
    (r : Fin M) (p : Fin B) (hx : ∀ d : Fin K, hb (ix2 p d) = h (ix2 r d)) (d : Fin K) :
    maximumf (addf (shapeCast ⟨2, ![B, K]⟩ hb hss) (broadcastTo ⟨2, ![B, K]⟩ (shapeCast ⟨2, ![1, K]⟩ b hc) hbr))
        (broadcast ⟨2, ![B, K]⟩ (Scalar.ofBits (F := Ideal) .f32 0x00000000#32)) (ix2 p d)
      = maximumf (addf h (broadcastInDim ⟨2, ![M, K]⟩ ![0, 1] h2 (broadcastInDim ⟨2, ![1, K]⟩ ![1] h1 b)))
          (broadcastInDim ⟨2, ![M, K]⟩ ![] h0 (constant (F := Ideal) ⟨0, ![]⟩ .f32 0x00000000#32)) (ix2 r d) := by
  show max (shapeCast ⟨2, ![B, K]⟩ hb hss (ix2 p d) + broadcastTo ⟨2, ![B, K]⟩ (shapeCast ⟨2, ![1, K]⟩ b hc) hbr (ix2 p d)) (Ideal.ofBits .f32 0x00000000#32)
    = max (h (ix2 r d) + broadcastInDim ⟨2, ![M, K]⟩ ![0, 1] h2 (broadcastInDim ⟨2, ![1, K]⟩ ![1] h1 b) (ix2 r d))
        (broadcastInDim ⟨2, ![M, K]⟩ ![] h0 (constant (F := Ideal) ⟨0, ![]⟩ .f32 0x00000000#32) (ix2 r d))
  rw [shapeCast_self hb hss, Cert.DenseRows.biasRow_apply b hc hbr p d, Cert.DenseRows.biasRowHost_apply b h1 h2 r d, hx d,
    inDim_scalar_matrix_apply _ h0 (ix2 r d)]
  rfl

/-- The block's rectified product at (p, f) is the matrix's at (r, f) when row p of the block is row r of the matrix. -/
theorem hidden_row {M B K N : ℕ} {φ : FTy}
    (Db : DotDims ⟨2, ![B, K]⟩ ⟨2, ![K, N]⟩ ⟨2, ![B, N]⟩) (hDb : Db = DotDims.plain B K N)
    (D : DotDims ⟨2, ![M, K]⟩ ⟨2, ![K, N]⟩ ⟨2, ![M, N]⟩) (hD : D = DotDims.plain M K N)
    (h : FVec Ideal ⟨2, ![M, K]⟩ .f32) (hb : FVec Ideal ⟨2, ![B, K]⟩ .f32) (b : FVec Ideal ⟨1, ![K]⟩ .f32)
    (w : FVec Ideal ⟨2, ![K, N]⟩ φ)
    (hbits : FTy.bf16.bits < FTy.f32.bits) (hs : (⟨2, ![K, N]⟩ : Shape).ShapeCasts ⟨2, ![K, N]⟩)
    (hss : (⟨2, ![B, K]⟩ : Shape).ShapeCasts ⟨2, ![B, K]⟩) (hc : (⟨1, ![K]⟩ : Shape).ShapeCasts ⟨2, ![1, K]⟩)
    (hbr : (⟨2, ![1, K]⟩ : Shape).Broadcasts ⟨2, ![B, K]⟩)
    (h1 : (⟨1, ![K]⟩ : Shape).BroadcastsInDim ⟨2, ![1, K]⟩ ![1]) (h2 : (⟨2, ![1, K]⟩ : Shape).BroadcastsInDim ⟨2, ![M, K]⟩ ![0, 1])
    (h0 : (⟨0, ![]⟩ : Shape).BroadcastsInDim ⟨2, ![M, K]⟩ ![])
    (r : Fin M) (p : Fin B) (hx : ∀ d : Fin K, hb (ix2 p d) = h (ix2 r d)) (f : Fin N) :
    matmul Db none
        (truncf .bf16 (maximumf (addf (shapeCast ⟨2, ![B, K]⟩ hb hss) (broadcastTo ⟨2, ![B, K]⟩ (shapeCast ⟨2, ![1, K]⟩ b hc) hbr))
          (broadcast ⟨2, ![B, K]⟩ (Scalar.ofBits (F := Ideal) .f32 0x00000000#32))) hbits)
        (shapeCast ⟨2, ![K, N]⟩ w hs) (constant (F := Ideal) ⟨2, ![B, N]⟩ .f32 0x00000000#32) (ix2 p f)
      = Host.dotGeneral D none
          (maximumf (addf h (broadcastInDim ⟨2, ![M, K]⟩ ![0, 1] h2 (broadcastInDim ⟨2, ![1, K]⟩ ![1] h1 b)))
            (broadcastInDim ⟨2, ![M, K]⟩ ![] h0 (constant (F := Ideal) ⟨0, ![]⟩ .f32 0x00000000#32))) w (ix2 r f) := by
  rw [InnerProducts.matmul_zero_apply Db hDb none _ _ p f, InnerProducts.dotGeneral_apply D hD none _ w r f, shapeCast_self w hs]
  exact Finset.sum_congr rfl fun d _ => congrArg (· * w (ix2 d f)) (rectified_entry h hb b hss hc hbr h1 h2 h0 r p hx d)

/-- A kernel's softmax of an [M, n] block at (p, q): lane maximum and lane sum, each cast to a column and broadcast back. -/
theorem softmax_lanes_apply {M n : ℕ} (src : FVec Ideal ⟨2, ![M, n]⟩ .f32)
    (h : (⟨2, ![M, n]⟩ : Shape).Reduces [1] ⟨1, ![M]⟩) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, n]⟩)
    (p : Fin M) (q : Fin n) :
    divf (exp (subf src (broadcastTo ⟨2, ![M, n]⟩ (shapeCast ⟨2, ![M, 1]⟩
            (multiReduction .maximumf [1] ⟨1, ![M]⟩ src 0xFF800000#32 h hφ hmax) hc) hb)))
        (broadcastTo ⟨2, ![M, n]⟩ (shapeCast ⟨2, ![M, 1]⟩
          (multiReduction .add [1] ⟨1, ![M]⟩
            (exp (subf src (broadcastTo ⟨2, ![M, n]⟩ (shapeCast ⟨2, ![M, 1]⟩
              (multiReduction .maximumf [1] ⟨1, ![M]⟩ src 0xFF800000#32 h hφ hmax) hc) hb)))
            0x00000000#32 h hφ hadd) hc) hb) (ix2 p q)
      = Cert.DenseRows.softmax (fun k => src (ix2 p k)) q := by
  -- the row maximum, spread back over the row, read at any entry of row p
  have hm : ∀ k : Fin n, broadcastTo ⟨2, ![M, n]⟩ (shapeCast ⟨2, ![M, 1]⟩
        (multiReduction .maximumf [1] ⟨1, ![M]⟩ src 0xFF800000#32 h hφ hmax) hc) hb (ix2 p k)
        = max ⊥ (⨆ j : Fin n, src (ix2 p j)) := by
    intro k
    rw [Cert.LibKeepdims.broadcastTo_a1_ab_apply _ hb p k, Cert.LibKeepdims.shapeCast_a_a1_apply _ hc p 0,
      ExtremeReduce.multiReduction_max_single src h hφ hmax (ix1 p), max_bot_left]
    show (⨆ j : Fin n, src (h.lift (ix1 p) j)) = _
    simp only [Cert.DenseRows.lift_ix1]
  -- the exponential of the shifted row, at any entry of row p
  have he : ∀ k : Fin n, exp (subf src (broadcastTo ⟨2, ![M, n]⟩ (shapeCast ⟨2, ![M, 1]⟩
        (multiReduction .maximumf [1] ⟨1, ![M]⟩ src 0xFF800000#32 h hφ hmax) hc) hb)) (ix2 p k)
        = Ideal.exp (src (ix2 p k) - max ⊥ (⨆ j : Fin n, src (ix2 p j))) := by
    intro k
    show Ideal.exp (src (ix2 p k) - _) = _
    rw [hm k]
  show Ideal.div _ _ = _
  rw [he q, Cert.LibKeepdims.broadcastTo_a1_ab_apply _ hb p q, Cert.LibKeepdims.shapeCast_a_a1_apply _ hc p 0,
    Ideal.multiReduction_add_single _ _ h hφ hadd (ix1 p)]
  unfold Cert.DenseRows.softmax
  refine congrArg (Ideal.div _) ?_
  show ∑ k : Fin n, _ = _
  refine Finset.sum_congr rfl fun k _ => ?_
  rw [Cert.DenseRows.lift_ix1 h p k, he k]

/-- The biased row, in the kernel's form on a block and in the host's form on the matrix. -/
theorem biased_entry {M B N : ℕ}
    (h : FVec Ideal ⟨2, ![M, N]⟩ .f32) (hb : FVec Ideal ⟨2, ![B, N]⟩ .f32) (b : FVec Ideal ⟨1, ![N]⟩ .f32)
    (hss : (⟨2, ![B, N]⟩ : Shape).ShapeCasts ⟨2, ![B, N]⟩) (hc : (⟨1, ![N]⟩ : Shape).ShapeCasts ⟨2, ![1, N]⟩)
    (hbr : (⟨2, ![1, N]⟩ : Shape).Broadcasts ⟨2, ![B, N]⟩)
    (h1 : (⟨1, ![N]⟩ : Shape).BroadcastsInDim ⟨2, ![1, N]⟩ ![1]) (h2 : (⟨2, ![1, N]⟩ : Shape).BroadcastsInDim ⟨2, ![M, N]⟩ ![0, 1])
    (r : Fin M) (p : Fin B) (hx : ∀ k : Fin N, hb (ix2 p k) = h (ix2 r k)) (k : Fin N) :
    addf (shapeCast ⟨2, ![B, N]⟩ hb hss) (broadcastTo ⟨2, ![B, N]⟩ (shapeCast ⟨2, ![1, N]⟩ b hc) hbr) (ix2 p k)
      = addf h (broadcastInDim ⟨2, ![M, N]⟩ ![0, 1] h2 (broadcastInDim ⟨2, ![1, N]⟩ ![1] h1 b)) (ix2 r k) := by
  show shapeCast ⟨2, ![B, N]⟩ hb hss (ix2 p k) + broadcastTo ⟨2, ![B, N]⟩ (shapeCast ⟨2, ![1, N]⟩ b hc) hbr (ix2 p k)
    = h (ix2 r k) + broadcastInDim ⟨2, ![M, N]⟩ ![0, 1] h2 (broadcastInDim ⟨2, ![1, N]⟩ ![1] h1 b) (ix2 r k)
  rw [shapeCast_self hb hss, Cert.DenseRows.biasRow_apply b hc hbr p k, Cert.DenseRows.biasRowHost_apply b h1 h2 r k, hx k]

end Cert.Gcn.Rows

end
-- ==== Proof.PaySpatial.lean ====
/-
  The spatial body's payload on the extended reals, read at position s and channel c: with q, k, v the three
  projections of the block's rows (a row times a [256,256] matrix plus a bias row), it is one attention stage,
  gamma times the values mixed by the softmax of the logits, plus the block's own entry.
-/
import proofs.«150414_j59957743452648_2_alg».proof.Proof.Gen.KernelIdeal.Skeleton
import proofs.«150414_j59957743452648_2_alg».proof.Proof.Spec
import proofs.«150414_j59957743452648_2_alg».proof.Proof.LibLeadUnit
import proofs.«150414_j59957743452648_2_alg».proof.Proof.LibInnerProducts
import proofs.«150414_j59957743452648_2_alg».proof.Proof.LibRowDots
import proofs.«150414_j59957743452648_2_alg».proof.Proof.LibColumnDots
import proofs.«150414_j59957743452648_2_alg».proof.Proof.LibBiasRow
import proofs.«150414_j59957743452648_2_alg».proof.Proof.LibBlockRows

noncomputable section

namespace Cert.KernelIdeal.PaySpatial

open Cert.KernelIdeal Cert.KernelIdeal.Gen
open Idealize.ShloMosaic Idealize.ShloMosaic.ValueIdx
open scoped BigOperators

/-- A projection of the block: row s times column f of a [256,256] matrix, plus entry f of a bias row. -/
def proj (x : Vec Ideal S1x4096x256 .f32) (w : Vec Ideal S256x256 .bf16) (b : Vec Ideal S1x256 .f32) (s : Fin 4096) (f : Fin 256) : EReal :=
  (∑ d : Fin 256, x (ix3 (0 : Fin 1) s d) * w (ix2 d f)) + b (ix2 (0 : Fin 1) f)

/-- The projected rows as the body computes them: the block without its unit axis times the matrix, into zero, plus
    the bias row spread over the rows. (A change of float format is the identity here.) -/
def projVec (x : Vec Ideal S1x4096x256 .f32) (w : Vec Ideal S256x256 .bf16) (b : Vec Ideal S1x256 .f32) : FVec Ideal S4096x256 .f32 :=
  addf (matmul dot_S4096x256_S256x256_S4096x256_1_0_0_1_n_n none (k0_pay3 x) (shapeCast S256x256 w shapeCasts_S256x256_S256x256 : FVec Ideal S256x256 .bf16)
      (constant S4096x256 .f32 0x00000000#32))
    (broadcastTo S4096x256 (shapeCast S1x256 b shapeCasts_S1x256_S1x256 : FVec Ideal S1x256 .f32) broadcasts_S1x256_S4096x256)

theorem projVec_apply (x : Vec Ideal S1x4096x256 .f32) (w : Vec Ideal S256x256 .bf16) (b : Vec Ideal S1x256 .f32) (s : Fin 4096) (f : Fin 256) :
    projVec x w b (ix2 s f) = proj x w b s f := by
  unfold projVec proj
  rw [addf_apply, InnerProducts.matmul_zero_apply dot_S4096x256_S256x256_S4096x256_1_0_0_1_n_n rfl, Cert.LibBiasRow.row_spread_apply, shapeCast_self, shapeCast_self]
  refine congrArg (· + b (ix2 (0 : Fin 1) f)) (Finset.sum_congr rfl fun d _ => ?_)
  refine congrArg (· * w (ix2 d f)) ?_
  unfold k0_pay3 k0_pay2
  rw [truncf_apply]
  exact Cert.LibLeadUnit.drop_apply x shapeCasts_S1x4096x256_S4096x256 s d

/-- The logits as the body computes them: queries against keys, contracted over the positions. -/
def logitsVec (x : Vec Ideal S1x4096x256 .f32) (w1 : Vec Ideal S256x256 .bf16) (b2 : Vec Ideal S1x256 .f32)
    (w3 : Vec Ideal S256x256 .bf16) (b4 : Vec Ideal S1x256 .f32) : FVec Ideal S256x256 .f32 :=
  matmul dot_S4096x256_S4096x256_S256x256_0_0_1_1_n_n none (truncf .bf16 (projVec x w1 b2) bitsLt_bf16_f32)
    (truncf .bf16 (projVec x w3 b4) bitsLt_bf16_f32) (constant S256x256 .f32 0x00000000#32)

theorem logitsVec_apply (x : Vec Ideal S1x4096x256 .f32) (w1 : Vec Ideal S256x256 .bf16) (b2 : Vec Ideal S1x256 .f32)
    (w3 : Vec Ideal S256x256 .bf16) (b4 : Vec Ideal S1x256 .f32) (c e : Fin 256) :
    logitsVec x w1 b2 w3 b4 (ix2 c e) = Cert.Spec.logits (proj x w1 b2) (proj x w3 b4) c e := by
  unfold logitsVec Cert.Spec.logits
  rw [Cert.LibColumnDots.matmul_cols dot_S4096x256_S4096x256_S256x256_0_0_1_1_n_n.wf dot_S4096x256_S4096x256_S256x256_0_0_1_1_n_n rfl]
  refine Finset.sum_congr rfl fun s _ => ?_
  rw [truncf_apply, truncf_apply, projVec_apply, projVec_apply]

/-- The attention weights: the logits soft-maxed along their last axis. -/
theorem attn_apply (x : Vec Ideal S1x4096x256 .f32) (w1 : Vec Ideal S256x256 .bf16) (b2 : Vec Ideal S1x256 .f32)
    (w3 : Vec Ideal S256x256 .bf16) (b4 : Vec Ideal S1x256 .f32) (c d : Fin 256) :
    k0_pay4 x w1 b2 w3 b4 (ix2 c d) = Cert.DenseRows.softmax (Cert.Spec.logits (proj x w1 b2) (proj x w3 b4) c) d := by
  refine (Cert.Gcn.Rows.softmax_lanes_apply (logitsVec x w1 b2 w3 b4) reduces_S256x256_S256 (.inl rfl) rfl rfl
    shapeCasts_S256_S256x1 broadcasts_S256x1_S256x256 c d).trans ?_
  refine congrArg (fun l => Cert.DenseRows.softmax l d) (funext fun e => ?_)
  exact logitsVec_apply x w1 b2 w3 b4 c e

/-- The whole payload at position s, channel c. -/
theorem pay_apply (x : Vec Ideal S1x4096x256 .f32) (w1 : Vec Ideal S256x256 .bf16) (b2 : Vec Ideal S1x256 .f32)
    (w3 : Vec Ideal S256x256 .bf16) (b4 : Vec Ideal S1x256 .f32) (w5 : Vec Ideal S256x256 .bf16) (b6 : Vec Ideal S1x256 .f32)
    (g : Vec Ideal S1x1 .f32) (s : Fin 4096) (c : Fin 256) :
    k0_pay1 (k0_pay2 x) (k0_pay4 x w1 b2 w3 b4) (k0_pay5 x w5 b6) g (ix3 (0 : Fin 1) s c)
      = Cert.Spec.mix (proj x w1 b2) (proj x w3 b4) (proj x w5 b6) (g (ix2 (0 : Fin 1) (0 : Fin 1)))
          (fun s' c' => x (ix3 (0 : Fin 1) s' c')) s c := by
  unfold k0_pay1
  refine (Cert.LibLeadUnit.add_apply _ shapeCasts_S4096x256_S1x4096x256 0 s c).trans ?_
  rw [addf_apply, mulf_apply, broadcast_apply,
    Cert.LibRowDots.matmul_rows dot_S4096x256_S256x256_S4096x256_1_1_0_0_n_n.wf dot_S4096x256_S256x256_S4096x256_1_1_0_0_n_n rfl]
  unfold Cert.Spec.mix
  refine congrArg₂ (· + ·) (congrArg₂ (· * ·) ?_ (Finset.sum_congr rfl fun d _ => ?_)) ?_
  · exact congrArg g (funext fun a => Fin.ext (by match a with | ⟨0, _⟩ => rfl | ⟨1, _⟩ => rfl))
  · rw [attn_apply]
    refine congrArg (· * _) ?_
    show truncf .bf16 (projVec x w5 b6) bitsLt_bf16_f32 (ix2 s d) = _
    rw [truncf_apply, projVec_apply]
  · unfold k0_pay2
    exact Cert.LibLeadUnit.drop_apply x shapeCasts_S1x4096x256_S4096x256 s c

end Cert.KernelIdeal.PaySpatial

end
-- ==== Proof.ValSpatial.lean ====
/-
  What the spatial call leaves in its output array, as one function of the arrays it finds on entry.

  Grid point t stages slice t of the input (4096 rows, lanes 0..255 of 259), the three weight matrices, the three bias
  rows and gamma whole, and writes back slice t of the output. So entry (t, s, c) of the output array is one attention
  stage on slice t at position s, channel c; the sixteen slices tile the array.
-/
import proofs.«150414_j59957743452648_2_alg».proof.Proof.KiSpatial
import proofs.«150414_j59957743452648_2_alg».proof.Proof.PaySpatial
import Idealize.ShloMosaic.Lib.Pipeline.Value

set_option maxRecDepth 16384

noncomputable section

namespace Cert.KernelIdeal.SpatialVal

open Cert.KernelIdeal Cert.KernelIdeal.Gen Cert.KernelIdeal.Spatial
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-- Row s of slice t of a [16,4096,259] array, its first 256 lanes. -/
def xrow (A : S16x4096x259.Idx → EReal) (t : Fin 16) (s : Fin 4096) (d : Fin 256) : EReal :=
  A (ix3 t s (⟨d.val, by have := d.isLt; omega⟩ : Fin 259))

/-- Rows times a [256,256] matrix plus a bias row. -/
def lin (W : S256x256.Idx → EReal) (B : S1x256.Idx → EReal) (r : Fin 4096 → Fin 256 → EReal) (s : Fin 4096) (f : Fin 256) : EReal :=
  (∑ d : Fin 256, r s d * W (ix2 d f)) + B (ix2 (0 : Fin 1) f)

/-- The output array: at (t, s, c), the attention stage on slice t. -/
def G (A : S16x4096x259.Idx → EReal) (W1 : S256x256.Idx → EReal) (B2 : S1x256.Idx → EReal) (W3 : S256x256.Idx → EReal) (B4 : S1x256.Idx → EReal)
    (W5 : S256x256.Idx → EReal) (B6 : S1x256.Idx → EReal) (Gm : S1x1.Idx → EReal) : S16x4096x256.Idx → EReal := fun i =>
  Cert.Spec.mix (lin W1 B2 (xrow A (i 0))) (lin W3 B4 (xrow A (i 0))) (lin W5 B6 (xrow A (i 0))) (Gm (ix2 (0 : Fin 1) (0 : Fin 1)))
    (xrow A (i 0)) (i 1) (i 2)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: windows 0 and 8 take slice t; every other window takes its whole array. -/
theorem idx_facts : ∀ t : Fin cfg0.N,
    win0_0.index t (0 : Fin 3) = t.val ∧ win0_0.index t (1 : Fin 3) = 0 ∧ win0_0.index t (2 : Fin 3) = 0
    ∧ win0_8.index t (0 : Fin 3) = t.val ∧ win0_8.index t (1 : Fin 3) = 0 ∧ win0_8.index t (2 : Fin 3) = 0
    ∧ win0_1.index t (0 : Fin 2) = 0 ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0
    ∧ win0_5.index t (0 : Fin 2) = 0 ∧ win0_5.index t (1 : Fin 2) = 0 ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The grid point as a slice number. -/
def sl (t : Fin cfg0.N) : Fin 16 := ⟨t.val, Nat.lt_of_lt_of_eq t.isLt N_0⟩

/-- The staged input block at point t, read at (0, s, d), is row s, lane d of slice t. -/
theorem rows_apply (c : Dev nD) (t : Fin cfg0.N) (s : Fin 4096) (d : Fin 256) :
    rows V c t (ix3 (0 : Fin 1) s d) = xrow (V c main_v0) (sl t) s d := by
  obtain ⟨e0, e1, e2, -⟩ := idx_facts t
  unfold rows iblk xrow
  show V c main_v0 (((cfg0.win 0).blk t).view.emb _) = V c main_v0 _
  refine congrArg (V c main_v0) (funext fun a => Fin.ext ?_)
  match a with
  | ⟨0, _⟩ => show win0_0.index t (0 : Fin 3) * 1 + 1 * 0 = t.val; omega
  | ⟨1, _⟩ => show win0_0.index t (1 : Fin 3) * 4096 + 1 * s.val = s.val; omega
  | ⟨2, _⟩ => show win0_0.index t (2 : Fin 3) * 256 + 1 * d.val = d.val; omega

/-- A window that takes its whole [a,b] array at every point stages the array itself. -/
theorem w1_apply (c : Dev nD) (t : Fin cfg0.N) (p q : Fin 256) : iblk V c 1 t (ix2 p q) = V c main_v3 (ix2 p q) := by
  obtain ⟨-, -, -, -, -, -, e0, e1, -⟩ := idx_facts t
  unfold iblk
  show V c main_v3 (((cfg0.win 1).blk t).view.emb _) = V c main_v3 _
  refine congrArg (V c main_v3) (funext fun a => Fin.ext ?_)
  match a with
  | ⟨0, _⟩ => show win0_1.index t (0 : Fin 2) * 256 + 1 * p.val = p.val; omega
  | ⟨1, _⟩ => show win0_1.index t (1 : Fin 2) * 256 + 1 * q.val = q.val; omega
theorem w3_apply (c : Dev nD) (t : Fin cfg0.N) (p q : Fin 256) : iblk V c 3 t (ix2 p q) = V c main_v5 (ix2 p q) := by
  obtain ⟨-, -, -, -, -, -, -, -, -, -, e0, e1, -⟩ := idx_facts t
  unfold iblk
  show V c main_v5 (((cfg0.win 3).blk t).view.emb _) = V c main_v5 _
  refine congrArg (V c main_v5) (funext fun a => Fin.ext ?_)
  match a with
  | ⟨0, _⟩ => show win0_3.index t (0 : Fin 2) * 256 + 1 * p.val = p.val; omega
  | ⟨1, _⟩ => show win0_3.index t (1 : Fin 2) * 256 + 1 * q.val = q.val; omega
theorem w5_apply (c : Dev nD) (t : Fin cfg0.N) (p q : Fin 256) : iblk V c 5 t (ix2 p q) = V c main_v7 (ix2 p q) := by
  obtain ⟨-, -, -, -, -, -, -, -, -, -, -, -, -, -, e0, e1, -⟩ := idx_facts t
  unfold iblk
  show V c main_v7 (((cfg0.win 5).blk t).view.emb _) = V c main_v7 _
  refine congrArg (V c main_v7) (funext fun a => Fin.ext ?_)
  match a with
  | ⟨0, _⟩ => show win0_5.index t (0 : Fin 2) * 256 + 1 * p.val = p.val; omega
  | ⟨1, _⟩ => show win0_5.index t (1 : Fin 2) * 256 + 1 * q.val = q.val; omega
theorem b2_apply (c : Dev nD) (t : Fin cfg0.N) (q : Fin 256) : iblk V c 2 t (ix2 (0 : Fin 1) q) = V c main_v8 (ix2 (0 : Fin 1) q) := by
  obtain ⟨-, -, -, -, -, -, -, -, e0, e1, -⟩ := idx_facts t
  unfold iblk
  show V c main_v8 (((cfg0.win 2).blk t).view.emb _) = V c main_v8 _
  refine congrArg (V c main_v8) (funext fun a => Fin.ext ?_)
  match a with
  | ⟨0, _⟩ => show win0_2.index t (0 : Fin 2) * 1 + 1 * 0 = 0; omega
  | ⟨1, _⟩ => show win0_2.index t (1 : Fin 2) * 256 + 1 * q.val = q.val; omega
theorem b4_apply (c : Dev nD) (t : Fin cfg0.N) (q : Fin 256) : iblk V c 4 t (ix2 (0 : Fin 1) q) = V c main_v9 (ix2 (0 : Fin 1) q) := by
  obtain ⟨-, -, -, -, -, -, -, -, -, -, -, -, e0, e1, -⟩ := idx_facts t
  unfold iblk
  show V c main_v9 (((cfg0.win 4).blk t).view.emb _) = V c main_v9 _
  refine congrArg (V c main_v9) (funext fun a => Fin.ext ?_)
  match a with
  | ⟨0, _⟩ => show win0_4.index t (0 : Fin 2) * 1 + 1 * 0 = 0; omega
  | ⟨1, _⟩ => show win0_4.index t (1 : Fin 2) * 256 + 1 * q.val = q.val; omega
theorem b6_apply (c : Dev nD) (t : Fin cfg0.N) (q : Fin 256) : iblk V c 6 t (ix2 (0 : Fin 1) q) = V c main_v10 (ix2 (0 : Fin 1) q) := by
  obtain ⟨-, -, -, -, -, -, -, -, -, -, -, -, -, -, -, -, e0, e1, -⟩ := idx_facts t
  unfold iblk
  show V c main_v10 (((cfg0.win 6).blk t).view.emb _) = V c main_v10 _
  refine congrArg (V c main_v10) (funext fun a => Fin.ext ?_)
  match a with
  | ⟨0, _⟩ => show win0_6.index t (0 : Fin 2) * 1 + 1 * 0 = 0; omega
  | ⟨1, _⟩ => show win0_6.index t (1 : Fin 2) * 256 + 1 * q.val = q.val; omega
theorem g_apply (c : Dev nD) (t : Fin cfg0.N) : iblk V c 7 t (ix2 (0 : Fin 1) (0 : Fin 1)) = V c main_v11 (ix2 (0 : Fin 1) (0 : Fin 1)) := by
  obtain ⟨-, -, -, -, -, -, -, -, -, -, -, -, -, -, -, -, -, -, e0, e1⟩ := idx_facts t
  unfold iblk
  show V c main_v11 (((cfg0.win 7).blk t).view.emb _) = V c main_v11 _
  refine congrArg (V c main_v11) (funext fun a => Fin.ext ?_)
  match a with
  | ⟨0, _⟩ => show win0_7.index t (0 : Fin 2) * 1 + 1 * 0 = 0; omega
  | ⟨1, _⟩ => show win0_7.index t (1 : Fin 2) * 1 + 1 * 0 = 0; omega

/-- A projection of the staged block is the projection of slice t's rows. -/
theorem proj_eq (c : Dev nD) (t : Fin cfg0.N) (w : Fin cfg0.W) (bw : Fin cfg0.W) (Wm : S256x256.Idx → EReal) (Bm : S1x256.Idx → EReal)
    (x : Vec Ideal S1x4096x256 .f32) (wv : Vec Ideal S256x256 .bf16) (bv : Vec Ideal S1x256 .f32)
    (hx : ∀ s d, x (ix3 (0 : Fin 1) s d) = xrow (V c main_v0) (sl t) s d) (hw : ∀ p q, wv (ix2 p q) = Wm (ix2 p q))
    (hb : ∀ q, bv (ix2 (0 : Fin 1) q) = Bm (ix2 (0 : Fin 1) q)) :
    Cert.KernelIdeal.PaySpatial.proj x wv bv = lin Wm Bm (xrow (V c main_v0) (sl t)) := by
  funext s f
  unfold Cert.KernelIdeal.PaySpatial.proj lin
  rw [hb]
  exact congrArg (· + Bm (ix2 (0 : Fin 1) f)) (Finset.sum_congr rfl fun d _ => by rw [hx, hw])

/-- What point t writes back is slice t of `G` of the arrays found on entry. -/
theorem flushed_eq (c : Dev nD) (t : Fin cfg0.N) :
    (dat V c).flushed 8 t = ((cfg0.win 8).blk t).view.read (Elt Ideal)
      (G (V c main_v0) (V c main_v3) (V c main_v8) (V c main_v5) (V c main_v9) (V c main_v7) (V c main_v10) (V c main_v11)) := by
  show (cfg0.win 8).cut (grid0.coords t) ((dat V c).after 8 t) = _
  rw [after_8]
  unfold out
  rw [View.canon_unit_zero hz3]
  simp only [View.ld_unit_zero (S := S1x4096x256) hz3, View.ld_unit_zero (S := S256x256) hz2, View.ld_unit_zero (S := S1x256) hz2,
    View.ld_unit_zero (S := S1x1) hz2]
  funext j
  obtain ⟨u, s, q, rfl⟩ : ∃ (u : Fin 1) (s : Fin 4096) (q : Fin 256), j = ix3 u s q := ⟨j 0, j 1, j 2, eq_ix3 j⟩
  obtain rfl : u = 0 := Subsingleton.elim _ _
  refine (Cert.KernelIdeal.PaySpatial.pay_apply _ _ _ _ _ _ _ _ s q).trans ?_
  rw [proj_eq V c t 1 2 (V c main_v3) (V c main_v8) _ _ _ (rows_apply V c t) (w1_apply V c t) (b2_apply V c t),
    proj_eq V c t 3 4 (V c main_v5) (V c main_v9) _ _ _ (rows_apply V c t) (w3_apply V c t) (b4_apply V c t),
    proj_eq V c t 5 6 (V c main_v7) (V c main_v10) _ _ _ (rows_apply V c t) (w5_apply V c t) (b6_apply V c t),
    g_apply V c t, show (fun s' c' => rows V c t (ix3 (0 : Fin 1) s' c')) = xrow (V c main_v0) (sl t) from
      funext fun s' => funext fun c' => rows_apply V c t s' c']
  obtain ⟨-, -, -, e0, e1, e2, -⟩ := idx_facts t
  show _ = G _ _ _ _ _ _ _ _ (((cfg0.win 8).blk t).view.emb (ix3 (0 : Fin 1) s q))
  have he : ((cfg0.win 8).blk t).view.emb (ix3 (0 : Fin 1) s q) = (ix3 (sl t) s q : S16x4096x256.Idx) := by
    funext a; apply Fin.ext
    match a with
    | ⟨0, _⟩ => show win0_8.index t (0 : Fin 3) * 1 + 1 * 0 = t.val; omega
    | ⟨1, _⟩ => show win0_8.index t (1 : Fin 3) * 4096 + 1 * s.val = s.val; omega
    | ⟨2, _⟩ => show win0_8.index t (2 : Fin 3) * 256 + 1 * q.val = q.val; omega
  rw [he]
  rfl

/-- An index of the output array lies in point t's block iff its slice number is t. -/
theorem mem_blk (t : Fin cfg0.N) (i : S16x4096x256.Idx) :
    i ∈ ((cfg0.win 8).blk t).view.set ↔ ∀ a : Fin 3, win0_8.index t a * S1x4096x256.size a ≤ (i a).val ∧ (i a).val < win0_8.index t a * S1x4096x256.size a + S1x4096x256.size a := by
  show i ∈ ((View.whole main_v12).slice (win0_8.rect t)).set ↔ _
  rw [View.set_slice_whole, Rect.mem_set_unit]
  exact Iff.rfl

/-- The sixteen blocks cover the output array. -/
theorem cover (i : S16x4096x256.Idx) : ∃ t : Fin cfg0.N, (cfg0.win 8).flush t = true ∧ i ∈ ((cfg0.win 8).blk t).view.set := by
  have hi0 : (i 0).val < 16 := (i 0).isLt
  have hi1 : (i 1).val < 4096 := (i 1).isLt
  have hi2 : (i 2).val < 256 := (i 2).isLt
  let t : Fin cfg0.N := ⟨(i 0).val, Nat.lt_of_lt_of_eq hi0 N_0.symm⟩
  obtain ⟨-, -, -, e0, e1, e2, -⟩ := idx_facts t
  have ht : t.val = (i 0).val := rfl
  refine ⟨t, flush0_8 t, ?_⟩
  rw [mem_blk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 4096 ≤ (i 1).val ∧ (i 1).val < win0_8.index t (1 : Fin 3) * 4096 + 4096; omega
  | ⟨2, _⟩ => show win0_8.index t (2 : Fin 3) * 256 ≤ (i 2).val ∧ (i 2).val < win0_8.index t (2 : Fin 3) * 256 + 256; omega

/-- The output array after the call. -/
theorem final (c : Dev nD) : (dat V c).arrAt 8 cfg0.N
    = G (V c main_v0) (V c main_v3) (V c main_v8) (V c main_v5) (V c main_v9) (V c main_v7) (V c main_v10) (V c main_v11) :=
  (dat V c).arrAt_eq_of_cover 8 _ (fun t _ => flushed_eq V c t) cover

end Cert.KernelIdeal.SpatialVal

end
-- ==== Proof.Result.lean ====
/-
  The result both programs compute, as one function of the seventeen argument arrays on the extended reals.

  Slice t = 8·b + l and position s = 64·h + w number the [2,8,64,64] leading axes; X t s d is lane d < 256 of the input.
  A dense map sends a row r to (sum over d of r(d)·W(f,d)) + B(f). The spatial stage on slice t is one attention stage
  with queries, keys and values the three dense maps of X t, gamma s_gamma and residual X t. The temporal stage takes
  queries from the dense map of the spatial result, keys from the dense map of X t read with the two spatial axes
  exchanged, and values from the [2,8,64,64,256] array of dense maps with its channel axis moved before the frame axis
  and the whole re-read row-major as [16,256,4096] (which interleaves channels and frames); gamma t_gamma, residual
  the spatial result.
-/
import proofs.«150414_j59957743452648_2_alg».proof.KernelIdeal
import proofs.«150414_j59957743452648_2_alg».proof.Proof.Gen.KernelIdeal
import proofs.«150414_j59957743452648_2_alg».proof.Proof.Spec
import Idealize.ShloMosaic.Lib.ValueIdx

noncomputable section

namespace Cert.Result

open Cert.KernelIdeal Cert.KernelIdeal.Gen Cert.Spec
open Idealize.ShloMosaic Idealize.ShloMosaic.ValueIdx
open scoped BigOperators

/-- Lane d of position s of slice t of the input. -/
def X (x : S2x8x64x64x259.Idx → EReal) (t : Fin 16) (s : Fin 4096) (d : Fin 256) : EReal :=
  x (ix5 (⟨t.val / 8, by have := t.isLt; omega⟩ : Fin 2) (⟨t.val % 8, by omega⟩ : Fin 8) (⟨s.val / 64, by have := s.isLt; omega⟩ : Fin 64)
    (⟨s.val % 64, by omega⟩ : Fin 64) (⟨d.val, by have := d.isLt; omega⟩ : Fin 259))

/-- A dense map of rows: entry f of r(s)·Wᵀ + B. -/
def dn (W : S256x256.Idx → EReal) (B : S256.Idx → EReal) (r : Fin 4096 → Fin 256 → EReal) (s : Fin 4096) (f : Fin 256) : EReal :=
  (∑ d : Fin 256, r s d * W (ix2 f d)) + B (ix1 f)

structure Args where
  x : S2x8x64x64x259.Idx → EReal
  sqw : S256x256.Idx → EReal
  sqb : S256.Idx → EReal
  skw : S256x256.Idx → EReal
  skb : S256.Idx → EReal
  svw : S256x256.Idx → EReal
  svb : S256.Idx → EReal
  sg : S1.Idx → EReal
  tqw : S256x256.Idx → EReal
  tqb : S256.Idx → EReal
  tkw : S256x256.Idx → EReal
  tkb : S256.Idx → EReal
  tvw : S256x256.Idx → EReal
  tvb : S256.Idx → EReal
  tg : S1.Idx → EReal

/-- The spatial stage on slice t. -/
def stage1 (A : Args) (t : Fin 16) : Fin 4096 → Fin 256 → EReal :=
  mix (dn A.sqw A.sqb (X A.x t)) (dn A.skw A.skb (X A.x t)) (dn A.svw A.svb (X A.x t)) (A.sg (ix1 (0 : Fin 1))) (X A.x t)

/-- The temporal keys of slice t: the dense map of X t at the position with the two spatial axes exchanged. -/
def keys2 (A : Args) (t : Fin 16) (s : Fin 4096) (d : Fin 256) : EReal :=
  dn A.tkw A.tkb (X A.x t) (⟨s.val % 64 * 64 + s.val / 64, by have := s.isLt; omega⟩ : Fin 4096) d

/-- The temporal value projection as a [2,8,64,64,256] array. -/
def vconv (A : Args) : S2x8x64x64x256.Idx → EReal := fun i =>
  dn A.tvw A.tvb (X A.x (⟨(i 0).val * 8 + (i 1).val, by have h0 : (i 0).val < 2 := (i 0).isLt; have h1 : (i 1).val < 8 := (i 1).isLt; omega⟩ : Fin 16))
    (⟨(i 2).val * 64 + (i 3).val, by have h2 : (i 2).val < 64 := (i 2).isLt; have h3 : (i 3).val < 64 := (i 3).isLt; omega⟩ : Fin 4096) (i 4)

/-- The channel axis moved before the frame axis, then the array re-read row-major as [16,256,4096]. -/
def interleave (Y : S2x8x64x64x256.Idx → EReal) : S16x256x4096.Idx → EReal :=
  shapeCast S16x256x4096 (transpose S2x256x8x64x64 [0, 4, 1, 2, 3] Y transposes_S2x8x64x64x256_S2x256x8x64x64_0_4_1_2_3)
    shapeCasts_S2x256x8x64x64_S16x256x4096

/-- The temporal values of slice t. -/
def vals2 (A : Args) (t : Fin 16) (s : Fin 4096) (d : Fin 256) : EReal := interleave (vconv A) (ix3 t d s)

/-- The temporal stage on slice t. -/
def stage2 (A : Args) (t : Fin 16) : Fin 4096 → Fin 256 → EReal :=
  mix (dn A.tqw A.tqb (stage1 A t)) (keys2 A t) (vals2 A t) (A.tg (ix1 (0 : Fin 1))) (stage1 A t)

/-- The result array. -/
def result (A : Args) : S2x8x64x64x256.Idx → EReal := fun i =>
  stage2 A (⟨(i 0).val * 8 + (i 1).val, by have h0 : (i 0).val < 2 := (i 0).isLt; have h1 : (i 1).val < 8 := (i 1).isLt; omega⟩ : Fin 16)
    (⟨(i 2).val * 64 + (i 3).val, by have h2 : (i 2).val < 64 := (i 2).isLt; have h3 : (i 3).val < 64 := (i 3).isLt; omega⟩ : Fin 4096) (i 4)

end Cert.Result

end
-- ==== Proof.KHost0.lean ====
/-
  The kernel program up to the spatial call's return: the first host stretch read at an index (the input re-read as
  [16,4096,259]; each weight matrix transposed; each bias and gamma given a leading unit axis), and the spatial call's
  output array as the spatial stage of the result, slice by slice.
-/
import proofs.«150414_j59957743452648_2_alg».proof.Proof.KiRun
import proofs.«150414_j59957743452648_2_alg».proof.Proof.ValSpatial
import proofs.«150414_j59957743452648_2_alg».proof.Proof.Result
import Idealize.ShloMosaic.Lib.StableHlo.Run

set_option maxRecDepth 16384

noncomputable section

namespace Cert.KernelIdeal.KHost

open Cert.KernelIdeal Cert.KernelIdeal.Gen Cert.KernelIdeal.Run
open Idealize.ShloMosaic Idealize.ShloMosaic.TcCoe Idealize.ShloMosaic.ValueIdx Idealize.ShloMosaic.StableHlo
open Idealize.SL Idealize.SL.Sem
open scoped BigOperators

variable (m : (ℓ : Loc nD τ sig) → Buf (Elt Ideal) ℓ)

/-- The seventeen argument arrays of core `c`, as the result's arguments. -/
def args (c : Dev nD) : Cert.Result.Args where
  x := m ((c : Thread nD τ).loc main_arg0)
  sqw := m ((c : Thread nD τ).loc main_arg3)
  sqb := m ((c : Thread nD τ).loc main_arg4)
  skw := m ((c : Thread nD τ).loc main_arg5)
  skb := m ((c : Thread nD τ).loc main_arg6)
  svw := m ((c : Thread nD τ).loc main_arg7)
  svb := m ((c : Thread nD τ).loc main_arg8)
  sg := m ((c : Thread nD τ).loc main_arg9)
  tqw := m ((c : Thread nD τ).loc main_arg10)
  tqb := m ((c : Thread nD τ).loc main_arg11)
  tkw := m ((c : Thread nD τ).loc main_arg12)
  tkb := m ((c : Thread nD τ).loc main_arg13)
  tvw := m ((c : Thread nD τ).loc main_arg14)
  tvb := m ((c : Thread nD τ).loc main_arg15)
  tg := m ((c : Thread nD τ).loc main_arg16)

/-! ## Layout operations of the first stretch, read at an index -/

/-- A [2,8,64,64,n] array re-read row-major as [16,4096,n]: slice t = 8b + l, position s = 64h + w. -/
theorem merge_apply {α : Type} {n : Nat} (x : (⟨5, ![2, 8, 64, 64, n]⟩ : Shape).Idx → α)
    (h : (⟨5, ![2, 8, 64, 64, n]⟩ : Shape).ShapeCasts ⟨3, ![16, 4096, n]⟩) (t : Fin 16) (s : Fin 4096) (d : Fin n) :
    shapeCast ⟨3, ![16, 4096, n]⟩ x h (ix3 t s d)
      = x (ix5 (⟨t.val / 8, by have := t.isLt; omega⟩ : Fin 2) (⟨t.val % 8, by omega⟩ : Fin 8) (⟨s.val / 64, by have := s.isLt; omega⟩ : Fin 64)
          (⟨s.val % 64, by omega⟩ : Fin 64) d) :=
  shapeCast_apply x h _ _ (by
    rw [Shape.rowMajor_val_five, Shape.rowMajor_val_three]
    show ((((t.val / 8) * 8 + t.val % 8) * 64 + s.val / 64) * 64 + s.val % 64) * n + d.val = (t.val * 4096 + s.val) * n + d.val
    have e1 : (t.val / 8) * 8 + t.val % 8 = t.val := by omega
    have e2 : (t.val * 64 + s.val / 64) * 64 + s.val % 64 = t.val * 4096 + s.val := by omega
    rw [e1, e2])

/-- A square matrix transposed. -/
theorem tr_apply {α : Type} {n : Nat} (w : (⟨2, ![n, n]⟩ : Shape).Idx → α) (h : (⟨2, ![n, n]⟩ : Shape).Transposes [1, 0] ⟨2, ![n, n]⟩)
    (p q : Fin n) : transpose ⟨2, ![n, n]⟩ [1, 0] w h (ix2 p q) = w (ix2 q p) :=
  transpose_apply [1, 0] w h _ _ (fun b => match b with | ⟨0, _⟩ => rfl | ⟨1, _⟩ => rfl)

/-- A vector given a leading unit axis. -/
theorem lead_apply {α : Type} {n : Nat} (b : (⟨1, ![n]⟩ : Shape).Idx → α) (h : (⟨1, ![n]⟩ : Shape).ShapeCasts ⟨2, ![1, n]⟩) (f : Fin n) :
    shapeCast ⟨2, ![1, n]⟩ b h (ix2 (0 : Fin 1) f) = b (ix1 f) :=
  shapeCast_apply b h _ _ (by rw [Shape.rowMajor_val_one, Shape.rowMajor_val_two]; show f.val = 0 * n + f.val; omega)

/-! ## The first stretch's results -/

theorem v0_eq (c : Dev nD) : (W1 m c (Proc.devRef .tc main_v0) : S16x4096x259.Idx → EReal)
    = shapeCast S16x4096x259 (m ((c : Thread nD τ).loc main_arg0)) shapeCasts_S2x8x64x64x259_S16x4096x259 := by
  show StableHlo.after hostOps0 (W0 m c) (Proc.devRef .tc main_v0) = _
  after_results
  rfl

theorem v3_eq (c : Dev nD) : (W1 m c (Proc.devRef .tc main_v3) : S256x256.Idx → EReal)
    = transpose S256x256 [1, 0] (m ((c : Thread nD τ).loc main_arg3)) transposes_S256x256_S256x256_1_0 := by
  show StableHlo.after hostOps0 (W0 m c) (Proc.devRef .tc main_v3) = _
  after_results
  rfl

theorem v8_eq (c : Dev nD) : (W1 m c (Proc.devRef .tc main_v8) : S1x256.Idx → EReal)
    = shapeCast S1x256 (m ((c : Thread nD τ).loc main_arg4)) shapeCasts_S256_S1x256 := by
  show StableHlo.after hostOps0 (W0 m c) (Proc.devRef .tc main_v8) = _
  after_results
  rfl

theorem v5_eq (c : Dev nD) : (W1 m c (Proc.devRef .tc main_v5) : S256x256.Idx → EReal)
    = transpose S256x256 [1, 0] (m ((c : Thread nD τ).loc main_arg5)) transposes_S256x256_S256x256_1_0 := by
  show StableHlo.after hostOps0 (W0 m c) (Proc.devRef .tc main_v5) = _
  after_results
  rfl

theorem v7_eq (c : Dev nD) : (W1 m c (Proc.devRef .tc main_v7) : S256x256.Idx → EReal)
    = transpose S256x256 [1, 0] (m ((c : Thread nD τ).loc main_arg7)) transposes_S256x256_S256x256_1_0 := by
  show StableHlo.after hostOps0 (W0 m c) (Proc.devRef .tc main_v7) = _
  after_results
  rfl

theorem v9_eq (c : Dev nD) : (W1 m c (Proc.devRef .tc main_v9) : S1x256.Idx → EReal)
    = shapeCast S1x256 (m ((c : Thread nD τ).loc main_arg6)) shapeCasts_S256_S1x256 := by
  show StableHlo.after hostOps0 (W0 m c) (Proc.devRef .tc main_v9) = _
  after_results
  rfl

theorem v10_eq (c : Dev nD) : (W1 m c (Proc.devRef .tc main_v10) : S1x256.Idx → EReal)
    = shapeCast S1x256 (m ((c : Thread nD τ).loc main_arg8)) shapeCasts_S256_S1x256 := by
  show StableHlo.after hostOps0 (W0 m c) (Proc.devRef .tc main_v10) = _
  after_results
  rfl

theorem v11_eq (c : Dev nD) : (W1 m c (Proc.devRef .tc main_v11) : S1x1.Idx → EReal)
    = shapeCast S1x1 (m ((c : Thread nD τ).loc main_arg9)) shapeCasts_S1_S1x1 := by
  show StableHlo.after hostOps0 (W0 m c) (Proc.devRef .tc main_v11) = _
  after_results
  rfl

/-! ## The spatial call's output array is the result's first stage -/

/-- The rows the spatial call reads are the input's first 256 lanes, slice by slice. -/
theorem xrow_eq (c : Dev nD) (t : Fin 16) :
    Cert.KernelIdeal.SpatialVal.xrow (W1 m c (Proc.devRef .tc main_v0)) t = Cert.Result.X (args m c).x t := by
  funext s d
  unfold Cert.KernelIdeal.SpatialVal.xrow Cert.Result.X
  rw [v0_eq]
  exact merge_apply _ shapeCasts_S2x8x64x64x259_S16x4096x259 t s _

/-- A transposed weight matrix and a bias row with a unit axis give the dense map of the result. -/
theorem lin_eq (Wt : S256x256.Idx → EReal) (Bt : S1x256.Idx → EReal) (W : S256x256.Idx → EReal) (B : S256.Idx → EReal)
    (hW : Wt = transpose S256x256 [1, 0] W transposes_S256x256_S256x256_1_0) (hB : Bt = shapeCast S1x256 B shapeCasts_S256_S1x256)
    (r : Fin 4096 → Fin 256 → EReal) : Cert.KernelIdeal.SpatialVal.lin Wt Bt r = Cert.Result.dn W B r := by
  funext s f
  unfold Cert.KernelIdeal.SpatialVal.lin Cert.Result.dn
  rw [hB, lead_apply]
  refine congrArg (· + B (ix1 f)) (Finset.sum_congr rfl fun d _ => ?_)
  rw [hW, tr_apply]

theorem v12_eq (c : Dev nD) : (W2 m c (Proc.devRef .tc main_v12) : S16x4096x256.Idx → EReal)
    = fun i => Cert.Result.stage1 (args m c) (i 0) (i 1) (i 2) := by
  refine (W2_arr m c 8).trans ?_
  rw [Cert.KernelIdeal.SpatialVal.final]
  funext i
  unfold Cert.KernelIdeal.SpatialVal.G Cert.Result.stage1
  show Cert.Spec.mix (Cert.KernelIdeal.SpatialVal.lin (W1 m c (Proc.devRef .tc main_v3)) (W1 m c (Proc.devRef .tc main_v8)) (Cert.KernelIdeal.SpatialVal.xrow (W1 m c (Proc.devRef .tc main_v0)) (i 0)))
      (Cert.KernelIdeal.SpatialVal.lin (W1 m c (Proc.devRef .tc main_v5)) (W1 m c (Proc.devRef .tc main_v9)) (Cert.KernelIdeal.SpatialVal.xrow (W1 m c (Proc.devRef .tc main_v0)) (i 0)))
      (Cert.KernelIdeal.SpatialVal.lin (W1 m c (Proc.devRef .tc main_v7)) (W1 m c (Proc.devRef .tc main_v10)) (Cert.KernelIdeal.SpatialVal.xrow (W1 m c (Proc.devRef .tc main_v0)) (i 0)))
      (W1 m c (Proc.devRef .tc main_v11) (ix2 (0 : Fin 1) (0 : Fin 1))) (Cert.KernelIdeal.SpatialVal.xrow (W1 m c (Proc.devRef .tc main_v0)) (i 0)) (i 1) (i 2) = _
  rw [xrow_eq m c (i 0), lin_eq _ _ _ _ (v3_eq m c) (v8_eq m c), lin_eq _ _ _ _ (v5_eq m c) (v9_eq m c), lin_eq _ _ _ _ (v7_eq m c) (v10_eq m c), v11_eq]
  refine congrArg (fun g => Cert.Spec.mix _ _ _ g _ (i 1) (i 2)) ?_
  exact lead_apply _ shapeCasts_S1_S1x1 (0 : Fin 1)

end Cert.KernelIdeal.KHost

end
-- ==== Proof.PayConv.lean ====
/-
  The projection body's payload on the extended reals, read at row p and column f: row p of the [2048,256] block
  times column f of the [256,512] matrix, plus entry f of the bias row.
-/
import proofs.«150414_j59957743452648_2_alg».proof.Proof.Gen.KernelIdeal.Skeleton
import proofs.«150414_j59957743452648_2_alg».proof.Proof.LibInnerProducts
import proofs.«150414_j59957743452648_2_alg».proof.Proof.LibBiasRow

noncomputable section

namespace Cert.KernelIdeal.PayConv

open Cert.KernelIdeal Cert.KernelIdeal.Gen
open Idealize.ShloMosaic Idealize.ShloMosaic.ValueIdx
open scoped BigOperators

theorem pay_eq (x : Vec Ideal S2048x256 .f32) (w : Vec Ideal S256x512 .bf16) (b : Vec Ideal S1x512 .f32) :
    k1_pay1 x w b = truncf .bf16 (addf (matmul dot_S2048x256_S256x512_S2048x512_1_0_0_1_n_n none
        (truncf .bf16 (shapeCast S2048x256 x shapeCasts_S2048x256_S2048x256 : FVec Ideal S2048x256 .f32) bitsLt_bf16_f32)
        (shapeCast S256x512 w shapeCasts_S256x512_S256x512 : FVec Ideal S256x512 .bf16) (constant S2048x512 .f32 0x00000000#32))
      (broadcastTo S2048x512 (shapeCast S1x512 b shapeCasts_S1x512_S1x512 : FVec Ideal S1x512 .f32) broadcasts_S1x512_S2048x512)) bitsLt_bf16_f32 := rfl

theorem pay_apply (x : Vec Ideal S2048x256 .f32) (w : Vec Ideal S256x512 .bf16) (b : Vec Ideal S1x512 .f32) (p : Fin 2048) (f : Fin 512) :
    k1_pay1 x w b (ix2 p f) = (∑ d : Fin 256, x (ix2 p d) * w (ix2 d f)) + b (ix2 (0 : Fin 1) f) := by
  rw [pay_eq, truncf_apply, addf_apply, InnerProducts.matmul_zero_apply dot_S2048x256_S256x512_S2048x512_1_0_0_1_n_n rfl,
    Cert.LibBiasRow.row_spread_apply, shapeCast_self, shapeCast_self, shapeCast_self]
  refine congrArg (· + b (ix2 (0 : Fin 1) f)) (Finset.sum_congr rfl fun d _ => ?_)
  rw [truncf_apply]

end Cert.KernelIdeal.PayConv

end
-- ==== Proof.ValConv.lean ====
/-
  What the projection call leaves in its output array, as one function of the arrays it finds on entry.

  Grid point t stages rows 2048·t … 2048·t + 2047 of the [65536,259] input (lanes 0..255), the [256,512] matrix and the
  bias row whole, and writes back the same rows of the output. So entry (n, f) of the output array is row n of the input
  times column f of the matrix plus entry f of the bias row; the thirty-two row tiles tile the array.
-/
import proofs.«150414_j59957743452648_2_alg».proof.Proof.KiConv
import proofs.«150414_j59957743452648_2_alg».proof.Proof.PayConv
import Idealize.ShloMosaic.Lib.Pipeline.Value

set_option maxRecDepth 16384

noncomputable section

namespace Cert.KernelIdeal.ConvVal

open Cert.KernelIdeal Cert.KernelIdeal.Gen Cert.KernelIdeal.Conv
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-- The output array: at (n, f), row n (its first 256 lanes) times column f, plus the bias. -/
def G (A : S65536x259.Idx → EReal) (W : S256x512.Idx → EReal) (B : S1x512.Idx → EReal) : S65536x512.Idx → EReal := fun i =>
  (∑ d : Fin 256, A (ix2 (i 0) (⟨d.val, by have := d.isLt; omega⟩ : Fin 259)) * W (ix2 d (i 1))) + B (ix2 (0 : Fin 1) (i 1))

theorem hz2 : (![0, 0] : Fin 2 → Nat) = fun _ => 0 := funext fun a => by fin_cases a <;> rfl

/-- The printed index maps over the grid: windows 0 and 3 take row tile t; windows 1 and 2 take their whole array. -/
theorem idx_facts : ∀ t : Fin cfg1.N,
    win1_0.index t (0 : Fin 2) = t.val ∧ win1_0.index t (1 : Fin 2) = 0
    ∧ win1_3.index t (0 : Fin 2) = t.val ∧ win1_3.index t (1 : Fin 2) = 0
    ∧ win1_1.index t (0 : Fin 2) = 0 ∧ win1_1.index t (1 : Fin 2) = 0 ∧ win1_2.index t (0 : Fin 2) = 0 ∧ win1_2.index t (1 : Fin 2) = 0 :=
  (by decide +kernel : ∀ t : Fin grid1.N, _)

/-- Row p of tile t as a row of the array. -/
def rw_ (t : Fin cfg1.N) (p : Fin 2048) : Fin 65536 :=
  ⟨t.val * 2048 + p.val, by have h := Nat.lt_of_lt_of_eq t.isLt N_1; have := p.isLt; omega⟩

theorem rows_apply (c : Dev nD) (t : Fin cfg1.N) (p : Fin 2048) (d : Fin 256) :
    rows V c t (ix2 p d) = V c main_v1 (ix2 (rw_ t p) (⟨d.val, by have := d.isLt; omega⟩ : Fin 259)) := by
  obtain ⟨e0, e1, -⟩ := idx_facts t
  unfold rows iblk
  show V c main_v1 (((cfg1.win 0).blk t).view.emb _) = V c main_v1 _
  refine congrArg (V c main_v1) (funext fun a => Fin.ext ?_)
  match a with
  | ⟨0, _⟩ => show win1_0.index t (0 : Fin 2) * 2048 + 1 * p.val = t.val * 2048 + p.val; omega
  | ⟨1, _⟩ => show win1_0.index t (1 : Fin 2) * 256 + 1 * d.val = d.val; omega

theorem w_apply (c : Dev nD) (t : Fin cfg1.N) (p : Fin 256) (q : Fin 512) : iblk V c 1 t (ix2 p q) = V c main_v16 (ix2 p q) := by
  obtain ⟨-, -, -, -, e0, e1, -⟩ := idx_facts t
  unfold iblk
  show V c main_v16 (((cfg1.win 1).blk t).view.emb _) = V c main_v16 _
  refine congrArg (V c main_v16) (funext fun a => Fin.ext ?_)
  match a with
  | ⟨0, _⟩ => show win1_1.index t (0 : Fin 2) * 256 + 1 * p.val = p.val; omega
  | ⟨1, _⟩ => show win1_1.index t (1 : Fin 2) * 512 + 1 * q.val = q.val; omega

theorem b_apply (c : Dev nD) (t : Fin cfg1.N) (q : Fin 512) : iblk V c 2 t (ix2 (0 : Fin 1) q) = V c main_v18 (ix2 (0 : Fin 1) q) := by
  obtain ⟨-, -, -, -, -, -, e0, e1⟩ := idx_facts t
  unfold iblk
  show V c main_v18 (((cfg1.win 2).blk t).view.emb _) = V c main_v18 _
  refine congrArg (V c main_v18) (funext fun a => Fin.ext ?_)
  match a with
  | ⟨0, _⟩ => show win1_2.index t (0 : Fin 2) * 1 + 1 * 0 = 0; omega
  | ⟨1, _⟩ => show win1_2.index t (1 : Fin 2) * 512 + 1 * q.val = q.val; omega

/-- What point t writes back is row tile t of `G` of the arrays found on entry. -/
theorem flushed_eq (c : Dev nD) (t : Fin cfg1.N) :
    (dat V c).flushed 3 t = ((cfg1.win 3).blk t).view.read (Elt Ideal) (G (V c main_v1) (V c main_v16) (V c main_v18)) := by
  show (cfg1.win 3).cut (grid1.coords t) ((dat V c).after 3 t) = _
  rw [after_3]
  unfold out
  rw [View.canon_unit_zero hz2]
  simp only [View.ld_unit_zero (S := S2048x256) hz2, View.ld_unit_zero (S := S256x512) hz2, View.ld_unit_zero (S := S1x512) hz2]
  funext j
  obtain ⟨p, f, rfl⟩ : ∃ (p : Fin 2048) (f : Fin 512), j = ix2 p f := ⟨j 0, j 1, eq_ix2 j⟩
  refine (Cert.KernelIdeal.PayConv.pay_apply _ _ _ p f).trans ?_
  obtain ⟨-, -, e0, e1, -⟩ := idx_facts t
  show _ = G _ _ _ (((cfg1.win 3).blk t).view.emb (ix2 p f))
  have he : ((cfg1.win 3).blk t).view.emb (ix2 p f) = (ix2 (rw_ t p) f : S65536x512.Idx) := by
    funext a; apply Fin.ext
    match a with
    | ⟨0, _⟩ => show win1_3.index t (0 : Fin 2) * 2048 + 1 * p.val = t.val * 2048 + p.val; omega
    | ⟨1, _⟩ => show win1_3.index t (1 : Fin 2) * 512 + 1 * f.val = f.val; omega
  rw [he, b_apply]
  unfold G
  exact congrArg (· + V c main_v18 (ix2 (0 : Fin 1) f)) (Finset.sum_congr rfl fun d _ => by rw [rows_apply, w_apply])

theorem mem_blk (t : Fin cfg1.N) (i : S65536x512.Idx) :
    i ∈ ((cfg1.win 3).blk t).view.set ↔ ∀ a : Fin 2, win1_3.index t a * S2048x512.size a ≤ (i a).val ∧ (i a).val < win1_3.index t a * S2048x512.size a + S2048x512.size a := by
  show i ∈ ((View.whole main_v19).slice (win1_3.rect t)).set ↔ _
  rw [View.set_slice_whole, Rect.mem_set_unit]
  exact Iff.rfl

/-- The thirty-two row tiles cover the output array. -/
theorem cover (i : S65536x512.Idx) : ∃ t : Fin cfg1.N, (cfg1.win 3).flush t = true ∧ i ∈ ((cfg1.win 3).blk t).view.set := by
  have hi0 : (i 0).val < 65536 := (i 0).isLt
  have hi1 : (i 1).val < 512 := (i 1).isLt
  let t : Fin cfg1.N := ⟨(i 0).val / 2048, Nat.lt_of_lt_of_eq (by omega : (i 0).val / 2048 < 32) N_1.symm⟩
  obtain ⟨-, -, e0, e1, -⟩ := idx_facts t
  have ht : t.val = (i 0).val / 2048 := rfl
  refine ⟨t, flush1_3 t, ?_⟩
  rw [mem_blk]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 512 ≤ (i 1).val ∧ (i 1).val < win1_3.index t (1 : Fin 2) * 512 + 512; omega

/-- The output array after the call. -/
theorem final (c : Dev nD) : (dat V c).arrAt 3 cfg1.N = G (V c main_v1) (V c main_v16) (V c main_v18) :=
  (dat V c).arrAt_eq_of_cover 3 _ (fun t _ => flushed_eq V c t) cover

end Cert.KernelIdeal.ConvVal

end
-- ==== Proof.LibConcatPair.lean ====
/-
  Two arrays laid side by side, read at an index.

  A concatenation of two pieces along an axis reads, at an index whose coordinate on that axis is `k`, the first piece at
  `k` when `k` is below the first piece's extent `a`, and otherwise the second piece at `k - a`; the other coordinates pass
  through. Stated here for the two layouts a fused pair of weight matrices and a fused pair of bias vectors have:
  matrices `[n, a]` and `[n, b]` joined along their columns into `[n, c]`, and vectors `[a]` and `[b]` joined into `[c]`.
  (`c = a + b` is part of the hypothesis `h`; the statements never need it spelt out.)
-/
import Idealize.ShloMosaic.Lib.ValueIdx
import Idealize.ShloMosaic.Lib.Pipeline.Value

namespace Idealize.ShloMosaic.ConcatPair

open Idealize.ShloMosaic Idealize.ShloMosaic.ValueIdx

variable {α : Type}

/-- Columns `[0, a)` of `[u | v]` are `u`'s. -/
theorem cols_left {n a b c : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, c]⟩ 1)
    (p : Fin n) (k : Fin c) (q : Fin a) (hq : q.val = k.val) :
    concatenate (⟨2, ![n, c]⟩ : Shape) 1 [⟨⟨2, ![n, a]⟩, u⟩, ⟨⟨2, ![n, b]⟩, v⟩] h (ix2 p k) = u (ix2 p q) :=
  concatenate_pair_apply_left 1 u v h (ix2 p k) rfl (ix2 p q) (fun d => by
    match d with
    | ⟨0, _⟩ => rfl
    | ⟨1, _⟩ => exact hq)

/-- Columns `[a, a + b)` of `[u | v]` are `v`'s, shifted by `a`. -/
theorem cols_right {n a b c : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, c]⟩ 1)
    (p : Fin n) (k : Fin c) (q : Fin b) (hq : q.val + a = k.val) :
    concatenate (⟨2, ![n, c]⟩ : Shape) 1 [⟨⟨2, ![n, a]⟩, u⟩, ⟨⟨2, ![n, b]⟩, v⟩] h (ix2 p k) = v (ix2 p q) :=
  concatenate_pair_apply_right 1 u v h (ix2 p k) rfl rfl (ix2 p q) (fun d hd => by
    match d with
    | ⟨0, _⟩ => rfl
    | ⟨1, _⟩ => exact absurd rfl hd) hq

/-- Entries `[0, a)` of the joined vector are `u`'s. -/
theorem vec_left {a b c : ℕ} (u : (⟨1, ![a]⟩ : Shape).Idx → α) (v : (⟨1, ![b]⟩ : Shape).Idx → α)
    (h : Shape.Concatenates [(⟨1, ![a]⟩ : Shape), ⟨1, ![b]⟩] ⟨1, ![c]⟩ 0)
    (k : Fin c) (q : Fin a) (hq : q.val = k.val) :
    concatenate (⟨1, ![c]⟩ : Shape) 0 [⟨⟨1, ![a]⟩, u⟩, ⟨⟨1, ![b]⟩, v⟩] h (ix1 k) = u (ix1 q) :=
  concatenate_pair_apply_left 0 u v h (ix1 k) rfl (ix1 q) (fun d => by
    match d with
    | ⟨0, _⟩ => exact hq)

/-- Entries `[a, a + b)` of the joined vector are `v`'s, shifted by `a`. -/
theorem vec_right {a b c : ℕ} (u : (⟨1, ![a]⟩ : Shape).Idx → α) (v : (⟨1, ![b]⟩ : Shape).Idx → α)
    (h : Shape.Concatenates [(⟨1, ![a]⟩ : Shape), ⟨1, ![b]⟩] ⟨1, ![c]⟩ 0)
    (k : Fin c) (q : Fin b) (hq : q.val + a = k.val) :
    concatenate (⟨1, ![c]⟩ : Shape) 0 [⟨⟨1, ![a]⟩, u⟩, ⟨⟨1, ![b]⟩, v⟩] h (ix1 k) = v (ix1 q) :=
  concatenate_pair_apply_right 0 u v h (ix1 k) rfl rfl (ix1 q) (fun d hd => by
    match d with
    | ⟨0, _⟩ => exact absurd rfl hd) hq

end Idealize.ShloMosaic.ConcatPair
-- ==== Proof.KHost1.lean ====
/-
  The kernel program from the spatial call's return to the temporal call's entry: the projection call's array read
  at an index (row t·4096 + s of the input times [tk_wᵀ | tv_wᵀ] plus the joined bias: columns below 256 are the
  temporal keys' projection, columns from 256 the values'), and the host stretch that re-lays it — keys with the two
  spatial axes exchanged; values through the channel-before-frame transposition and the interleaving reshape.
-/
import proofs.«150414_j59957743452648_2_alg».proof.Proof.KHost0
import proofs.«150414_j59957743452648_2_alg».proof.Proof.ValConv
import proofs.«150414_j59957743452648_2_alg».proof.Proof.LibConcatPair

set_option maxRecDepth 16384

noncomputable section

namespace Cert.KernelIdeal.KHost

open Cert.KernelIdeal Cert.KernelIdeal.Gen Cert.KernelIdeal.Run
open Idealize.ShloMosaic Idealize.ShloMosaic.TcCoe Idealize.ShloMosaic.ValueIdx Idealize.ShloMosaic.StableHlo
open Idealize.SL Idealize.SL.Sem
open scoped BigOperators

variable (m : (ℓ : Loc nD τ sig) → Buf (Elt Ideal) ℓ)

/-! ## Buffers the earlier segments leave alone -/

theorem W2_base (c : Dev nD) (b : Ref sig .tc) (h0 : b ∉ hostOps0_W) (a0 : ∀ w, Pipeline.arrRef spec0 w ≠ b) :
    W2 m c (Proc.devRef .tc b) = m ((c : Thread nD τ).loc b) :=
  (W2_of_ne m c b a0).trans ((StableHlo.after_of_writes_sub hostOps0 _ hostOps0_writes h0).trans rfl)

theorem W3_keep (c : Dev nD) (b : Ref sig .tc) (h : b ∉ hostOps1_W) : W3 m c (Proc.devRef .tc b) = W2 m c (Proc.devRef .tc b) :=
  StableHlo.after_of_writes_sub hostOps1 _ hostOps1_writes h

theorem W5_keep (c : Dev nD) (b : Ref sig .tc) (h : b ∉ hostOps2_W) : W5 m c (Proc.devRef .tc b) = W4 m c (Proc.devRef .tc b) :=
  StableHlo.after_of_writes_sub hostOps2 _ hostOps2_writes h

theorem W4_base (c : Dev nD) (b : Ref sig .tc) (h0 : b ∉ hostOps0_W) (h1 : b ∉ hostOps1_W) (a0 : ∀ w, Pipeline.arrRef spec0 w ≠ b)
    (a1 : ∀ w, Pipeline.arrRef spec1 w ≠ b) : W4 m c (Proc.devRef .tc b) = m ((c : Thread nD τ).loc b) :=
  (W4_of_ne m c b a1).trans ((W3_keep m c b h1).trans (W2_base m c b h0 a0))

/-! ## Layout operations, read at an index -/

/-- A [2,8,64,64,n] array re-read row-major as [65536,n]: row 4096t + s. -/
theorem flat_apply {α : Type} {n : Nat} (x : (⟨5, ![2, 8, 64, 64, n]⟩ : Shape).Idx → α)
    (h : (⟨5, ![2, 8, 64, 64, n]⟩ : Shape).ShapeCasts ⟨2, ![65536, n]⟩) (t : Fin 16) (s : Fin 4096) (d : Fin n) :
    shapeCast ⟨2, ![65536, n]⟩ x h (ix2 (⟨t.val * 4096 + s.val, by have := t.isLt; have := s.isLt; omega⟩ : Fin 65536) d)
      = x (ix5 (⟨t.val / 8, by have := t.isLt; omega⟩ : Fin 2) (⟨t.val % 8, by omega⟩ : Fin 8) (⟨s.val / 64, by have := s.isLt; omega⟩ : Fin 64)
          (⟨s.val % 64, by omega⟩ : Fin 64) d) :=
  shapeCast_apply x h _ _ (by
    rw [Shape.rowMajor_val_five, Shape.rowMajor_val_two]
    show ((((t.val / 8) * 8 + t.val % 8) * 64 + s.val / 64) * 64 + s.val % 64) * n + d.val = (t.val * 4096 + s.val) * n + d.val
    have e1 : (t.val / 8) * 8 + t.val % 8 = t.val := by omega
    have e2 : (t.val * 64 + s.val / 64) * 64 + s.val % 64 = t.val * 4096 + s.val := by omega
    rw [e1, e2])

/-- A [65536,n] array re-read row-major as [2,8,64,64,n]. -/
theorem unflat_apply {α : Type} {n : Nat} (y : (⟨2, ![65536, n]⟩ : Shape).Idx → α)
    (h : (⟨2, ![65536, n]⟩ : Shape).ShapeCasts ⟨5, ![2, 8, 64, 64, n]⟩) (i : (⟨5, ![2, 8, 64, 64, n]⟩ : Shape).Idx) :
    shapeCast ⟨5, ![2, 8, 64, 64, n]⟩ y h i
      = y (ix2 (⟨(((i 0).val * 8 + (i 1).val) * 64 + (i 2).val) * 64 + (i 3).val, by
          have h0 : (i 0).val < 2 := (i 0).isLt; have h1 : (i 1).val < 8 := (i 1).isLt
          have h2 : (i 2).val < 64 := (i 2).isLt; have h3 : (i 3).val < 64 := (i 3).isLt; omega⟩ : Fin 65536) (i 4)) :=
  shapeCast_apply y h _ _ (by rw [Shape.rowMajor_val_five, Shape.rowMajor_val_two]; rfl)

/-! ## The projection call's operands -/

theorem v1_eq (c : Dev nD) : (W3 m c (Proc.devRef .tc main_v1) : S65536x259.Idx → EReal)
    = shapeCast S65536x259 (m ((c : Thread nD τ).loc main_arg0)) shapeCasts_S2x8x64x64x259_S65536x259 := by
  refine (W3_keep m c main_v1 (by decide)).trans ((W2_of_ne m c main_v1 (by decide)).trans ?_)
  show StableHlo.after hostOps0 (W0 m c) (Proc.devRef .tc main_v1) = _
  after_results
  rfl

theorem v16_eq (c : Dev nD) : (W3 m c (Proc.devRef .tc main_v16) : S256x512.Idx → EReal)
    = concatenate S256x512 1 [⟨S256x256, transpose S256x256 [1, 0] (m ((c : Thread nD τ).loc main_arg12)) transposes_S256x256_S256x256_1_0⟩,
        ⟨S256x256, transpose S256x256 [1, 0] (m ((c : Thread nD τ).loc main_arg14)) transposes_S256x256_S256x256_1_0⟩]
      concatenates_S256x256_S256x256_S256x512_d1 := by
  rw [← W2_base m c main_arg12 (by decide) (by decide), ← W2_base m c main_arg14 (by decide) (by decide)]
  show StableHlo.after hostOps1 (W2 m c) (Proc.devRef .tc main_v16) = _
  after_results
  rfl

theorem v18_eq (c : Dev nD) : (W3 m c (Proc.devRef .tc main_v18) : S1x512.Idx → EReal)
    = shapeCast S1x512 (concatenate S512 0 [⟨S256, m ((c : Thread nD τ).loc main_arg13)⟩, ⟨S256, m ((c : Thread nD τ).loc main_arg15)⟩]
        concatenates_S256_S256_S512_d0) shapeCasts_S512_S1x512 := by
  rw [← W2_base m c main_arg13 (by decide) (by decide), ← W2_base m c main_arg15 (by decide) (by decide)]
  show StableHlo.after hostOps1 (W2 m c) (Proc.devRef .tc main_v18) = _
  after_results
  rfl

/-! ## The projection call's output array -/

/-- The row of the input the projection call reads at row 4096t + s is X t s. -/
theorem v1_row (c : Dev nD) (t : Fin 16) (s : Fin 4096) (d : Fin 256) :
    (W3 m c (Proc.devRef .tc main_v1) : S65536x259.Idx → EReal) (ix2 (⟨t.val * 4096 + s.val, by have := t.isLt; have := s.isLt; omega⟩ : Fin 65536)
      (⟨d.val, by have := d.isLt; omega⟩ : Fin 259)) = Cert.Result.X (args m c).x t s d := by
  rw [v1_eq]
  unfold Cert.Result.X
  exact flat_apply _ shapeCasts_S2x8x64x64x259_S65536x259 t s _

/-- The projection call's array at row 4096t + s and a column f whose weight column is row e of W and whose bias is B(e). -/
theorem conv_at (A : S65536x259.Idx → EReal) (Wm : S256x512.Idx → EReal) (Bm : S1x512.Idx → EReal)
    (x : S2x8x64x64x259.Idx → EReal) (W : S256x256.Idx → EReal) (B : S256.Idx → EReal) (t : Fin 16) (s : Fin 4096) (e : Fin 256) (f : Fin 512)
    (hA : ∀ d : Fin 256, A (ix2 (⟨t.val * 4096 + s.val, by have := t.isLt; have := s.isLt; omega⟩ : Fin 65536) (⟨d.val, by have := d.isLt; omega⟩ : Fin 259)) = Cert.Result.X x t s d)
    (hW : ∀ d : Fin 256, Wm (ix2 d f) = W (ix2 e d)) (hB : Bm (ix2 (0 : Fin 1) f) = B (ix1 e)) :
    Cert.KernelIdeal.ConvVal.G A Wm Bm (ix2 (⟨t.val * 4096 + s.val, by have := t.isLt; have := s.isLt; omega⟩ : Fin 65536) f) = Cert.Result.dn W B (Cert.Result.X x t) s e := by
  unfold Cert.KernelIdeal.ConvVal.G Cert.Result.dn
  show (∑ d : Fin 256, A (ix2 (⟨t.val * 4096 + s.val, by have := t.isLt; have := s.isLt; omega⟩ : Fin 65536) (⟨d.val, by have := d.isLt; omega⟩ : Fin 259)) * Wm (ix2 d f)) + Bm (ix2 (0 : Fin 1) f) = _
  rw [hB]
  exact congrArg (· + B (ix1 e)) (Finset.sum_congr rfl fun d _ => by rw [hA, hW])

theorem v19_final (c : Dev nD) : (W4 m c (Proc.devRef .tc main_v19) : S65536x512.Idx → EReal)
    = Cert.KernelIdeal.ConvVal.G (W3 m c (Proc.devRef .tc main_v1)) (W3 m c (Proc.devRef .tc main_v16)) (W3 m c (Proc.devRef .tc main_v18)) :=
  (W4_arr m c 3).trans (Cert.KernelIdeal.ConvVal.final (V3 m) c)

/-- Columns below 256: the temporal keys' projection. -/
theorem v19_keys (c : Dev nD) (t : Fin 16) (s : Fin 4096) (e : Fin 256) :
    (W4 m c (Proc.devRef .tc main_v19) : S65536x512.Idx → EReal) (ix2 (⟨t.val * 4096 + s.val, by have := t.isLt; have := s.isLt; omega⟩ : Fin 65536) (⟨e.val, by have := e.isLt; omega⟩ : Fin 512))
      = Cert.Result.dn (args m c).tkw (args m c).tkb (Cert.Result.X (args m c).x t) s e := by
  rw [v19_final]
  refine conv_at _ _ _ (args m c).x (args m c).tkw (args m c).tkb t s e _ (fun d => v1_row m c t s d) (fun d => ?_) ?_
  · rw [v16_eq, ConcatPair.cols_left _ _ concatenates_S256x256_S256x256_S256x512_d1 d _ e rfl, tr_apply]
    rfl
  · rw [v18_eq, lead_apply, ConcatPair.vec_left _ _ concatenates_S256_S256_S512_d0 _ e rfl]
    rfl

/-- Columns from 256: the temporal values' projection. -/
theorem v19_vals (c : Dev nD) (t : Fin 16) (s : Fin 4096) (e : Fin 256) :
    (W4 m c (Proc.devRef .tc main_v19) : S65536x512.Idx → EReal) (ix2 (⟨t.val * 4096 + s.val, by have := t.isLt; have := s.isLt; omega⟩ : Fin 65536) (⟨256 + e.val, by have := e.isLt; omega⟩ : Fin 512))
      = Cert.Result.dn (args m c).tvw (args m c).tvb (Cert.Result.X (args m c).x t) s e := by
  rw [v19_final]
  refine conv_at _ _ _ (args m c).x (args m c).tvw (args m c).tvb t s e _ (fun d => v1_row m c t s d) (fun d => ?_) ?_
  · rw [v16_eq, ConcatPair.cols_right _ _ concatenates_S256x256_S256x256_S256x512_d1 d _ e (by show e.val + 256 = 256 + e.val; omega), tr_apply]
    rfl
  · rw [v18_eq, lead_apply, ConcatPair.vec_right _ _ concatenates_S256_S256_S512_d0 _ e (by show e.val + 256 = 256 + e.val; omega)]
    rfl

end Cert.KernelIdeal.KHost

end
-- ==== Proof.PayTemporal.lean ====
/-
  The temporal body's payload on the extended reals, read at position s and channel c: with q the projection of the
  block's rows (a row times a [256,256] matrix plus a bias row) and k, v the two precomputed [4096,256] blocks, it is
  one attention stage, gamma times the values mixed by the softmax of the logits, plus the block's own entry.
-/
import proofs.«150414_j59957743452648_2_alg».proof.Proof.Gen.KernelIdeal.Skeleton
import proofs.«150414_j59957743452648_2_alg».proof.Proof.Spec
import proofs.«150414_j59957743452648_2_alg».proof.Proof.LibLeadUnit
import proofs.«150414_j59957743452648_2_alg».proof.Proof.LibInnerProducts
import proofs.«150414_j59957743452648_2_alg».proof.Proof.LibRowDots
import proofs.«150414_j59957743452648_2_alg».proof.Proof.LibColumnDots
import proofs.«150414_j59957743452648_2_alg».proof.Proof.LibBiasRow
import proofs.«150414_j59957743452648_2_alg».proof.Proof.LibBlockRows

noncomputable section

namespace Cert.KernelIdeal.PayTemporal

open Cert.KernelIdeal Cert.KernelIdeal.Gen
open Idealize.ShloMosaic Idealize.ShloMosaic.ValueIdx
open scoped BigOperators

/-- The projection of the block: row s times column f of a [256,256] matrix, plus entry f of a bias row. -/
def proj (x : Vec Ideal S1x4096x256 .f32) (w : Vec Ideal S256x256 .bf16) (b : Vec Ideal S1x256 .f32) (s : Fin 4096) (f : Fin 256) : EReal :=
  (∑ d : Fin 256, x (ix3 (0 : Fin 1) s d) * w (ix2 d f)) + b (ix2 (0 : Fin 1) f)

/-- The projected rows as the body computes them. (A change of float format is the identity here.) -/
def projVec (x : Vec Ideal S1x4096x256 .f32) (w : Vec Ideal S256x256 .bf16) (b : Vec Ideal S1x256 .f32) : FVec Ideal S4096x256 .f32 :=
  addf (matmul dot_S4096x256_S256x256_S4096x256_1_0_0_1_n_n none
      (truncf .bf16 (shapeCast S4096x256 x shapeCasts_S1x4096x256_S4096x256 : FVec Ideal S4096x256 .f32) bitsLt_bf16_f32)
      (shapeCast S256x256 w shapeCasts_S256x256_S256x256 : FVec Ideal S256x256 .bf16)
      (constant S4096x256 .f32 0x00000000#32))
    (broadcastTo S4096x256 (shapeCast S1x256 b shapeCasts_S1x256_S1x256 : FVec Ideal S1x256 .f32) broadcasts_S1x256_S4096x256)

theorem projVec_apply (x : Vec Ideal S1x4096x256 .f32) (w : Vec Ideal S256x256 .bf16) (b : Vec Ideal S1x256 .f32) (s : Fin 4096) (f : Fin 256) :
    projVec x w b (ix2 s f) = proj x w b s f := by
  unfold projVec proj
  rw [addf_apply, InnerProducts.matmul_zero_apply dot_S4096x256_S256x256_S4096x256_1_0_0_1_n_n rfl, Cert.LibBiasRow.row_spread_apply, shapeCast_self, shapeCast_self]
  refine congrArg (· + b (ix2 (0 : Fin 1) f)) (Finset.sum_congr rfl fun d _ => ?_)
  refine congrArg (· * w (ix2 d f)) ?_
  rw [truncf_apply]
  exact Cert.LibLeadUnit.drop_apply x shapeCasts_S1x4096x256_S4096x256 s d

/-- A precomputed [1,4096,256] block without its unit axis. -/
def flat (k : Vec Ideal S1x4096x256 .bf16) : FVec Ideal S4096x256 .bf16 := shapeCast S4096x256 k shapeCasts_S1x4096x256_S4096x256

theorem flat_apply (k : Vec Ideal S1x4096x256 .bf16) (s : Fin 4096) (d : Fin 256) : flat k (ix2 s d) = k (ix3 (0 : Fin 1) s d) :=
  Cert.LibLeadUnit.drop_apply k shapeCasts_S1x4096x256_S4096x256 s d

/-- The logits as the body computes them: queries against keys, contracted over the positions. -/
def logitsVec (x : Vec Ideal S1x4096x256 .f32) (w : Vec Ideal S256x256 .bf16) (b : Vec Ideal S1x256 .f32)
    (k : Vec Ideal S1x4096x256 .bf16) : FVec Ideal S256x256 .f32 :=
  matmul dot_S4096x256_S4096x256_S256x256_0_0_1_1_n_n none (truncf .bf16 (projVec x w b) bitsLt_bf16_f32) (flat k)
    (constant S256x256 .f32 0x00000000#32)

theorem logitsVec_apply (x : Vec Ideal S1x4096x256 .f32) (w : Vec Ideal S256x256 .bf16) (b : Vec Ideal S1x256 .f32)
    (k : Vec Ideal S1x4096x256 .bf16) (c e : Fin 256) :
    logitsVec x w b k (ix2 c e) = Cert.Spec.logits (proj x w b) (fun s d => k (ix3 (0 : Fin 1) s d)) c e := by
  unfold logitsVec Cert.Spec.logits
  rw [Cert.LibColumnDots.matmul_cols dot_S4096x256_S4096x256_S256x256_0_0_1_1_n_n.wf dot_S4096x256_S4096x256_S256x256_0_0_1_1_n_n rfl]
  refine Finset.sum_congr rfl fun s _ => ?_
  rw [truncf_apply, projVec_apply, flat_apply]

/-- The attention weights as the body computes them. -/
def attnVec (x : Vec Ideal S1x4096x256 .f32) (w : Vec Ideal S256x256 .bf16) (b : Vec Ideal S1x256 .f32)
    (k : Vec Ideal S1x4096x256 .bf16) : FVec Ideal S256x256 .f32 :=
  divf (exp (subf (logitsVec x w b k) (broadcastTo S256x256 (shapeCast S256x1
      (multiReduction .maximumf [1] S256 (logitsVec x w b k) 0xFF800000#32 reduces_S256x256_S256 (.inl rfl) rfl) shapeCasts_S256_S256x1) broadcasts_S256x1_S256x256)))
    (broadcastTo S256x256 (shapeCast S256x1
      (multiReduction .add [1] S256 (exp (subf (logitsVec x w b k) (broadcastTo S256x256 (shapeCast S256x1
        (multiReduction .maximumf [1] S256 (logitsVec x w b k) 0xFF800000#32 reduces_S256x256_S256 (.inl rfl) rfl) shapeCasts_S256_S256x1) broadcasts_S256x1_S256x256)))
        0x00000000#32 reduces_S256x256_S256 (.inl rfl) rfl) shapeCasts_S256_S256x1) broadcasts_S256x1_S256x256)

theorem attnVec_apply (x : Vec Ideal S1x4096x256 .f32) (w : Vec Ideal S256x256 .bf16) (b : Vec Ideal S1x256 .f32)
    (k : Vec Ideal S1x4096x256 .bf16) (c d : Fin 256) :
    attnVec x w b k (ix2 c d) = Cert.DenseRows.softmax (Cert.Spec.logits (proj x w b) (fun s e => k (ix3 (0 : Fin 1) s e)) c) d := by
  refine (Cert.Gcn.Rows.softmax_lanes_apply (logitsVec x w b k) reduces_S256x256_S256 (.inl rfl) rfl rfl
    shapeCasts_S256_S256x1 broadcasts_S256x1_S256x256 c d).trans ?_
  refine congrArg (fun l => Cert.DenseRows.softmax l d) (funext fun e => ?_)
  exact logitsVec_apply x w b k c e

/-- The payload is one expression over the attention weights. -/
theorem pay_eq (x : Vec Ideal S1x4096x256 .f32) (w : Vec Ideal S256x256 .bf16) (b : Vec Ideal S1x256 .f32)
    (k v : Vec Ideal S1x4096x256 .bf16) (g : Vec Ideal S1x1 .f32) :
    k2_pay1 x w b k v g = shapeCast S1x4096x256
      (addf (mulf (broadcast S4096x256 (extractAt ![0, 0] g inpos_S1x1_p0_0))
          (matmul dot_S4096x256_S256x256_S4096x256_1_1_0_0_n_n none (flat v) (truncf .bf16 (attnVec x w b k) bitsLt_bf16_f32)
            (constant S4096x256 .f32 0x00000000#32)))
        (shapeCast S4096x256 x shapeCasts_S1x4096x256_S4096x256 : FVec Ideal S4096x256 .f32)) shapeCasts_S4096x256_S1x4096x256 := rfl

/-- The whole payload at position s, channel c. -/
theorem pay_apply (x : Vec Ideal S1x4096x256 .f32) (w : Vec Ideal S256x256 .bf16) (b : Vec Ideal S1x256 .f32)
    (k v : Vec Ideal S1x4096x256 .bf16) (g : Vec Ideal S1x1 .f32) (s : Fin 4096) (c : Fin 256) :
    k2_pay1 x w b k v g (ix3 (0 : Fin 1) s c)
      = Cert.Spec.mix (proj x w b) (fun s' d => k (ix3 (0 : Fin 1) s' d)) (fun s' d => v (ix3 (0 : Fin 1) s' d))
          (g (ix2 (0 : Fin 1) (0 : Fin 1))) (fun s' c' => x (ix3 (0 : Fin 1) s' c')) s c := by
  rw [pay_eq]
  refine (Cert.LibLeadUnit.add_apply _ shapeCasts_S4096x256_S1x4096x256 0 s c).trans ?_
  rw [addf_apply, mulf_apply, broadcast_apply,
    Cert.LibRowDots.matmul_rows dot_S4096x256_S256x256_S4096x256_1_1_0_0_n_n.wf dot_S4096x256_S256x256_S4096x256_1_1_0_0_n_n rfl]
  unfold Cert.Spec.mix
  refine congrArg₂ (· + ·) (congrArg₂ (· * ·) ?_ (Finset.sum_congr rfl fun d _ => ?_)) ?_
  · exact congrArg g (funext fun a => Fin.ext (by match a with | ⟨0, _⟩ => rfl | ⟨1, _⟩ => rfl))
  · rw [truncf_apply, attnVec_apply, flat_apply]
  · exact Cert.LibLeadUnit.drop_apply x shapeCasts_S1x4096x256_S4096x256 s c

end Cert.KernelIdeal.PayTemporal

end
-- ==== Proof.ValTemporal.lean ====
/-
  What the temporal call leaves in its output array, as one function of the arrays it finds on entry.

  Grid point t stages slice t of the spatial result, of the keys and of the values, and the weight matrix, the bias row
  and gamma whole, and writes back slice t of the output. So entry (t, s, c) of the output array is one attention stage
  on slice t at position s, channel c; the sixteen slices tile the array.
-/
import proofs.«150414_j59957743452648_2_alg».proof.Proof.KiTemporal
import proofs.«150414_j59957743452648_2_alg».proof.Proof.PayTemporal
import Idealize.ShloMosaic.Lib.Pipeline.Value

set_option maxRecDepth 16384

noncomputable section

namespace Cert.KernelIdeal.TemporalVal

open Cert.KernelIdeal Cert.KernelIdeal.Gen Cert.KernelIdeal.Temporal
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-- Slice t of a [16,4096,256] array. -/
def row (A : S16x4096x256.Idx → EReal) (t : Fin 16) (s : Fin 4096) (d : Fin 256) : EReal := A (ix3 t s d)

/-- Rows times a [256,256] matrix plus a bias row. -/
def lin (W : S256x256.Idx → EReal) (B : S1x256.Idx → EReal) (r : Fin 4096 → Fin 256 → EReal) (s : Fin 4096) (f : Fin 256) : EReal :=
  (∑ d : Fin 256, r s d * W (ix2 d f)) + B (ix2 (0 : Fin 1) f)

/-- The output array: at (t, s, c), the attention stage on slice t. -/
def G (A : S16x4096x256.Idx → EReal) (W : S256x256.Idx → EReal) (B : S1x256.Idx → EReal) (Kk Vv : S16x4096x256.Idx → EReal)
    (Gm : S1x1.Idx → EReal) : S16x4096x256.Idx → EReal := fun i =>
  Cert.Spec.mix (lin W B (row A (i 0))) (row Kk (i 0)) (row Vv (i 0)) (Gm (ix2 (0 : Fin 1) (0 : Fin 1))) (row A (i 0)) (i 1) (i 2)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: windows 0, 3, 4 and 6 take slice t; the others take their whole array. -/
theorem idx_facts : ∀ t : Fin cfg2.N,
    win2_0.index t (0 : Fin 3) = t.val ∧ win2_0.index t (1 : Fin 3) = 0 ∧ win2_0.index t (2 : Fin 3) = 0
    ∧ win2_3.index t (0 : Fin 3) = t.val ∧ win2_3.index t (1 : Fin 3) = 0 ∧ win2_3.index t (2 : Fin 3) = 0
    ∧ win2_4.index t (0 : Fin 3) = t.val ∧ win2_4.index t (1 : Fin 3) = 0 ∧ win2_4.index t (2 : Fin 3) = 0
    ∧ win2_6.index t (0 : Fin 3) = t.val ∧ win2_6.index t (1 : Fin 3) = 0 ∧ win2_6.index t (2 : Fin 3) = 0
    ∧ win2_1.index t (0 : Fin 2) = 0 ∧ win2_1.index t (1 : Fin 2) = 0 ∧ win2_2.index t (0 : Fin 2) = 0 ∧ win2_2.index t (1 : Fin 2) = 0
    ∧ win2_5.index t (0 : Fin 2) = 0 ∧ win2_5.index t (1 : Fin 2) = 0 :=
  (by decide +kernel : ∀ t : Fin grid2.N, _)

/-- The grid point as a slice number. -/
def sl (t : Fin cfg2.N) : Fin 16 := ⟨t.val, Nat.lt_of_lt_of_eq t.isLt N_2⟩

theorem x_apply (c : Dev nD) (t : Fin cfg2.N) (s : Fin 4096) (d : Fin 256) :
    iblk V c 0 t (ix3 (0 : Fin 1) s d) = V c main_v12 (ix3 (sl t) s d) := by
  obtain ⟨e0, e1, e2, -⟩ := idx_facts t
  unfold iblk
  show V c main_v12 (((cfg2.win 0).blk t).view.emb _) = V c main_v12 _
  refine congrArg (V c main_v12) (funext fun a => Fin.ext ?_)
  match a with
  | ⟨0, _⟩ => show win2_0.index t (0 : Fin 3) * 1 + 1 * 0 = t.val; omega
  | ⟨1, _⟩ => show win2_0.index t (1 : Fin 3) * 4096 + 1 * s.val = s.val; omega
  | ⟨2, _⟩ => show win2_0.index t (2 : Fin 3) * 256 + 1 * d.val = d.val; omega
theorem k_apply (c : Dev nD) (t : Fin cfg2.N) (s : Fin 4096) (d : Fin 256) :
    iblk V c 3 t (ix3 (0 : Fin 1) s d) = V c main_v24 (ix3 (sl t) s d) := by
  obtain ⟨-, -, -, e0, e1, e2, -⟩ := idx_facts t
  unfold iblk
  show V c main_v24 (((cfg2.win 3).blk t).view.emb _) = V c main_v24 _
  refine congrArg (V c main_v24) (funext fun a => Fin.ext ?_)
  match a with
  | ⟨0, _⟩ => show win2_3.index t (0 : Fin 3) * 1 + 1 * 0 = t.val; omega
  | ⟨1, _⟩ => show win2_3.index t (1 : Fin 3) * 4096 + 1 * s.val = s.val; omega
  | ⟨2, _⟩ => show win2_3.index t (2 : Fin 3) * 256 + 1 * d.val = d.val; omega
theorem v_apply (c : Dev nD) (t : Fin cfg2.N) (s : Fin 4096) (d : Fin 256) :
    iblk V c 4 t (ix3 (0 : Fin 1) s d) = V c main_v27 (ix3 (sl t) s d) := by
  obtain ⟨-, -, -, -, -, -, e0, e1, e2, -⟩ := idx_facts t
  unfold iblk
  show V c main_v27 (((cfg2.win 4).blk t).view.emb _) = V c main_v27 _
  refine congrArg (V c main_v27) (funext fun a => Fin.ext ?_)
  match a with
  | ⟨0, _⟩ => show win2_4.index t (0 : Fin 3) * 1 + 1 * 0 = t.val; omega
  | ⟨1, _⟩ => show win2_4.index t (1 : Fin 3) * 4096 + 1 * s.val = s.val; omega
  | ⟨2, _⟩ => show win2_4.index t (2 : Fin 3) * 256 + 1 * d.val = d.val; omega
theorem w_apply (c : Dev nD) (t : Fin cfg2.N) (p : Fin 256) (q : Fin 256) : iblk V c 1 t (ix2 p q) = V c main_v29 (ix2 p q) := by
  obtain ⟨-, -, -, -, -, -, -, -, -, -, -, -, e0, e1, -⟩ := idx_facts t
  unfold iblk
  show V c main_v29 (((cfg2.win 1).blk t).view.emb _) = V c main_v29 _
  refine congrArg (V c main_v29) (funext fun a => Fin.ext ?_)
  match a with
  | ⟨0, _⟩ => show win2_1.index t (0 : Fin 2) * 256 + 1 * p.val = p.val; omega
  | ⟨1, _⟩ => show win2_1.index t (1 : Fin 2) * 256 + 1 * q.val = q.val; omega
theorem b_apply (c : Dev nD) (t : Fin cfg2.N) (q : Fin 256) : iblk V c 2 t (ix2 (0 : Fin 1) q) = V c main_v30 (ix2 (0 : Fin 1) q) := by
  obtain ⟨-, -, -, -, -, -, -, -, -, -, -, -, -, -, e0, e1, -⟩ := idx_facts t
  unfold iblk
  show V c main_v30 (((cfg2.win 2).blk t).view.emb _) = V c main_v30 _
  refine congrArg (V c main_v30) (funext fun a => Fin.ext ?_)
  match a with
  | ⟨0, _⟩ => show win2_2.index t (0 : Fin 2) * 1 + 1 * 0 = 0; omega
  | ⟨1, _⟩ => show win2_2.index t (1 : Fin 2) * 256 + 1 * q.val = q.val; omega
theorem g_apply (c : Dev nD) (t : Fin cfg2.N) : iblk V c 5 t (ix2 (0 : Fin 1) (0 : Fin 1)) = V c main_v31 (ix2 (0 : Fin 1) (0 : Fin 1)) := by
  obtain ⟨-, -, -, -, -, -, -, -, -, -, -, -, -, -, -, -, e0, e1⟩ := idx_facts t
  unfold iblk
  show V c main_v31 (((cfg2.win 5).blk t).view.emb _) = V c main_v31 _
  refine congrArg (V c main_v31) (funext fun a => Fin.ext ?_)
  match a with
  | ⟨0, _⟩ => show win2_5.index t (0 : Fin 2) * 1 + 1 * 0 = 0; omega
  | ⟨1, _⟩ => show win2_5.index t (1 : Fin 2) * 1 + 1 * 0 = 0; omega

/-- What point t writes back is slice t of `G` of the arrays found on entry. -/
theorem flushed_eq (c : Dev nD) (t : Fin cfg2.N) :
    (dat V c).flushed 6 t = ((cfg2.win 6).blk t).view.read (Elt Ideal)
      (G (V c main_v12) (V c main_v29) (V c main_v30) (V c main_v24) (V c main_v27) (V c main_v31)) := by
  show (cfg2.win 6).cut (grid2.coords t) ((dat V c).after 6 t) = _
  rw [after_6]
  unfold out
  rw [View.canon_unit_zero hz3]
  simp only [View.ld_unit_zero (S := S1x4096x256) hz3, View.ld_unit_zero (S := S256x256) hz2, View.ld_unit_zero (S := S1x256) hz2,
    View.ld_unit_zero (S := S1x1) hz2]
  funext j
  obtain ⟨u, s, q, rfl⟩ : ∃ (u : Fin 1) (s : Fin 4096) (q : Fin 256), j = ix3 u s q := ⟨j 0, j 1, j 2, eq_ix3 j⟩
  obtain rfl : u = 0 := Subsingleton.elim _ _
  refine (Cert.KernelIdeal.PayTemporal.pay_apply _ _ _ _ _ _ s q).trans ?_
  have hp : Cert.KernelIdeal.PayTemporal.proj (iblk V c 0 t) (iblk V c 1 t) (iblk V c 2 t)
      = lin (V c main_v29) (V c main_v30) (row (V c main_v12) (sl t)) := by
    funext s' f
    unfold Cert.KernelIdeal.PayTemporal.proj lin row
    rw [b_apply]
    exact congrArg (· + V c main_v30 (ix2 (0 : Fin 1) f)) (Finset.sum_congr rfl fun d _ => by rw [x_apply, w_apply])
  rw [hp, g_apply V c t,
    show (fun s' d => iblk V c 3 t (ix3 (0 : Fin 1) s' d)) = row (V c main_v24) (sl t) from funext fun s' => funext fun d => k_apply V c t s' d,
    show (fun s' d => iblk V c 4 t (ix3 (0 : Fin 1) s' d)) = row (V c main_v27) (sl t) from funext fun s' => funext fun d => v_apply V c t s' d,
    show (fun s' c' => iblk V c 0 t (ix3 (0 : Fin 1) s' c')) = row (V c main_v12) (sl t) from funext fun s' => funext fun c' => x_apply V c t s' c']
  obtain ⟨-, -, -, -, -, -, -, -, -, e0, e1, e2, -⟩ := idx_facts t
  show _ = G _ _ _ _ _ _ (((cfg2.win 6).blk t).view.emb (ix3 (0 : Fin 1) s q))
  have he : ((cfg2.win 6).blk t).view.emb (ix3 (0 : Fin 1) s q) = (ix3 (sl t) s q : S16x4096x256.Idx) := by
    funext a; apply Fin.ext
    match a with
    | ⟨0, _⟩ => show win2_6.index t (0 : Fin 3) * 1 + 1 * 0 = t.val; omega
    | ⟨1, _⟩ => show win2_6.index t (1 : Fin 3) * 4096 + 1 * s.val = s.val; omega
    | ⟨2, _⟩ => show win2_6.index t (2 : Fin 3) * 256 + 1 * q.val = q.val; omega
  rw [he]
  rfl

theorem mem_blk (t : Fin cfg2.N) (i : S16x4096x256.Idx) :
    i ∈ ((cfg2.win 6).blk t).view.set ↔ ∀ a : Fin 3, win2_6.index t a * S1x4096x256.size a ≤ (i a).val ∧ (i a).val < win2_6.index t a * S1x4096x256.size a + S1x4096x256.size a := by
  show i ∈ ((View.whole main_v32).slice (win2_6.rect t)).set ↔ _
  rw [View.set_slice_whole, Rect.mem_set_unit]
  exact Iff.rfl

/-- The sixteen blocks cover the output array. -/
theorem cover (i : S16x4096x256.Idx) : ∃ t : Fin cfg2.N, (cfg2.win 6).flush t = true ∧ i ∈ ((cfg2.win 6).blk t).view.set := by
  have hi0 : (i 0).val < 16 := (i 0).isLt
  have hi1 : (i 1).val < 4096 := (i 1).isLt
  have hi2 : (i 2).val < 256 := (i 2).isLt
  let t : Fin cfg2.N := ⟨(i 0).val, Nat.lt_of_lt_of_eq hi0 N_2.symm⟩
  obtain ⟨-, -, -, -, -, -, -, -, -, e0, e1, e2, -⟩ := idx_facts t
  have ht : t.val = (i 0).val := rfl
  refine ⟨t, flush2_6 t, ?_⟩
  rw [mem_blk]
  intro a
  match a with
  | ⟨0, _⟩ => show win2_6.index t (0 : Fin 3) * 1 ≤ (i 0).val ∧ (i 0).val < win2_6.index t (0 : Fin 3) * 1 + 1; omega
  | ⟨1, _⟩ => show win2_6.index t (1 : Fin 3) * 4096 ≤ (i 1).val ∧ (i 1).val < win2_6.index t (1 : Fin 3) * 4096 + 4096; omega
  | ⟨2, _⟩ => show win2_6.index t (2 : Fin 3) * 256 ≤ (i 2).val ∧ (i 2).val < win2_6.index t (2 : Fin 3) * 256 + 256; omega

/-- The output array after the call. -/
theorem final (c : Dev nD) : (dat V c).arrAt 6 cfg2.N
    = G (V c main_v12) (V c main_v29) (V c main_v30) (V c main_v24) (V c main_v27) (V c main_v31) :=
  (dat V c).arrAt_eq_of_cover 6 _ (fun t _ => flushed_eq V c t) cover

end Cert.KernelIdeal.TemporalVal

end
-- ==== Proof.KHost2.lean ====
/-
  The kernel program from the projection call's return to the end: the third host stretch read at an index (keys with
  the two spatial axes exchanged; values through the interleaving reshape; the transposed query weights, bias row and
  gamma), the temporal call's output array as the result's second stage, and the final reshape.
-/
import proofs.«150414_j59957743452648_2_alg».proof.Proof.KHost1
import proofs.«150414_j59957743452648_2_alg».proof.Proof.ValTemporal

set_option maxRecDepth 16384

noncomputable section

namespace Cert.KernelIdeal.KHost

open Cert.KernelIdeal Cert.KernelIdeal.Gen Cert.KernelIdeal.Run
open Idealize.ShloMosaic Idealize.ShloMosaic.TcCoe Idealize.ShloMosaic.ValueIdx Idealize.ShloMosaic.StableHlo
open Idealize.SL Idealize.SL.Sem
open scoped BigOperators

variable (m : (ℓ : Loc nD τ sig) → Buf (Elt Ideal) ℓ)

/-- The projection call's array as [2,8,64,64,512]. -/
def kv5 (c : Dev nD) : S2x8x64x64x512.Idx → EReal :=
  shapeCast S2x8x64x64x512 (W4 m c (Proc.devRef .tc main_v19)) shapeCasts_S65536x512_S2x8x64x64x512

/-- Lanes 256.. of it are the value projection of the result, as a whole array. -/
theorem slice_vals (c : Dev nD) :
    extractStridedSlice S2x8x64x64x256 ![0, 0, 0, 0, 256] (kv5 m c) slices_S2x8x64x64x512_S2x8x64x64x256_0_0_0_0_256 = Cert.Result.vconv (args m c) := by
  funext i
  have h0 : (i 0).val < 2 := (i 0).isLt
  have h1 : (i 1).val < 8 := (i 1).isLt
  have h2 : (i 2).val < 64 := (i 2).isLt
  have h3 : (i 3).val < 64 := (i 3).isLt
  have h4 : (i 4).val < 256 := (i 4).isLt
  rw [extractStridedSlice_apply _ _ slices_S2x8x64x64x512_S2x8x64x64x256_0_0_0_0_256 i
    (ix5 (i 0) (i 1) (i 2) (i 3) (⟨256 + (i 4).val, by omega⟩ : Fin 512)) (fun a => match a with
      | ⟨0, _⟩ => by show (i 0).val = 0 + (i 0).val; omega
      | ⟨1, _⟩ => by show (i 1).val = 0 + (i 1).val; omega
      | ⟨2, _⟩ => by show (i 2).val = 0 + (i 2).val; omega
      | ⟨3, _⟩ => by show (i 3).val = 0 + (i 3).val; omega
      | ⟨4, _⟩ => by show 256 + (i 4).val = 256 + (i 4).val; rfl)]
  unfold kv5
  rw [unflat_apply]
  unfold Cert.Result.vconv
  refine Eq.trans (congrArg (W4 m c (Proc.devRef .tc main_v19)) (funext fun a => Fin.ext ?_))
    (v19_vals m c (⟨(i 0).val * 8 + (i 1).val, by omega⟩ : Fin 16) (⟨(i 2).val * 64 + (i 3).val, by omega⟩ : Fin 4096) (i 4))
  match a with
  | ⟨0, _⟩ => show (((i 0).val * 8 + (i 1).val) * 64 + (i 2).val) * 64 + (i 3).val = ((i 0).val * 8 + (i 1).val) * 4096 + ((i 2).val * 64 + (i 3).val); omega
  | ⟨1, _⟩ => rfl

theorem v24_eq (c : Dev nD) : (W5 m c (Proc.devRef .tc main_v24) : S16x4096x256.Idx → EReal)
    = shapeCast S16x4096x256 (transpose S2x8x64x64x256 [0, 1, 3, 2, 4]
        (extractStridedSlice S2x8x64x64x256 ![0, 0, 0, 0, 0] (kv5 m c) slices_S2x8x64x64x512_S2x8x64x64x256_0_0_0_0_0)
        transposes_S2x8x64x64x256_S2x8x64x64x256_0_1_3_2_4) shapeCasts_S2x8x64x64x256_S16x4096x256 := by
  unfold kv5
  show StableHlo.after hostOps2 (W4 m c) (Proc.devRef .tc main_v24) = _
  after_results
  rfl

/-- The temporal call's keys. -/
theorem v24_at (c : Dev nD) (t : Fin 16) (s : Fin 4096) (d : Fin 256) :
    W5 m c (Proc.devRef .tc main_v24) (ix3 t s d) = Cert.Result.keys2 (args m c) t s d := by
  have ht := t.isLt; have hs := s.isLt; have hd := d.isLt
  rw [v24_eq, merge_apply,
    transpose_apply [0, 1, 3, 2, 4] _ transposes_S2x8x64x64x256_S2x8x64x64x256_0_1_3_2_4
      (ix5 (⟨t.val / 8, by have := t.isLt; omega⟩ : Fin 2) (⟨t.val % 8, by omega⟩ : Fin 8) (⟨s.val / 64, by have := s.isLt; omega⟩ : Fin 64) (⟨s.val % 64, by omega⟩ : Fin 64) d)
      (ix5 (⟨t.val / 8, by have := t.isLt; omega⟩ : Fin 2) (⟨t.val % 8, by omega⟩ : Fin 8) (⟨s.val % 64, by omega⟩ : Fin 64) (⟨s.val / 64, by have := s.isLt; omega⟩ : Fin 64) d) (fun b => match b with
        | ⟨0, _⟩ => rfl | ⟨1, _⟩ => rfl | ⟨2, _⟩ => rfl | ⟨3, _⟩ => rfl | ⟨4, _⟩ => rfl),
    extractStridedSlice_apply _ _ slices_S2x8x64x64x512_S2x8x64x64x256_0_0_0_0_0 _
      (ix5 (⟨t.val / 8, by have := t.isLt; omega⟩ : Fin 2) (⟨t.val % 8, by omega⟩ : Fin 8) (⟨s.val % 64, by omega⟩ : Fin 64) (⟨s.val / 64, by have := s.isLt; omega⟩ : Fin 64) (⟨d.val, by omega⟩ : Fin 512)) (fun a => match a with
        | ⟨0, _⟩ => by show t.val / 8 = 0 + t.val / 8; omega
        | ⟨1, _⟩ => by show t.val % 8 = 0 + t.val % 8; omega
        | ⟨2, _⟩ => by show s.val % 64 = 0 + s.val % 64; omega
        | ⟨3, _⟩ => by show s.val / 64 = 0 + s.val / 64; omega
        | ⟨4, _⟩ => by show d.val = 0 + d.val; omega)]
  unfold kv5
  rw [unflat_apply]
  unfold Cert.Result.keys2
  refine Eq.trans (congrArg (W4 m c (Proc.devRef .tc main_v19)) (funext fun a => Fin.ext ?_))
    (v19_keys m c t (⟨s.val % 64 * 64 + s.val / 64, by omega⟩ : Fin 4096) d)
  match a with
  | ⟨0, _⟩ => show ((t.val / 8 * 8 + t.val % 8) * 64 + s.val % 64) * 64 + s.val / 64 = t.val * 4096 + (s.val % 64 * 64 + s.val / 64); omega
  | ⟨1, _⟩ => rfl

theorem v27_eq (c : Dev nD) : (W5 m c (Proc.devRef .tc main_v27) : S16x4096x256.Idx → EReal)
    = transpose S16x4096x256 [0, 2, 1] (shapeCast S16x256x4096 (transpose S2x256x8x64x64 [0, 4, 1, 2, 3]
        (extractStridedSlice S2x8x64x64x256 ![0, 0, 0, 0, 256] (kv5 m c) slices_S2x8x64x64x512_S2x8x64x64x256_0_0_0_0_256)
        transposes_S2x8x64x64x256_S2x256x8x64x64_0_4_1_2_3) shapeCasts_S2x256x8x64x64_S16x256x4096)
      transposes_S16x256x4096_S16x4096x256_0_2_1 := by
  unfold kv5
  show StableHlo.after hostOps2 (W4 m c) (Proc.devRef .tc main_v27) = _
  after_results
  rfl

/-- The temporal call's values. -/
theorem v27_at (c : Dev nD) (t : Fin 16) (s : Fin 4096) (d : Fin 256) :
    W5 m c (Proc.devRef .tc main_v27) (ix3 t s d) = Cert.Result.vals2 (args m c) t s d := by
  rw [v27_eq, slice_vals,
    transpose_apply [0, 2, 1] _ transposes_S16x256x4096_S16x4096x256_0_2_1 (ix3 t s d) (ix3 t d s) (fun b => match b with
      | ⟨0, _⟩ => rfl | ⟨1, _⟩ => rfl | ⟨2, _⟩ => rfl)]
  rfl

theorem v29_eq (c : Dev nD) : (W5 m c (Proc.devRef .tc main_v29) : S256x256.Idx → EReal)
    = transpose S256x256 [1, 0] (m ((c : Thread nD τ).loc main_arg10)) transposes_S256x256_S256x256_1_0 := by
  rw [← W4_base m c main_arg10 (by decide) (by decide) (by decide) (by decide)]
  show StableHlo.after hostOps2 (W4 m c) (Proc.devRef .tc main_v29) = _
  after_results
  rfl

theorem v30_eq (c : Dev nD) : (W5 m c (Proc.devRef .tc main_v30) : S1x256.Idx → EReal)
    = shapeCast S1x256 (m ((c : Thread nD τ).loc main_arg11)) shapeCasts_S256_S1x256 := by
  rw [← W4_base m c main_arg11 (by decide) (by decide) (by decide) (by decide)]
  show StableHlo.after hostOps2 (W4 m c) (Proc.devRef .tc main_v30) = _
  after_results
  rfl

theorem v31_eq (c : Dev nD) : (W5 m c (Proc.devRef .tc main_v31) : S1x1.Idx → EReal)
    = shapeCast S1x1 (m ((c : Thread nD τ).loc main_arg16)) shapeCasts_S1_S1x1 := by
  rw [← W4_base m c main_arg16 (by decide) (by decide) (by decide) (by decide)]
  show StableHlo.after hostOps2 (W4 m c) (Proc.devRef .tc main_v31) = _
  after_results
  rfl

/-- The spatial call's array reaches the temporal call untouched. -/
theorem v12_at5 (c : Dev nD) : (W5 m c (Proc.devRef .tc main_v12) : S16x4096x256.Idx → EReal)
    = fun i => Cert.Result.stage1 (args m c) (i 0) (i 1) (i 2) :=
  (W5_keep m c main_v12 (by decide)).trans ((W4_of_ne m c main_v12 (by decide)).trans ((W3_keep m c main_v12 (by decide)).trans (v12_eq m c)))

theorem lin_eq2 (Wt : S256x256.Idx → EReal) (Bt : S1x256.Idx → EReal) (W : S256x256.Idx → EReal) (B : S256.Idx → EReal)
    (hW : Wt = transpose S256x256 [1, 0] W transposes_S256x256_S256x256_1_0) (hB : Bt = shapeCast S1x256 B shapeCasts_S256_S1x256)
    (r : Fin 4096 → Fin 256 → EReal) : Cert.KernelIdeal.TemporalVal.lin Wt Bt r = Cert.Result.dn W B r := by
  funext s f
  unfold Cert.KernelIdeal.TemporalVal.lin Cert.Result.dn
  rw [hB, lead_apply]
  refine congrArg (· + B (ix1 f)) (Finset.sum_congr rfl fun d _ => ?_)
  rw [hW, tr_apply]

/-- The temporal call's output array is the result's second stage. -/
theorem v32_eq (c : Dev nD) : (W6 m c (Proc.devRef .tc main_v32) : S16x4096x256.Idx → EReal)
    = fun i => Cert.Result.stage2 (args m c) (i 0) (i 1) (i 2) := by
  refine (W6_arr m c 6).trans ?_
  rw [Cert.KernelIdeal.TemporalVal.final]
  funext i
  unfold Cert.KernelIdeal.TemporalVal.G Cert.Result.stage2
  show Cert.Spec.mix (Cert.KernelIdeal.TemporalVal.lin (W5 m c (Proc.devRef .tc main_v29)) (W5 m c (Proc.devRef .tc main_v30))
        (Cert.KernelIdeal.TemporalVal.row (W5 m c (Proc.devRef .tc main_v12)) (i 0)))
      (Cert.KernelIdeal.TemporalVal.row (W5 m c (Proc.devRef .tc main_v24)) (i 0))
      (Cert.KernelIdeal.TemporalVal.row (W5 m c (Proc.devRef .tc main_v27)) (i 0))
      (W5 m c (Proc.devRef .tc main_v31) (ix2 (0 : Fin 1) (0 : Fin 1)))
      (Cert.KernelIdeal.TemporalVal.row (W5 m c (Proc.devRef .tc main_v12)) (i 0)) (i 1) (i 2) = _
  rw [show Cert.KernelIdeal.TemporalVal.row (W5 m c (Proc.devRef .tc main_v12)) (i 0) = Cert.Result.stage1 (args m c) (i 0) from by
        funext s d; unfold Cert.KernelIdeal.TemporalVal.row; rw [v12_at5]; rfl,
    show Cert.KernelIdeal.TemporalVal.row (W5 m c (Proc.devRef .tc main_v24)) (i 0) = Cert.Result.keys2 (args m c) (i 0) from
        funext fun s => funext fun d => v24_at m c (i 0) s d,
    show Cert.KernelIdeal.TemporalVal.row (W5 m c (Proc.devRef .tc main_v27)) (i 0) = Cert.Result.vals2 (args m c) (i 0) from
        funext fun s => funext fun d => v27_at m c (i 0) s d,
    lin_eq2 _ _ _ _ (v29_eq m c) (v30_eq m c), v31_eq]
  refine congrArg (fun g => Cert.Spec.mix _ _ _ g _ (i 1) (i 2)) ?_
  exact lead_apply _ shapeCasts_S1_S1x1 (0 : Fin 1)

/-- The kernel program's result array is the result. -/
theorem v33_eq (c : Dev nD) : (W7 m c (Proc.devRef .tc main_v33) : S2x8x64x64x256.Idx → EReal) = Cert.Result.result (args m c) := by
  have e : (W7 m c (Proc.devRef .tc main_v33) : S2x8x64x64x256.Idx → EReal)
      = shapeCast S2x8x64x64x256 (W6 m c (Proc.devRef .tc main_v32)) shapeCasts_S16x4096x256_S2x8x64x64x256 := by
    show StableHlo.after hostOps3 (W6 m c) (Proc.devRef .tc main_v33) = _
    after_results
    rfl
  rw [e, v32_eq]
  funext i
  have h0 : (i 0).val < 2 := (i 0).isLt
  have h1 : (i 1).val < 8 := (i 1).isLt
  have h2 : (i 2).val < 64 := (i 2).isLt
  have h3 : (i 3).val < 64 := (i 3).isLt
  rw [shapeCast_apply _ shapeCasts_S16x4096x256_S2x8x64x64x256 i
    (ix3 (⟨(i 0).val * 8 + (i 1).val, by omega⟩ : Fin 16) (⟨(i 2).val * 64 + (i 3).val, by omega⟩ : Fin 4096) (i 4)) (by
      rw [Shape.rowMajor_val_three, Shape.rowMajor_val_five]
      show (((i 0).val * 8 + (i 1).val) * 4096 + ((i 2).val * 64 + (i 3).val)) * 256 + (i 4).val
        = (((((i 0).val * 8 + (i 1).val) * 64 + (i 2).val) * 64 + (i 3).val) * 256 + (i 4).val)
      omega)]
  rfl

end Cert.KernelIdeal.KHost

end
-- ==== Proof.RefStage1.lean ====
/-
  The reference program's first stage read at an index: its three projections, each re-laid as [16,256,4096]; the
  channel-by-channel logits; their softmax along the last axis (row maximum taken once more against −∞); the mixed
  values; and gamma times that plus the input's first 256 lanes — the spatial stage of the result, slice by slice.
-/
import proofs.«150414_j59957743452648_2_alg».proof.Proof.Gen.ReferenceIdeal.Read
import proofs.«150414_j59957743452648_2_alg».proof.Proof.Result
import proofs.«150414_j59957743452648_2_alg».proof.Proof.LibExtremeReduce

set_option maxRecDepth 16384

noncomputable section

namespace Cert.ReferenceIdeal.RefStage

open Cert.ReferenceIdeal Cert.ReferenceIdeal.Gen Cert.ReferenceIdeal.Read Cert.Result
open Idealize.ShloMosaic Idealize.ShloMosaic.ValueIdx
open scoped BigOperators

variable (x0 : (⟨S2x8x64x64x259, .f32⟩ : BufTy).Contents (Elt Ideal))
  (x3 : (⟨S256x256, .f32⟩ : BufTy).Contents (Elt Ideal)) (x4 : (⟨S256, .f32⟩ : BufTy).Contents (Elt Ideal))
  (x5 : (⟨S256x256, .f32⟩ : BufTy).Contents (Elt Ideal)) (x6 : (⟨S256, .f32⟩ : BufTy).Contents (Elt Ideal))
  (x7 : (⟨S256x256, .f32⟩ : BufTy).Contents (Elt Ideal)) (x8 : (⟨S256, .f32⟩ : BufTy).Contents (Elt Ideal))
  (x9 : (⟨S1, .f32⟩ : BufTy).Contents (Elt Ideal))

/-- Projection q: entry d of row (t, s) times the weight matrix's row d, plus the bias. -/
theorem dense_q (t : Fin 16) (s : Fin 4096) (d : Fin 256) :
    val_main_v4 (F := Ideal) x0 x3 x4 (ix5 (⟨t.val / 8, by have := t.isLt; omega⟩ : Fin 2) (⟨t.val % 8, by omega⟩ : Fin 8) (⟨s.val / 64, by have := s.isLt; omega⟩ : Fin 64) (⟨s.val % 64, by omega⟩ : Fin 64) d) = dn x3 x4 (X x0 t) s d := by
  rw [val_main_v4_apply, val_main_v1_apply, val_main_v3_apply, val_main_v2_apply]
  unfold dn X
  refine congrArg₂ (· + ·) (Finset.sum_congr rfl fun k _ => ?_) ?_
  · rw [val_main_v0_apply]
    refine congrArg₂ (· * ·) (congrArg x0 (funext fun a => Fin.ext ?_)) (congrArg x3 (funext fun a => Fin.ext ?_))
    · match a with
      | ⟨0, _⟩ => rfl
      | ⟨1, _⟩ => rfl
      | ⟨2, _⟩ => rfl
      | ⟨3, _⟩ => rfl
      | ⟨4, _⟩ => rfl
    · match a with
      | ⟨0, _⟩ => rfl
      | ⟨1, _⟩ => rfl
  · exact congrArg x4 (funext fun a => Fin.ext (by match a with | ⟨0, _⟩ => rfl))

/-- Projection k: entry d of row (t, s) times the weight matrix's row d, plus the bias. -/
theorem dense_k (t : Fin 16) (s : Fin 4096) (d : Fin 256) :
    val_main_v10 (F := Ideal) x0 x5 x6 (ix5 (⟨t.val / 8, by have := t.isLt; omega⟩ : Fin 2) (⟨t.val % 8, by omega⟩ : Fin 8) (⟨s.val / 64, by have := s.isLt; omega⟩ : Fin 64) (⟨s.val % 64, by omega⟩ : Fin 64) d) = dn x5 x6 (X x0 t) s d := by
  rw [val_main_v10_apply, val_main_v7_apply, val_main_v9_apply, val_main_v8_apply]
  unfold dn X
  refine congrArg₂ (· + ·) (Finset.sum_congr rfl fun k _ => ?_) ?_
  · rw [val_main_v0_apply]
    refine congrArg₂ (· * ·) (congrArg x0 (funext fun a => Fin.ext ?_)) (congrArg x5 (funext fun a => Fin.ext ?_))
    · match a with
      | ⟨0, _⟩ => rfl
      | ⟨1, _⟩ => rfl
      | ⟨2, _⟩ => rfl
      | ⟨3, _⟩ => rfl
      | ⟨4, _⟩ => rfl
    · match a with
      | ⟨0, _⟩ => rfl
      | ⟨1, _⟩ => rfl
  · exact congrArg x6 (funext fun a => Fin.ext (by match a with | ⟨0, _⟩ => rfl))

/-- Projection v: entry d of row (t, s) times the weight matrix's row d, plus the bias. -/
theorem dense_v (t : Fin 16) (s : Fin 4096) (d : Fin 256) :
    val_main_v28 (F := Ideal) x0 x7 x8 (ix5 (⟨t.val / 8, by have := t.isLt; omega⟩ : Fin 2) (⟨t.val % 8, by omega⟩ : Fin 8) (⟨s.val / 64, by have := s.isLt; omega⟩ : Fin 64) (⟨s.val % 64, by omega⟩ : Fin 64) d) = dn x7 x8 (X x0 t) s d := by
  rw [val_main_v28_apply, val_main_v25_apply, val_main_v27_apply, val_main_v26_apply]
  unfold dn X
  refine congrArg₂ (· + ·) (Finset.sum_congr rfl fun k _ => ?_) ?_
  · rw [val_main_v0_apply]
    refine congrArg₂ (· * ·) (congrArg x0 (funext fun a => Fin.ext ?_)) (congrArg x7 (funext fun a => Fin.ext ?_))
    · match a with
      | ⟨0, _⟩ => rfl
      | ⟨1, _⟩ => rfl
      | ⟨2, _⟩ => rfl
      | ⟨3, _⟩ => rfl
      | ⟨4, _⟩ => rfl
    · match a with
      | ⟨0, _⟩ => rfl
      | ⟨1, _⟩ => rfl
  · exact congrArg x8 (funext fun a => Fin.ext (by match a with | ⟨0, _⟩ => rfl))

/-- q as [16,256,4096]: channel c of position s of slice t. -/
theorem relay_q (t : Fin 16) (c : Fin 256) (s : Fin 4096) :
    val_main_v6 (F := Ideal) x0 x3 x4 (ix3 t c s) = val_main_v4 (F := Ideal) x0 x3 x4 (ix5 (⟨t.val / 8, by have := t.isLt; omega⟩ : Fin 2) (⟨t.val % 8, by omega⟩ : Fin 8) (⟨s.val / 64, by have := s.isLt; omega⟩ : Fin 64) (⟨s.val % 64, by omega⟩ : Fin 64) c) := by
  rw [val_main_v6_apply, val_main_v5_apply]
  refine congrArg (val_main_v4 (F := Ideal) x0 x3 x4) (funext fun a => Fin.ext ?_)
  have ht := t.isLt; have hc := c.isLt; have hs := s.isLt
  match a with
  | ⟨0, _⟩ => show ((t.val * 256 + c.val) * 4096 + s.val) / 8388608 = t.val / 8; omega
  | ⟨1, _⟩ => show ((t.val * 256 + c.val) * 4096 + s.val) / 1048576 % 8 = t.val % 8; omega
  | ⟨2, _⟩ => show ((t.val * 256 + c.val) * 4096 + s.val) / 64 % 64 = s.val / 64; omega
  | ⟨3, _⟩ => show ((t.val * 256 + c.val) * 4096 + s.val) % 64 = s.val % 64; omega
  | ⟨4, _⟩ => show ((t.val * 256 + c.val) * 4096 + s.val) / 4096 % 256 = c.val; omega

/-- k as [16,256,4096]: channel c of position s of slice t. -/
theorem relay_k (t : Fin 16) (c : Fin 256) (s : Fin 4096) :
    val_main_v12 (F := Ideal) x0 x5 x6 (ix3 t c s) = val_main_v10 (F := Ideal) x0 x5 x6 (ix5 (⟨t.val / 8, by have := t.isLt; omega⟩ : Fin 2) (⟨t.val % 8, by omega⟩ : Fin 8) (⟨s.val / 64, by have := s.isLt; omega⟩ : Fin 64) (⟨s.val % 64, by omega⟩ : Fin 64) c) := by
  rw [val_main_v12_apply, val_main_v11_apply]
  refine congrArg (val_main_v10 (F := Ideal) x0 x5 x6) (funext fun a => Fin.ext ?_)
  have ht := t.isLt; have hc := c.isLt; have hs := s.isLt
  match a with
  | ⟨0, _⟩ => show ((t.val * 256 + c.val) * 4096 + s.val) / 8388608 = t.val / 8; omega
  | ⟨1, _⟩ => show ((t.val * 256 + c.val) * 4096 + s.val) / 1048576 % 8 = t.val % 8; omega
  | ⟨2, _⟩ => show ((t.val * 256 + c.val) * 4096 + s.val) / 64 % 64 = s.val / 64; omega
  | ⟨3, _⟩ => show ((t.val * 256 + c.val) * 4096 + s.val) % 64 = s.val % 64; omega
  | ⟨4, _⟩ => show ((t.val * 256 + c.val) * 4096 + s.val) / 4096 % 256 = c.val; omega

/-- v as [16,256,4096]: channel c of position s of slice t. -/
theorem relay_v (t : Fin 16) (c : Fin 256) (s : Fin 4096) :
    val_main_v30 (F := Ideal) x0 x7 x8 (ix3 t c s) = val_main_v28 (F := Ideal) x0 x7 x8 (ix5 (⟨t.val / 8, by have := t.isLt; omega⟩ : Fin 2) (⟨t.val % 8, by omega⟩ : Fin 8) (⟨s.val / 64, by have := s.isLt; omega⟩ : Fin 64) (⟨s.val % 64, by omega⟩ : Fin 64) c) := by
  rw [val_main_v30_apply, val_main_v29_apply]
  refine congrArg (val_main_v28 (F := Ideal) x0 x7 x8) (funext fun a => Fin.ext ?_)
  have ht := t.isLt; have hc := c.isLt; have hs := s.isLt
  match a with
  | ⟨0, _⟩ => show ((t.val * 256 + c.val) * 4096 + s.val) / 8388608 = t.val / 8; omega
  | ⟨1, _⟩ => show ((t.val * 256 + c.val) * 4096 + s.val) / 1048576 % 8 = t.val % 8; omega
  | ⟨2, _⟩ => show ((t.val * 256 + c.val) * 4096 + s.val) / 64 % 64 = s.val / 64; omega
  | ⟨3, _⟩ => show ((t.val * 256 + c.val) * 4096 + s.val) % 64 = s.val % 64; omega
  | ⟨4, _⟩ => show ((t.val * 256 + c.val) * 4096 + s.val) / 4096 % 256 = c.val; omega

/-- The logits of slice t: queries against keys, summed over the positions. -/
theorem logits_1 (t : Fin 16) (c e : Fin 256) :
    val_main_v13 (F := Ideal) x0 x3 x4 x5 x6 (ix3 t c e) = Cert.Spec.logits (dn x3 x4 (X x0 t)) (dn x5 x6 (X x0 t)) c e := by
  rw [val_main_v13_apply]
  unfold Cert.Spec.logits
  refine Finset.sum_congr rfl fun s _ => ?_
  rw [show lidx_main_v13 (ix3 t c e) s = ix3 t c s from (funext fun a => Fin.ext (by match a with | ⟨0, _⟩ => rfl | ⟨1, _⟩ => rfl | ⟨2, _⟩ => rfl)),
    show ridx_main_v13 (ix3 t c e) s = ix3 t e s from (funext fun a => Fin.ext (by match a with | ⟨0, _⟩ => rfl | ⟨1, _⟩ => rfl | ⟨2, _⟩ => rfl)),
    relay_q, relay_k, dense_q, dense_k]

/-- The attention weights of stage 1: the logits soft-maxed along their last axis. -/
theorem attn_1 (t : Fin 16) (c d : Fin 256) :
    val_main_v24 (F := Ideal) x0 x3 x4 x5 x6 (ix3 t c d)
      = Cert.DenseRows.softmax (fun e => val_main_v13 (F := Ideal) x0 x3 x4 x5 x6 (ix3 t c e)) d := by
  have hmax : val_main_v16 (F := Ideal) x0 x3 x4 x5 x6 (ix2 t c) = max ⊥ (⨆ k : Fin 256, val_main_v13 (F := Ideal) x0 x3 x4 x5 x6 (ix3 t c k)) := by
    rw [val_main_v16_apply, val_main_v15_apply, val_main_cst_0_apply]
    show max (Ideal.ofBits .f32 0xFF800000#32) (val_main_v14 (F := Ideal) x0 x3 x4 x5 x6 (ix2 t c)) = _
    rw [ExtremeReduce.ofBits_negInf]
    refine congrArg (max ⊥) ?_
    unfold val_main_v14 val_main_cst
    rw [ExtremeReduce.hostReduce_max_single _ reducesTo_S16x256x256_S16x256_d2 (by decide) h_S_ (ix2 t c)]
    exact iSup_congr fun k => congrArg _ (funext fun ax => Fin.ext (by match ax with | ⟨0, _⟩ => rfl | ⟨1, _⟩ => rfl | ⟨2, _⟩ => rfl))
  have h18 : ∀ e : Fin 256, val_main_v18 (F := Ideal) x0 x3 x4 x5 x6 (ix3 t c e) = val_main_v16 (F := Ideal) x0 x3 x4 x5 x6 (ix2 t c) := by
    intro e
    rw [val_main_v18_apply, val_main_v17_apply]
    exact congrArg _ (funext fun ax => Fin.ext (by match ax with | ⟨0, _⟩ => rfl | ⟨1, _⟩ => rfl))
  have h20 : ∀ e : Fin 256, val_main_v20 (F := Ideal) x0 x3 x4 x5 x6 (ix3 t c e)
      = Ideal.exp (val_main_v13 (F := Ideal) x0 x3 x4 x5 x6 (ix3 t c e) - max ⊥ (⨆ k : Fin 256, val_main_v13 (F := Ideal) x0 x3 x4 x5 x6 (ix3 t c k))) := by
    intro e
    rw [val_main_v20_apply, val_main_v19_apply, h18, hmax]
    rfl
  have h21 : val_main_v21 (F := Ideal) x0 x3 x4 x5 x6 (ix2 t c) = ∑ e : Fin 256, val_main_v20 (F := Ideal) x0 x3 x4 x5 x6 (ix3 t c e) := by
    rw [val_main_v21_apply, val_main_cst_1_apply]
    show Ideal.ofBits .f32 0x00000000#32 + _ = _
    rw [Ideal.ofBits_zero_f32, zero_add]
    exact Finset.sum_congr rfl fun k _ => congrArg _ (funext fun ax => Fin.ext (by match ax with | ⟨0, _⟩ => rfl | ⟨1, _⟩ => rfl | ⟨2, _⟩ => rfl))
  have h23 : val_main_v23 (F := Ideal) x0 x3 x4 x5 x6 (ix3 t c d) = val_main_v21 (F := Ideal) x0 x3 x4 x5 x6 (ix2 t c) := by
    rw [val_main_v23_apply, val_main_v22_apply]
    exact congrArg _ (funext fun ax => Fin.ext (by match ax with | ⟨0, _⟩ => rfl | ⟨1, _⟩ => rfl))
  rw [val_main_v24_apply, h23, h21, h20]
  simp only [h20]
  rfl

/-- The first stage's result at (slice t, position s, channel c). -/
theorem stage1_ref (x10 : (⟨S256x256, .f32⟩ : BufTy).Contents (Elt Ideal)) (x11 : (⟨S256, .f32⟩ : BufTy).Contents (Elt Ideal))
    (x12 : (⟨S256x256, .f32⟩ : BufTy).Contents (Elt Ideal)) (x13 : (⟨S256, .f32⟩ : BufTy).Contents (Elt Ideal))
    (x14 : (⟨S256x256, .f32⟩ : BufTy).Contents (Elt Ideal)) (x15 : (⟨S256, .f32⟩ : BufTy).Contents (Elt Ideal))
    (x16 : (⟨S1, .f32⟩ : BufTy).Contents (Elt Ideal)) (t : Fin 16) (s : Fin 4096) (d : Fin 256) :
    val_main_v36 (F := Ideal) x0 x3 x4 x5 x6 x7 x8 x9 (ix5 (⟨t.val / 8, by have := t.isLt; omega⟩ : Fin 2) (⟨t.val % 8, by omega⟩ : Fin 8) (⟨s.val / 64, by have := s.isLt; omega⟩ : Fin 64) (⟨s.val % 64, by omega⟩ : Fin 64) d)
      = stage1 ⟨x0, x3, x4, x5, x6, x7, x8, x9, x10, x11, x12, x13, x14, x15, x16⟩ t s d := by
  have ht := t.isLt; have hs := s.isLt; have hd := d.isLt
  rw [val_main_v36_apply, val_main_v35_apply, val_main_v34_apply, val_main_v33_apply, val_main_v32_apply, val_main_v0_apply]
  have h32 : idx_main_v32 (ix5 (⟨t.val / 8, by have := t.isLt; omega⟩ : Fin 2) (⟨t.val % 8, by omega⟩ : Fin 8) (⟨s.val / 64, by have := s.isLt; omega⟩ : Fin 64) (⟨s.val % 64, by omega⟩ : Fin 64) d) = ix3 t s d := by
    funext a; apply Fin.ext
    match a with
    | ⟨0, _⟩ => show (((((t.val / 8) * 8 + t.val % 8) * 64 + s.val / 64) * 64 + s.val % 64) * 256 + d.val) / 1048576 = t.val; omega
    | ⟨1, _⟩ => show (((((t.val / 8) * 8 + t.val % 8) * 64 + s.val / 64) * 64 + s.val % 64) * 256 + d.val) / 256 % 4096 = s.val; omega
    | ⟨2, _⟩ => show (((((t.val / 8) * 8 + t.val % 8) * 64 + s.val / 64) * 64 + s.val % 64) * 256 + d.val) % 256 = d.val; omega
  rw [h32, val_main_v31_apply]
  unfold stage1 Cert.Spec.mix
  refine congrArg₂ (· + ·) (congrArg₂ (· * ·) (congrArg x9 (funext fun a => Fin.ext (by match a with | ⟨0, _⟩ => rfl))) (Finset.sum_congr rfl fun k _ => ?_)) ?_
  · rw [show lidx_main_v31 (ix3 t s d) k = ix3 t k s from (funext fun a => Fin.ext (by match a with | ⟨0, _⟩ => rfl | ⟨1, _⟩ => rfl | ⟨2, _⟩ => rfl)),
      show ridx_main_v31 (ix3 t s d) k = ix3 t d k from (funext fun a => Fin.ext (by match a with | ⟨0, _⟩ => rfl | ⟨1, _⟩ => rfl | ⟨2, _⟩ => rfl)),
      relay_v, dense_v, attn_1]
    exact congrArg (fun l => _ * Cert.DenseRows.softmax l k) (funext fun e => logits_1 x0 x3 x4 x5 x6 t d e)
  · unfold X
    exact congrArg x0 (funext fun a => Fin.ext (by match a with | ⟨0, _⟩ => rfl | ⟨1, _⟩ => rfl | ⟨2, _⟩ => rfl | ⟨3, _⟩ => rfl | ⟨4, _⟩ => rfl))

end Cert.ReferenceIdeal.RefStage

end
-- ==== Proof.RefStage2.lean ====
/-
  The reference program's second stage read at an index: queries from the first stage's result, keys from the input
  read with its two spatial axes exchanged, values from the interleaving reshape of the value projection; logits,
  softmax, mixed values, gamma times that plus the first stage — and with it the whole reference as the result.
-/
import proofs.«150414_j59957743452648_2_alg».proof.Proof.RefStage1

set_option maxRecDepth 16384

noncomputable section

namespace Cert.ReferenceIdeal.RefStage

open Cert.ReferenceIdeal Cert.ReferenceIdeal.Gen Cert.ReferenceIdeal.Read Cert.Result
open Idealize.ShloMosaic Idealize.ShloMosaic.ValueIdx
open scoped BigOperators

variable (x0 : (⟨S2x8x64x64x259, .f32⟩ : BufTy).Contents (Elt Ideal))
  (x3 : (⟨S256x256, .f32⟩ : BufTy).Contents (Elt Ideal)) (x4 : (⟨S256, .f32⟩ : BufTy).Contents (Elt Ideal))
  (x5 : (⟨S256x256, .f32⟩ : BufTy).Contents (Elt Ideal)) (x6 : (⟨S256, .f32⟩ : BufTy).Contents (Elt Ideal))
  (x7 : (⟨S256x256, .f32⟩ : BufTy).Contents (Elt Ideal)) (x8 : (⟨S256, .f32⟩ : BufTy).Contents (Elt Ideal))
  (x9 : (⟨S1, .f32⟩ : BufTy).Contents (Elt Ideal))
  (x10 : (⟨S256x256, .f32⟩ : BufTy).Contents (Elt Ideal)) (x11 : (⟨S256, .f32⟩ : BufTy).Contents (Elt Ideal))
  (x12 : (⟨S256x256, .f32⟩ : BufTy).Contents (Elt Ideal)) (x13 : (⟨S256, .f32⟩ : BufTy).Contents (Elt Ideal))
  (x14 : (⟨S256x256, .f32⟩ : BufTy).Contents (Elt Ideal)) (x15 : (⟨S256, .f32⟩ : BufTy).Contents (Elt Ideal))
  (x16 : (⟨S1, .f32⟩ : BufTy).Contents (Elt Ideal))

/-- The temporal queries' projection: of the first stage's result. -/
theorem dense_q2 (t : Fin 16) (s : Fin 4096) (d : Fin 256) :
    val_main_v40 (F := Ideal) x0 x3 x4 x5 x6 x7 x8 x9 x10 x11 (ix5 (⟨t.val / 8, by have := t.isLt; omega⟩ : Fin 2) (⟨t.val % 8, by omega⟩ : Fin 8) (⟨s.val / 64, by have := s.isLt; omega⟩ : Fin 64) (⟨s.val % 64, by omega⟩ : Fin 64) d) = dn x10 x11 (stage1 ⟨x0, x3, x4, x5, x6, x7, x8, x9, x10, x11, x12, x13, x14, x15, x16⟩ t) s d := by
  rw [val_main_v40_apply, val_main_v37_apply, val_main_v39_apply, val_main_v38_apply]
  unfold dn
  refine congrArg₂ (· + ·) (Finset.sum_congr rfl fun k _ => ?_) ?_
  · refine congrArg₂ (· * ·) ?_ (congrArg x10 (funext fun a => Fin.ext (by match a with | ⟨0, _⟩ => rfl | ⟨1, _⟩ => rfl)))
    rw [show lidx_main_v37 (ix5 (⟨t.val / 8, by have := t.isLt; omega⟩ : Fin 2) (⟨t.val % 8, by omega⟩ : Fin 8) (⟨s.val / 64, by have := s.isLt; omega⟩ : Fin 64) (⟨s.val % 64, by omega⟩ : Fin 64) d) k = (ix5 (⟨t.val / 8, by have := t.isLt; omega⟩ : Fin 2) (⟨t.val % 8, by omega⟩ : Fin 8) (⟨s.val / 64, by have := s.isLt; omega⟩ : Fin 64) (⟨s.val % 64, by omega⟩ : Fin 64) k) from (funext fun a => Fin.ext (by match a with | ⟨0, _⟩ => rfl | ⟨1, _⟩ => rfl | ⟨2, _⟩ => rfl | ⟨3, _⟩ => rfl | ⟨4, _⟩ => rfl))]
    exact stage1_ref x0 x3 x4 x5 x6 x7 x8 x9 x10 x11 x12 x13 x14 x15 x16 t s k
  · exact congrArg x11 (funext fun a => Fin.ext (by match a with | ⟨0, _⟩ => rfl))

/-- q2 as [16,256,4096]: channel c of position s of slice t. -/
theorem relay_q2 (t : Fin 16) (c : Fin 256) (s : Fin 4096) :
    val_main_v42 (F := Ideal) x0 x3 x4 x5 x6 x7 x8 x9 x10 x11 (ix3 t c s) = val_main_v40 (F := Ideal) x0 x3 x4 x5 x6 x7 x8 x9 x10 x11 (ix5 (⟨t.val / 8, by have := t.isLt; omega⟩ : Fin 2) (⟨t.val % 8, by omega⟩ : Fin 8) (⟨s.val / 64, by have := s.isLt; omega⟩ : Fin 64) (⟨s.val % 64, by omega⟩ : Fin 64) c) := by
  rw [val_main_v42_apply, val_main_v41_apply]
  refine congrArg (val_main_v40 (F := Ideal) x0 x3 x4 x5 x6 x7 x8 x9 x10 x11) (funext fun a => Fin.ext ?_)
  have ht := t.isLt; have hc := c.isLt; have hs := s.isLt
  match a with
  | ⟨0, _⟩ => show ((t.val * 256 + c.val) * 4096 + s.val) / 8388608 = t.val / 8; omega
  | ⟨1, _⟩ => show ((t.val * 256 + c.val) * 4096 + s.val) / 1048576 % 8 = t.val % 8; omega
  | ⟨2, _⟩ => show ((t.val * 256 + c.val) * 4096 + s.val) / 64 % 64 = s.val / 64; omega
  | ⟨3, _⟩ => show ((t.val * 256 + c.val) * 4096 + s.val) % 64 = s.val % 64; omega
  | ⟨4, _⟩ => show ((t.val * 256 + c.val) * 4096 + s.val) / 4096 % 256 = c.val; omega

/-- Projection k2: entry d of row (t, s) times the weight matrix's row d, plus the bias. -/
theorem dense_k2 (t : Fin 16) (s : Fin 4096) (d : Fin 256) :
    val_main_v46 (F := Ideal) x0 x12 x13 (ix5 (⟨t.val / 8, by have := t.isLt; omega⟩ : Fin 2) (⟨t.val % 8, by omega⟩ : Fin 8) (⟨s.val / 64, by have := s.isLt; omega⟩ : Fin 64) (⟨s.val % 64, by omega⟩ : Fin 64) d) = dn x12 x13 (X x0 t) s d := by
  rw [val_main_v46_apply, val_main_v43_apply, val_main_v45_apply, val_main_v44_apply]
  unfold dn X
  refine congrArg₂ (· + ·) (Finset.sum_congr rfl fun k _ => ?_) ?_
  · rw [val_main_v0_apply]
    refine congrArg₂ (· * ·) (congrArg x0 (funext fun a => Fin.ext ?_)) (congrArg x12 (funext fun a => Fin.ext ?_))
    · match a with
      | ⟨0, _⟩ => rfl
      | ⟨1, _⟩ => rfl
      | ⟨2, _⟩ => rfl
      | ⟨3, _⟩ => rfl
      | ⟨4, _⟩ => rfl
    · match a with
      | ⟨0, _⟩ => rfl
      | ⟨1, _⟩ => rfl
  · exact congrArg x13 (funext fun a => Fin.ext (by match a with | ⟨0, _⟩ => rfl))

/-- The temporal keys as [16,256,4096]: the projection with its two spatial axes exchanged. -/
theorem relay_k2 (t : Fin 16) (d : Fin 256) (s : Fin 4096) :
    val_main_v48 (F := Ideal) x0 x12 x13 (ix3 t d s) = keys2 ⟨x0, x3, x4, x5, x6, x7, x8, x9, x10, x11, x12, x13, x14, x15, x16⟩ t s d := by
  have ht := t.isLt; have hd := d.isLt; have hs := s.isLt
  rw [val_main_v48_apply, val_main_v47_apply]
  unfold keys2
  refine Eq.trans (congrArg (val_main_v46 (F := Ideal) x0 x12 x13) (funext fun a => Fin.ext ?_))
    (dense_k2 x0 x12 x13 t (⟨s.val % 64 * 64 + s.val / 64, by have := s.isLt; omega⟩ : Fin 4096) d)
  match a with
  | ⟨0, _⟩ => show ((t.val * 256 + d.val) * 4096 + s.val) / 8388608 = t.val / 8; omega
  | ⟨1, _⟩ => show ((t.val * 256 + d.val) * 4096 + s.val) / 1048576 % 8 = t.val % 8; omega
  | ⟨2, _⟩ =>
    show ((t.val * 256 + d.val) * 4096 + s.val) % 64 = (s.val % 64 * 64 + s.val / 64) / 64
    have h1 : ((t.val * 256 + d.val) * 4096 + s.val) % 64 = s.val % 64 := by omega
    have h2 : s.val / 64 < 64 := by omega
    have h3 : (s.val % 64 * 64 + s.val / 64) / 64 = s.val % 64 := by omega
    rw [h1, h3]
  | ⟨3, _⟩ =>
    show ((t.val * 256 + d.val) * 4096 + s.val) / 64 % 64 = (s.val % 64 * 64 + s.val / 64) % 64
    have h1 : ((t.val * 256 + d.val) * 4096 + s.val) / 64 = (t.val * 256 + d.val) * 64 + s.val / 64 := by omega
    have h2 : s.val / 64 < 64 := by omega
    have h3 : (s.val % 64 * 64 + s.val / 64) % 64 = s.val / 64 := by omega
    rw [h1, h3]
    omega
  | ⟨4, _⟩ => show ((t.val * 256 + d.val) * 4096 + s.val) / 4096 % 256 = d.val; omega

/-- The temporal logits of slice t. -/
theorem logits_2 (t : Fin 16) (c e : Fin 256) :
    val_main_v49 (F := Ideal) x0 x3 x4 x5 x6 x7 x8 x9 x10 x11 x12 x13 (ix3 t c e)
      = Cert.Spec.logits (dn x10 x11 (stage1 ⟨x0, x3, x4, x5, x6, x7, x8, x9, x10, x11, x12, x13, x14, x15, x16⟩ t)) (keys2 ⟨x0, x3, x4, x5, x6, x7, x8, x9, x10, x11, x12, x13, x14, x15, x16⟩ t) c e := by
  rw [val_main_v49_apply]
  unfold Cert.Spec.logits
  refine Finset.sum_congr rfl fun s _ => ?_
  rw [show lidx_main_v49 (ix3 t c e) s = ix3 t c s from (funext fun a => Fin.ext (by match a with | ⟨0, _⟩ => rfl | ⟨1, _⟩ => rfl | ⟨2, _⟩ => rfl)),
    show ridx_main_v49 (ix3 t c e) s = ix3 t e s from (funext fun a => Fin.ext (by match a with | ⟨0, _⟩ => rfl | ⟨1, _⟩ => rfl | ⟨2, _⟩ => rfl)),
    relay_q2, relay_k2 x0 x3 x4 x5 x6 x7 x8 x9 x10 x11 x12 x13 x14 x15 x16, dense_q2 x0 x3 x4 x5 x6 x7 x8 x9 x10 x11 x12 x13 x14 x15 x16]

/-- The attention weights of stage 2: the logits soft-maxed along their last axis. -/
theorem attn_2 (t : Fin 16) (c d : Fin 256) :
    val_main_v60 (F := Ideal) x0 x3 x4 x5 x6 x7 x8 x9 x10 x11 x12 x13 (ix3 t c d)
      = Cert.DenseRows.softmax (fun e => val_main_v49 (F := Ideal) x0 x3 x4 x5 x6 x7 x8 x9 x10 x11 x12 x13 (ix3 t c e)) d := by
  have hmax : val_main_v52 (F := Ideal) x0 x3 x4 x5 x6 x7 x8 x9 x10 x11 x12 x13 (ix2 t c) = max ⊥ (⨆ k : Fin 256, val_main_v49 (F := Ideal) x0 x3 x4 x5 x6 x7 x8 x9 x10 x11 x12 x13 (ix3 t c k)) := by
    rw [val_main_v52_apply, val_main_v51_apply, val_main_cst_3_apply]
    show max (Ideal.ofBits .f32 0xFF800000#32) (val_main_v50 (F := Ideal) x0 x3 x4 x5 x6 x7 x8 x9 x10 x11 x12 x13 (ix2 t c)) = _
    rw [ExtremeReduce.ofBits_negInf]
    refine congrArg (max ⊥) ?_
    unfold val_main_v50 val_main_cst_2
    rw [ExtremeReduce.hostReduce_max_single _ reducesTo_S16x256x256_S16x256_d2 (by decide) h_S_ (ix2 t c)]
    exact iSup_congr fun k => congrArg _ (funext fun ax => Fin.ext (by match ax with | ⟨0, _⟩ => rfl | ⟨1, _⟩ => rfl | ⟨2, _⟩ => rfl))
  have h18 : ∀ e : Fin 256, val_main_v54 (F := Ideal) x0 x3 x4 x5 x6 x7 x8 x9 x10 x11 x12 x13 (ix3 t c e) = val_main_v52 (F := Ideal) x0 x3 x4 x5 x6 x7 x8 x9 x10 x11 x12 x13 (ix2 t c) := by
    intro e
    rw [val_main_v54_apply, val_main_v53_apply]
    exact congrArg _ (funext fun ax => Fin.ext (by match ax with | ⟨0, _⟩ => rfl | ⟨1, _⟩ => rfl))
  have h20 : ∀ e : Fin 256, val_main_v56 (F := Ideal) x0 x3 x4 x5 x6 x7 x8 x9 x10 x11 x12 x13 (ix3 t c e)
      = Ideal.exp (val_main_v49 (F := Ideal) x0 x3 x4 x5 x6 x7 x8 x9 x10 x11 x12 x13 (ix3 t c e) - max ⊥ (⨆ k : Fin 256, val_main_v49 (F := Ideal) x0 x3 x4 x5 x6 x7 x8 x9 x10 x11 x12 x13 (ix3 t c k))) := by
    intro e
    rw [val_main_v56_apply, val_main_v55_apply, h18, hmax]
    rfl
  have h21 : val_main_v57 (F := Ideal) x0 x3 x4 x5 x6 x7 x8 x9 x10 x11 x12 x13 (ix2 t c) = ∑ e : Fin 256, val_main_v56 (F := Ideal) x0 x3 x4 x5 x6 x7 x8 x9 x10 x11 x12 x13 (ix3 t c e) := by
    rw [val_main_v57_apply, val_main_cst_4_apply]
    show Ideal.ofBits .f32 0x00000000#32 + _ = _
    rw [Ideal.ofBits_zero_f32, zero_add]
    exact Finset.sum_congr rfl fun k _ => congrArg _ (funext fun ax => Fin.ext (by match ax with | ⟨0, _⟩ => rfl | ⟨1, _⟩ => rfl | ⟨2, _⟩ => rfl))
  have h23 : val_main_v59 (F := Ideal) x0 x3 x4 x5 x6 x7 x8 x9 x10 x11 x12 x13 (ix3 t c d) = val_main_v57 (F := Ideal) x0 x3 x4 x5 x6 x7 x8 x9 x10 x11 x12 x13 (ix2 t c) := by
    rw [val_main_v59_apply, val_main_v58_apply]
    exact congrArg _ (funext fun ax => Fin.ext (by match ax with | ⟨0, _⟩ => rfl | ⟨1, _⟩ => rfl))
  rw [val_main_v60_apply, h23, h21, h20]
  simp only [h20]
  rfl

/-- The value projection as a whole array. -/
theorem vconv_ref : val_main_v64 (F := Ideal) x0 x14 x15 = vconv ⟨x0, x3, x4, x5, x6, x7, x8, x9, x10, x11, x12, x13, x14, x15, x16⟩ := by
  funext i
  have h0 : (i 0).val < 2 := (i 0).isLt
  have h1 : (i 1).val < 8 := (i 1).isLt
  have h2 : (i 2).val < 64 := (i 2).isLt
  have h3 : (i 3).val < 64 := (i 3).isLt
  rw [val_main_v64_apply, val_main_v61_apply, val_main_v63_apply, val_main_v62_apply]
  unfold vconv dn X
  refine congrArg₂ (· + ·) (Finset.sum_congr rfl fun k _ => ?_) ?_
  · rw [val_main_v0_apply]
    refine congrArg₂ (· * ·) (congrArg x0 (funext fun a => Fin.ext ?_)) (congrArg x14 (funext fun a => Fin.ext (by match a with | ⟨0, _⟩ => rfl | ⟨1, _⟩ => rfl)))
    match a with
    | ⟨0, _⟩ => show (i 0).val = ((i 0).val * 8 + (i 1).val) / 8; omega
    | ⟨1, _⟩ => show (i 1).val = ((i 0).val * 8 + (i 1).val) % 8; omega
    | ⟨2, _⟩ => show (i 2).val = ((i 2).val * 64 + (i 3).val) / 64; omega
    | ⟨3, _⟩ => show (i 3).val = ((i 2).val * 64 + (i 3).val) % 64; omega
    | ⟨4, _⟩ => rfl
  · exact congrArg x15 (funext fun a => Fin.ext (by match a with | ⟨0, _⟩ => rfl))

/-- The temporal values as [16,256,4096]: the interleaving reshape of the value projection. -/
theorem vals_ref (t : Fin 16) (d : Fin 256) (s : Fin 4096) :
    val_main_v66 (F := Ideal) x0 x14 x15 (ix3 t d s) = vals2 ⟨x0, x3, x4, x5, x6, x7, x8, x9, x10, x11, x12, x13, x14, x15, x16⟩ t s d := by
  unfold vals2
  rw [← vconv_ref x0 x3 x4 x5 x6 x7 x8 x9 x10 x11 x12 x13 x14 x15 x16]
  rfl

/-- The whole reference at (slice t, position s, channel d). -/
theorem stage2_ref (t : Fin 16) (s : Fin 4096) (d : Fin 256) :
    val_main_v72 (F := Ideal) x0 x3 x4 x5 x6 x7 x8 x9 x10 x11 x12 x13 x14 x15 x16 (ix5 (⟨t.val / 8, by have := t.isLt; omega⟩ : Fin 2) (⟨t.val % 8, by omega⟩ : Fin 8) (⟨s.val / 64, by have := s.isLt; omega⟩ : Fin 64) (⟨s.val % 64, by omega⟩ : Fin 64) d) = stage2 ⟨x0, x3, x4, x5, x6, x7, x8, x9, x10, x11, x12, x13, x14, x15, x16⟩ t s d := by
  have ht := t.isLt; have hs := s.isLt; have hd := d.isLt
  rw [val_main_v72_apply, val_main_v71_apply, val_main_v70_apply, val_main_v69_apply, val_main_v68_apply,
    stage1_ref x0 x3 x4 x5 x6 x7 x8 x9 x10 x11 x12 x13 x14 x15 x16]
  have h68 : idx_main_v68 (ix5 (⟨t.val / 8, by have := t.isLt; omega⟩ : Fin 2) (⟨t.val % 8, by omega⟩ : Fin 8) (⟨s.val / 64, by have := s.isLt; omega⟩ : Fin 64) (⟨s.val % 64, by omega⟩ : Fin 64) d) = ix3 t s d := by
    funext a; apply Fin.ext
    match a with
    | ⟨0, _⟩ => show (((((t.val / 8) * 8 + t.val % 8) * 64 + s.val / 64) * 64 + s.val % 64) * 256 + d.val) / 1048576 = t.val; omega
    | ⟨1, _⟩ => show (((((t.val / 8) * 8 + t.val % 8) * 64 + s.val / 64) * 64 + s.val % 64) * 256 + d.val) / 256 % 4096 = s.val; omega
    | ⟨2, _⟩ => show (((((t.val / 8) * 8 + t.val % 8) * 64 + s.val / 64) * 64 + s.val % 64) * 256 + d.val) % 256 = d.val; omega
  rw [h68, val_main_v67_apply]
  unfold stage2 Cert.Spec.mix
  refine congrArg₂ (· + ·) (congrArg₂ (· * ·) (congrArg x16 (funext fun a => Fin.ext (by match a with | ⟨0, _⟩ => rfl))) (Finset.sum_congr rfl fun k _ => ?_)) rfl
  rw [show lidx_main_v67 (ix3 t s d) k = ix3 t k s from (funext fun a => Fin.ext (by match a with | ⟨0, _⟩ => rfl | ⟨1, _⟩ => rfl | ⟨2, _⟩ => rfl)),
    show ridx_main_v67 (ix3 t s d) k = ix3 t d k from (funext fun a => Fin.ext (by match a with | ⟨0, _⟩ => rfl | ⟨1, _⟩ => rfl | ⟨2, _⟩ => rfl)),
    vals_ref x0 x3 x4 x5 x6 x7 x8 x9 x10 x11 x12 x13 x14 x15 x16, attn_2]
  exact congrArg (fun l => _ * Cert.DenseRows.softmax l k) (funext fun e => logits_2 x0 x3 x4 x5 x6 x7 x8 x9 x10 x11 x12 x13 x14 x15 x16 t d e)

/-- The reference computes the result. -/
theorem ref_result : val_main_v72 (F := Ideal) x0 x3 x4 x5 x6 x7 x8 x9 x10 x11 x12 x13 x14 x15 x16 = result ⟨x0, x3, x4, x5, x6, x7, x8, x9, x10, x11, x12, x13, x14, x15, x16⟩ := by
  funext i
  have h0 : (i 0).val < 2 := (i 0).isLt
  have h1 : (i 1).val < 8 := (i 1).isLt
  have h2 : (i 2).val < 64 := (i 2).isLt
  have h3 : (i 3).val < 64 := (i 3).isLt
  have key := stage2_ref x0 x3 x4 x5 x6 x7 x8 x9 x10 x11 x12 x13 x14 x15 x16
    (⟨(i 0).val * 8 + (i 1).val, by omega⟩ : Fin 16) (⟨(i 2).val * 64 + (i 3).val, by omega⟩ : Fin 4096) (i 4)
  have hi : (ix5 (⟨((i 0).val * 8 + (i 1).val) / 8, by omega⟩ : Fin 2) (⟨((i 0).val * 8 + (i 1).val) % 8, by omega⟩ : Fin 8)
      (⟨((i 2).val * 64 + (i 3).val) / 64, by omega⟩ : Fin 64) (⟨((i 2).val * 64 + (i 3).val) % 64, by omega⟩ : Fin 64) (i 4) : S2x8x64x64x256.Idx) = i := by
    funext a; apply Fin.ext
    match a with
    | ⟨0, _⟩ => show ((i 0).val * 8 + (i 1).val) / 8 = (i 0).val; omega
    | ⟨1, _⟩ => show ((i 0).val * 8 + (i 1).val) % 8 = (i 1).val; omega
    | ⟨2, _⟩ => show ((i 2).val * 64 + (i 3).val) / 64 = (i 2).val; omega
    | ⟨3, _⟩ => show ((i 2).val * 64 + (i 3).val) % 64 = (i 3).val; omega
    | ⟨4, _⟩ => rfl
  rw [hi] at key
  exact key

end Cert.ReferenceIdeal.RefStage

end
-- ==== Proof.Bridge.lean ====
/-
  The two idealized programs end with equal results. The kernel program's result array is the closed-form result of
  its argument arrays (three calls and four host stretches read back segment by segment); the reference's result term,
  read operation by operation, is the same closed form of its argument arrays; and the two memories agree on the
  arguments. The only laws used between the two sides are re-indexings of finite sums and of array layouts: no
  finiteness of the inputs is needed.
-/
import proofs.«150414_j59957743452648_2_alg».proof.Defs
import proofs.«150414_j59957743452648_2_alg».proof.Proof.Gen.Pre_finite_inputs
import proofs.«150414_j59957743452648_2_alg».proof.Proof.KHost2
import proofs.«150414_j59957743452648_2_alg».proof.Proof.RefStage2

set_option maxRecDepth 16384

noncomputable section

namespace Cert.Proof.Bridge

open Idealize.ShloMosaic Idealize.ShloMosaic.TcCoe Idealize.SL.Sem

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Result.result (Cert.KernelIdeal.KHost.args m c), ?_, ?_⟩
  · refine (θ_run Cert.KernelIdeal.defs _ _).mono (fun r h c => ⟨?_,
      Cert.KernelIdeal.Run.arg_kept m (h c) Cert.KernelIdeal.main_arg0 (by decide) (by decide) (by decide) (by decide) (by decide) (by decide) (by decide) (by decide),
      Cert.KernelIdeal.Run.arg_kept m (h c) Cert.KernelIdeal.main_arg1 (by decide) (by decide) (by decide) (by decide) (by decide) (by decide) (by decide) (by decide),
      Cert.KernelIdeal.Run.arg_kept m (h c) Cert.KernelIdeal.main_arg2 (by decide) (by decide) (by decide) (by decide) (by decide) (by decide) (by decide) (by decide),
      Cert.KernelIdeal.Run.arg_kept m (h c) Cert.KernelIdeal.main_arg3 (by decide) (by decide) (by decide) (by decide) (by decide) (by decide) (by decide) (by decide),
      Cert.KernelIdeal.Run.arg_kept m (h c) Cert.KernelIdeal.main_arg4 (by decide) (by decide) (by decide) (by decide) (by decide) (by decide) (by decide) (by decide),
      Cert.KernelIdeal.Run.arg_kept m (h c) Cert.KernelIdeal.main_arg5 (by decide) (by decide) (by decide) (by decide) (by decide) (by decide) (by decide) (by decide),
      Cert.KernelIdeal.Run.arg_kept m (h c) Cert.KernelIdeal.main_arg6 (by decide) (by decide) (by decide) (by decide) (by decide) (by decide) (by decide) (by decide),
      Cert.KernelIdeal.Run.arg_kept m (h c) Cert.KernelIdeal.main_arg7 (by decide) (by decide) (by decide) (by decide) (by decide) (by decide) (by decide) (by decide),
      Cert.KernelIdeal.Run.arg_kept m (h c) Cert.KernelIdeal.main_arg8 (by decide) (by decide) (by decide) (by decide) (by decide) (by decide) (by decide) (by decide),
      Cert.KernelIdeal.Run.arg_kept m (h c) Cert.KernelIdeal.main_arg9 (by decide) (by decide) (by decide) (by decide) (by decide) (by decide) (by decide) (by decide),
      Cert.KernelIdeal.Run.arg_kept m (h c) Cert.KernelIdeal.main_arg10 (by decide) (by decide) (by decide) (by decide) (by decide) (by decide) (by decide) (by decide),
      Cert.KernelIdeal.Run.arg_kept m (h c) Cert.KernelIdeal.main_arg11 (by decide) (by decide) (by decide) (by decide) (by decide) (by decide) (by decide) (by decide),
      Cert.KernelIdeal.Run.arg_kept m (h c) Cert.KernelIdeal.main_arg12 (by decide) (by decide) (by decide) (by decide) (by decide) (by decide) (by decide) (by decide),
      Cert.KernelIdeal.Run.arg_kept m (h c) Cert.KernelIdeal.main_arg13 (by decide) (by decide) (by decide) (by decide) (by decide) (by decide) (by decide) (by decide),
      Cert.KernelIdeal.Run.arg_kept m (h c) Cert.KernelIdeal.main_arg14 (by decide) (by decide) (by decide) (by decide) (by decide) (by decide) (by decide) (by decide),
      Cert.KernelIdeal.Run.arg_kept m (h c) Cert.KernelIdeal.main_arg15 (by decide) (by decide) (by decide) (by decide) (by decide) (by decide) (by decide) (by decide),
      Cert.KernelIdeal.Run.arg_kept m (h c) Cert.KernelIdeal.main_arg16 (by decide) (by decide) (by decide) (by decide) (by decide) (by decide) (by decide) (by decide)⟩) (Cert.KernelIdeal.Run.run (F := Ideal) m ρ)
    exact (h c _ (Cert.KernelIdeal.Run.mem_uc Cert.KernelIdeal.main_v33 (by decide))).trans (Cert.KernelIdeal.KHost.v33_eq m c)
  · refine (θ_run Cert.ReferenceIdeal.defs _ _).mono (fun r h c => ⟨?_, (h c).2⟩)
      (Cert.ReferenceIdeal.Value.run (F := Ideal) m' ρ')
    obtain ⟨h0, h1, h2, h3, h4, h5, h6, h7, h8, h9, h10, h11, h12, h13, h14, h15, h16⟩ := hagree c
    rw [(h c).1, Cert.ReferenceIdeal.Read.val_main_v72_eq, Cert.ReferenceIdeal.RefStage.ref_result,
      h0, h3, h4, h5, h6, h7, h8, h9, h10, h11, h12, h13, h14, h15, h16]
    rfl

end Cert.Proof.Bridge

end
-- ==== Proof.lean ====
/-
  Two channel-attention stages over a [2,8,64,64,259] video tensor, of which only the first 256 lanes are used.

  For each of the 16 (batch, frame) slices, a [4096,256] block x is projected to queries, keys and values; the
  [256,256] logits, sum over the 4096 positions of q(s,c)·k(s,d), are soft-maxed along d; the values are mixed,
  out(s,c) = sum over d of v(s,d)·attn(c,d); and gamma·out + x is the stage's result. The temporal stage repeats this
  with queries from the spatial result, keys from the input with the two spatial axes exchanged, and values from the
  input with the channel and frame axes interleaved by a reshape.

  The kernel program is three pipelined calls among host operations: the spatial stage (one slice per grid point),
  a row-tiled projection that yields the temporal keys and values, and the temporal stage. The reference is host
  operations only.

  Frames. Each call's body loads whole staging buffers, computes, and stores one whole buffer; the window over the
  259-lane input takes lane block 0 only and so is never cut at the array's end. Between segments every unscoped buffer
  is held at contents computed by a fold from the launch memory; no segment writes an argument array. The reference's
  frame is its run with the result dropped. The idealization rewrote nothing, so it preserves the kernel trivially.

  Values. Each call's output array is one function of the arrays it is entered with: a grid point writes back the
  payload of the blocks it staged, and the blocks tile the array. Read at an index on the extended reals (a change of
  float format is the identity, a matrix product into zero is a finite sum, a lane reduction a supremum or a sum), the
  three arrays compose to a closed form — the two attention stages above — and the reference's operations, read one
  at a time, compose to the same closed form. The interleaving reshape of the temporal values is the same whole-array
  operation on both sides and is never opened. Only re-indexings of finite sums and of layouts join the two sides.
-/
import proofs.«150414_j59957743452648_2_alg».proof.Defs
import proofs.«150414_j59957743452648_2_alg».proof.Proof.Gen.Kernel
import proofs.«150414_j59957743452648_2_alg».proof.Proof.Gen.KernelIdeal
import proofs.«150414_j59957743452648_2_alg».proof.Proof.Gen.ReferenceIdeal
import proofs.«150414_j59957743452648_2_alg».proof.Proof.Gen.Pre_finite_inputs
import proofs.«150414_j59957743452648_2_alg».proof.Proof.KbRun
import proofs.«150414_j59957743452648_2_alg».proof.Proof.KiRun
import proofs.«150414_j59957743452648_2_alg».proof.Proof.RefFrame
import proofs.«150414_j59957743452648_2_alg».proof.Proof.Bridge
import Idealize.ShloMosaic.Adequacy
import Idealize.ShloMosaic.Init

noncomputable section

namespace Cert.Proof

open Idealize.ShloMosaic Idealize.SL.Sem

theorem frame_p : Cert.frame_Kernel (hKernel := Cert.Kernel.Gen.facts) (hPre_finite_inputs := Cert.Pre_finite_inputs.Gen.facts) :=
  fun m ρ _ => Cert.Kernel.Run.frame (F := Bits) m ρ

theorem frame_pi : Cert.frame_KernelIdeal (hKernelIdeal := Cert.KernelIdeal.Gen.facts) (hPre_finite_inputs := Cert.Pre_finite_inputs.Gen.facts) :=
  fun m ρ _ => Cert.KernelIdeal.Run.frame (F := Ideal) m ρ

theorem claim : Cert.Claim := ⟨Cert.Kernel.Gen.facts, Cert.KernelIdeal.Gen.facts, Cert.ReferenceIdeal.Gen.facts, Cert.Pre_finite_inputs.Gen.facts,
  frame_p, frame_pi, Cert.Proof.RefFrame.frame_ri, trivial, Cert.Proof.Bridge.algebraic⟩

end Cert.Proof

end
